-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S4x2x64x64 : Shape := ⟨4, ![4, 2, 64, 64]⟩
abbrev S256x256 : Shape := ⟨2, ![256, 256]⟩
abbrev S256 : Shape := ⟨1, ![256]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel
  bcast_S_S4x2x64x64 : S_.BroadcastsInDim S4x2x64x64 (![] : Fin 0 → Fin S4x2x64x64.rank)
  reducesTo_S4x2x64x64_S_d0_1_2_3 : S4x2x64x64.ReducesTo [0, 1, 2, 3] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S4x256x64x64 .f32) (main_arg1 : FVec F S4x2x64x64 .f32) (main_arg2 : FVec F S256x256 .f32) (main_arg3 : FVec F S256 .f32) (main_arg4 : FVec F S256x256 .f32) (main_arg5 : FVec F S256 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S4x2x64x64 .f32 := Host.absf main_arg1
  let main_cst_0 : FVec F S_ .f32 := constant S_ .f32 0x7F800000#32
  let main_v5 : FVec F S4x2x64x64 .f32 := broadcastInDim S4x2x64x64 ![] bcast_S_S4x2x64x64 main_cst_0
  let main_v6 : IVec S4x2x64x64 1 := cmpf .olt main_v4 main_v5
  let main_c_1 : IVec S_ 1 := constantI S_ 1 1#1
  let main_v7 : IVec S_ 1 := (fun x v => Host.reduce IntOp.andi x v reducesTo_S4x2x64x64_S_d0_1_2_3 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4x256x64x64 : Shape := ⟨4, ![4, 256, 64, 64]⟩
abbrev S4x2x64x64 : Shape := ⟨4, ![4, 2, 64, 64]⟩
abbrev S256x256 : Shape := ⟨2, ![256, 256]⟩
abbrev S256 : Shape := ⟨1, ![256]⟩
abbrev S4x256x4096 : Shape := ⟨3, ![4, 256, 4096]⟩
abbrev S4x2x4096 : Shape := ⟨3, ![4, 2, 4096]⟩
abbrev S4x4096x2 : Shape := ⟨3, ![4, 4096, 2]⟩
abbrev S4x4096x256 : Shape := ⟨3, ![4, 4096, 256]⟩
abbrev S1x256x1024 : Shape := ⟨3, ![1, 256, 1024]⟩
abbrev S1x1024x256 : Shape := ⟨3, ![1, 1024, 256]⟩
abbrev S256x1024 : Shape := ⟨2, ![256, 1024]⟩
abbrev S1024x256 : Shape := ⟨2, ![1024, 256]⟩
abbrev S1x256 : Shape := ⟨2, ![1, 256]⟩
abbrev S1x2048x256 : Shape := ⟨3, ![1, 2048, 256]⟩
abbrev S1x2048x2 : Shape := ⟨3, ![1, 2048, 2]⟩
abbrev S1x1024x2 : Shape := ⟨3, ![1, 1024, 2]⟩
abbrev S1024x1 : Shape := ⟨2, ![1024, 1]⟩
abbrev S1024x2 : Shape := ⟨2, ![1024, 2]⟩
abbrev S2048x256 : Shape := ⟨2, ![2048, 256]⟩
abbrev S2048x2 : Shape := ⟨2, ![2048, 2]⟩
abbrev S1024x2048 : Shape := ⟨2, ![1024, 2048]⟩
abbrev S1024 : Shape := ⟨1, ![1024]⟩
abbrev S2x2048 : Shape := ⟨2, ![2, 2048]⟩
abbrev S1x2048 : Shape := ⟨2, ![1, 2048]⟩
abbrev S4x64x64x2 : Shape := ⟨4, ![4, 64, 64, 2]⟩

abbrev nBuf : Space → Nat
  | .hbm => 14
  | .vmem => 21
  | .smem => 0
  | _ => 0

abbrev bufTy : (tb : Table) → Fin (tcTables nBuf tb) → BufTy
  | .hbm, ⟨0, _⟩ => ⟨S4x256x64x64, .f32⟩
  | .hbm, ⟨1, _⟩ => ⟨S4x2x64x64, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S4x256x4096, .f32⟩
  | .hbm, ⟨7, _⟩ => ⟨S4x2x4096, .f32⟩
  | .hbm, ⟨8, _⟩ => ⟨S4x4096x2, .f32⟩
  | .hbm, ⟨9, _⟩ => ⟨S4x4096x256, .bf16⟩
  | .hbm, ⟨10, _⟩ => ⟨S4x4096x256, .bf16⟩
  | .hbm, ⟨11, _⟩ => ⟨S4x4096x2, .f32⟩
  | .hbm, ⟨12, _⟩ => ⟨S4x64x64x2, .f32⟩
  | .hbm, ⟨13, _⟩ => ⟨S4x2x64x64, .f32⟩
  | .local _ .vmem, ⟨0, _⟩ => ⟨S1x256x1024, .f32⟩
  | .local _ .vmem, ⟨1, _⟩ => ⟨S1x256x1024, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x2048x2, .f32⟩
  | .local _ .vmem, ⟨15, _⟩ => ⟨S1x2048x2, .f32⟩
  | .local _ .vmem, ⟨16, _⟩ => ⟨S1x1024x2, .f32⟩
  | .local _ .vmem, ⟨17, _⟩ => ⟨S1x1024x2, .f32⟩
  | .local _ .vmem, ⟨18, _⟩ => ⟨S1024x1, .f32⟩
  | .local _ .vmem, ⟨19, _⟩ => ⟨S1024x1, .f32⟩
  | .local _ .vmem, ⟨20, _⟩ => ⟨S1024x2, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v51 : BitVec 1 := Scalar.cmpi .eq arg2 c1_i32
  let v52 : BitVec 32 := Scalar.extui v51
  let c0_i32_26 : BitVec 32 := 0#32
  let v53 : BitVec 1 := Scalar.cmpi .ne v52 c0_i32_26
  v53

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x256x64x64_S4x256x4096 : S4x256x64x64.ShapeCasts S4x256x4096
  shapeCasts_S4x2x64x64_S4x2x4096 : S4x2x64x64.ShapeCasts S4x2x4096
  transposes_S4x2x4096_S4x4096x2_0_2_1 : S4x2x4096.Transposes [0, 2, 1] S4x4096x2
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x2048x2_S1x2048x2_0_0_0 : ∀ a, (![0, 0, 0] : Fin 3 → Nat) a + S1x2048x2.size a ≤ S1x2048x2.size a
  h_S1x2048x2 : 0 < S1x2048x2.numel
  shapeCasts_S1x2048x2_S2048x2 : S1x2048x2.ShapeCasts S2048x2
  reduces_S1024x2048_S1024 : S1024x2048.Reduces [1] S1024
  shapeCasts_S1024_S1024x1 : S1024.ShapeCasts S1024x1
  broadcasts_S1024x1_S1024x2048 : S1024x1.Broadcasts S1024x2048
  transposes_S2048x2_p1_0_S2x2048 : S2048x2.Transposes [1, 0] S2x2048
  slices_S2x2048_o0_0_S1x2048 : S2x2048.Slices ![0, 0] S1x2048
  broadcasts_S1x2048_S1024x2048 : S1x2048.Broadcasts S1024x2048
  slices_S2x2048_o1_0_S1x2048 : S2x2048.Slices ![1, 0] S1x2048
  concatenates_S1024x1_S1024x1_S1024x2_d1 : Shape.Concatenates [S1024x1, S1024x1] S1024x2 1
  broadcasts_S1024x1_S1024x2 : S1024x1.Broadcasts S1024x2
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  shapeCasts_S1024x2_S1x1024x2 : S1024x2.ShapeCasts S1x1024x2
  shapeCasts_S4x4096x2_S4x64x64x2 : S4x4096x2.ShapeCasts S4x64x64x2
  transposes_S4x64x64x2_S4x2x64x64_0_3_1_2 : S4x64x64x2.Transposes [0, 3, 1, 2] S4x2x64x64
  dot_S256x1024_S256x256_S1024x256_0_1_1_0_n_n_wf : DotDims.WF S256x1024 S256x256 S1024x256 [0] [1] [1] [0] [] []
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x256x4096.size a
  hwx0_0 : ∀ i : grid0.Coords, EltTy.bits .f32 = 32 ∨ (Rect.block (s := S4x256x4096) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x256.size a ≤ S4x4096x256.size a
  hwx0_5 : ∀ i : grid0.Coords, EltTy.bits .bf16 = 32 ∨ (Rect.block (s := S4x4096x256) S1x1024x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x256.size a ≤ S4x4096x256.size a
  hwx0_6 : ∀ i : grid0.Coords, EltTy.bits .bf16 = 32 ∨ (Rect.block (s := S4x4096x256) S1x1024x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S4x4096x256.size a
  hwx1_0 : ∀ i : grid1.Coords, EltTy.bits .bf16 = 32 ∨ (Rect.block (s := S4x4096x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x256.size a ≤ S4x4096x256.size a
  hwx1_1 : ∀ i : grid1.Coords, EltTy.bits .bf16 = 32 ∨ (Rect.block (s := S4x4096x256) S1x2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x2.size a ≤ S4x4096x2.size a
  hwx1_2 : ∀ i : grid1.Coords, EltTy.bits .f32 = 32 ∨ (Rect.block (s := S4x4096x2) S1x2048x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x2.size a ≤ S4x4096x2.size a
  hwx1_3 : ∀ i : grid1.Coords, EltTy.bits .f32 = 32 ∨ (Rect.block (s := S4x4096x2) S1x1024x2.size (cc1_transform_3 i) (hinb1_3 i)).WholeWords (EltTy.packing .f32)

variable [Facts₀]

def dot_S256x1024_S256x256_S1024x256_0_1_1_0_n_n : DotDims S256x1024 S256x256 S1024x256 where
  lhsContracting := [0]
  rhsContracting := [1]
  lhsNonContracting := [1]
  rhsNonContracting := [0]
  lhsBatch := []
  rhsBatch := []
  wf := dot_S256x1024_S256x256_S1024x256_0_1_1_0_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3_0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x256x64x64 : Shape := ⟨4, ![4, 256, 64, 64]⟩
abbrev S4x2x64x64 : Shape := ⟨4, ![4, 2, 64, 64]⟩
abbrev S256x256 : Shape := ⟨2, ![256, 256]⟩
abbrev S256 : Shape := ⟨1, ![256]⟩
abbrev S4x256x4096 : Shape := ⟨3, ![4, 256, 4096]⟩
abbrev S4x4096x256 : Shape := ⟨3, ![4, 4096, 256]⟩
abbrev S4x2x4096 : Shape := ⟨3, ![4, 2, 4096]⟩
abbrev S4x4096x2 : Shape := ⟨3, ![4, 4096, 2]⟩
abbrev S1x1x256 : Shape := ⟨3, ![1, 1, 256]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩
abbrev S4x64x64x2 : Shape := ⟨4, ![4, 64, 64, 2]⟩

abbrev nBuf : Space → Nat
  | .hbm => 42
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S4x2x64x64, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S4x256x4096, .f32⟩
  | .hbm, ⟨7, _⟩ => ⟨S4x4096x256, .f32⟩
  | .hbm, ⟨8, _⟩ => ⟨S4x2x4096, .f32⟩
  | .hbm, ⟨9, _⟩ => ⟨S4x4096x2, .f32⟩
  | .hbm, ⟨10, _⟩ => ⟨S4x4096x256, .f32⟩
  | .hbm, ⟨11, _⟩ => ⟨S1x1x256, .f32⟩
  | .hbm, ⟨12, _⟩ => ⟨S4x4096x256, .f32⟩
  | .hbm, ⟨13, _⟩ => ⟨S4x4096x256, .f32⟩
  | .hbm, ⟨14, _⟩ => ⟨S4x4096x256, .f32⟩
  | .hbm, ⟨15, _⟩ => ⟨S1x1x256, .f32⟩
  | .hbm, ⟨16, _⟩ => ⟨S4x4096x256, .f32⟩
  | .hbm, ⟨17, _⟩ => ⟨S4x4096x256, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S4x4096x4096, .f32⟩
  | .hbm, ⟨38, _⟩ => ⟨S4x4096x4096, .f32⟩
  | .hbm, ⟨39, _⟩ => ⟨S4x4096x2, .f32⟩
  | .hbm, ⟨40, _⟩ => ⟨S4x64x64x2, .f32⟩
  | .hbm, ⟨41, _⟩ => ⟨S4x2x64x64, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  shapeCasts_S4x256x64x64_S4x256x4096 : S4x256x64x64.ShapeCasts S4x256x4096
  transposes_S4x256x4096_S4x4096x256_0_2_1 : S4x256x4096.Transposes [0, 2, 1] S4x4096x256
  shapeCasts_S4x2x64x64_S4x2x4096 : S4x2x64x64.ShapeCasts S4x2x4096
  transposes_S4x2x4096_S4x4096x2_0_2_1 : S4x2x4096.Transposes [0, 2, 1] S4x4096x2
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  shapeCasts_S4x4096x2_S4x64x64x2 : S4x4096x2.ShapeCasts S4x64x64x2
  transposes_S4x64x64x2_S4x2x64x64_0_3_1_2 : S4x64x64x2.Transposes [0, 3, 1, 2] S4x2x64x64
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x2_S4x4096x2_2_1_1_2_0_0_wf : DotDims.WF S4x4096x4096 S4x4096x2 S4x4096x2 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x2_S4x4096x2_2_1_1_2_0_0 : DotDims S4x4096x4096 S4x4096x2 S4x4096x2 where
  lhsContracting := [2]
  rhsContracting := [1]
  lhsNonContracting := [1]
  rhsNonContracting := [2]
  lhsBatch := [0]
  rhsBatch := [0]
  wf := dot_S4x4096x4096_S4x4096x2_S4x4096x2_2_1_1_2_0_0_wf

class Facts : Prop extends Facts₀ where

variable [Facts]
-- ==== Proof.KRegion0.lean ====
/-
  The projection kernel's half of the frame, at the buffer contents `V` its region is entered with.

  The pipeline has seven windows: the features' [1,256,1024] block at a grid point; a [256,256] weight and a [256] bias
  for each of the two projections, whole, whose block index never moves; and the two projected [1,1024,256] blocks. The body
  reads every input whole and stores each output whole, once. So after the body each input's staging buffer is as it
  was found — the window's block of the array —, and each output's is the one stored value, a function of the input
  blocks. These are the pipeline's proof data here, and the body's triple at every grid point is its obligation.
-/
import proofs.«128623_j51281909514577_2_alg».proof.Proof.Gen.Kernel.Launch
import proofs.«128623_j51281909514577_2_alg».proof.Proof.Gen.Kernel.Skeleton
import proofs.«128623_j51281909514577_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 1024 and 256 is decided by a structural recursion one level per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the window's view of its array, read off the contents `V`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! Each of the five inputs is an uncut window with no idle point, and the body leaves its buffer as found. So at every
point, fetched there or not, its current staging buffer holds its block: where it is not fetched the block index has
not moved since the last fetch. This holds of any proof data over `V`'s arrays that leaves the blocks in place. -/

theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  have hkeep : ∀ t, (cfg0.win 2).cut (cfg0.grid.coords t) (dat.after 2 t) = dat.blockOf 2 t := fun t => by
    rw [hafter]; unfold Dat.blockOf iblk0; rw [hA]; try rfl
  rw [dat.before_in_eq_fetched 2 rfl (fun _ => rfl) (fun _ _ _ => rfl) hkeep t d]
  unfold Dat.fetched Dat.blockOf iblk0; rw [hA]; try rfl

theorem before0_3_of {c : Dev nD} (dat : Dat τ (Elt F) Unit ℕ (UR sig nD τ) ℕ cfg0 c)
    (hA : dat.A 3 = V c (Pipeline.arrRef spec0 3)) (hafter : ∀ t, dat.after 3 t = iblk0 V c 3 t)
    (t : Fin cfg0.N) (d) : dat.before 3 t d = iblk0 V c 3 t := by
  have hkeep : ∀ t, (cfg0.win 3).cut (cfg0.grid.coords t) (dat.after 3 t) = dat.blockOf 3 t := fun t => by
    rw [hafter]; unfold Dat.blockOf iblk0; rw [hA]; try rfl
  rw [dat.before_in_eq_fetched 3 rfl (fun _ => rfl) (fun _ _ _ => rfl) hkeep t d]
  unfold Dat.fetched Dat.blockOf iblk0; rw [hA]; try rfl

theorem before0_4_of {c : Dev nD} (dat : Dat τ (Elt F) Unit ℕ (UR sig nD τ) ℕ cfg0 c)
    (hA : dat.A 4 = V c (Pipeline.arrRef spec0 4)) (hafter : ∀ t, dat.after 4 t = iblk0 V c 4 t)
    (t : Fin cfg0.N) (d) : dat.before 4 t d = iblk0 V c 4 t := by
  have hkeep : ∀ t, (cfg0.win 4).cut (cfg0.grid.coords t) (dat.after 4 t) = dat.blockOf 4 t := fun t => by
    rw [hafter]; unfold Dat.blockOf iblk0; rw [hA]; try rfl
  rw [dat.before_in_eq_fetched 4 rfl (fun _ => rfl) (fun _ _ _ => rfl) hkeep t d]
  unfold Dat.fetched Dat.blockOf iblk0; rw [hA]; try rfl

/-! ## The body's accesses: every one is of a whole buffer -/

abbrev r0_x : Rect S1x256x1024 := Rect.unit (s := S1x256x1024) ![0, 0, 0] S1x256x1024.size inb_S1x256x1024_S1x256x1024_0_0_0
abbrev r0_w : Rect S256x256 := Rect.unit (s := S256x256) ![0, 0] S256x256.size inb_S256x256_S256x256_0_0
abbrev r0_b : Rect S256 := Rect.unit (s := S256) ![0] S256.size inb_S256_S256_0
abbrev r0_y : Rect S1x1024x256 := Rect.unit (s := S1x1024x256) ![0, 0, 0] S1x1024x256.size inb_S1x1024x256_S1x1024x256_0_0_0

/-! ## What the body leaves in the two output buffers -/

/-- The first projection's staging buffer after the body: its one store, of the features' block through the first
    weight and bias. (All five input blocks are arguments, so that both outputs read alike.) -/
def out0_5 (x0 : Vec F S1x256x1024 .f32) (x1 : Vec F S256x256 .f32) (x2 : Vec F S256 .f32)
    (x3 : Vec F S256x256 .f32) (x4 : Vec F S256 .f32) : Vec F S1x1024x256 .bf16 :=
  View.canon [⟨r0_y, k0_pay2 (View.ld x0 r0_x) (View.ld x1 r0_w) (View.ld x2 r0_b)⟩]

/-- The second projection's, through the second weight and bias. -/
def out0_6 (x0 : Vec F S1x256x1024 .f32) (x1 : Vec F S256x256 .f32) (x2 : Vec F S256 .f32)
    (x3 : Vec F S256x256 .f32) (x4 : Vec F S256 .f32) : Vec F S1x1024x256 .bf16 :=
  View.canon [⟨r0_y, k0_pay3 (View.ld x0 r0_x) (View.ld x3 r0_w) (View.ld x4 r0_b)⟩]

/-- One store of the whole buffer covers it. -/
theorem cover0_y (p0 : Vec F S1x1024x256 .bf16) (y : S1x1024x256.Idx) :
    ∃ pc ∈ ([⟨r0_y, p0⟩] : List (View.Piece (Elt F) S1x1024x256 .bf16)), y ∈ pc.1.set :=
  View.cover_of_tiled [⟨r0_y, p0⟩] S1x1024x256.size (by rfl) y

/-! ## The body's triple -/

set_option maxHeartbeats 1000000 in
/-- The body on whole staging memrefs — the inputs' holding `x0 … x4`, the outputs' anything — runs to a state where
    the inputs' hold what they held and the outputs' hold `out0_5`, `out0_6` of them. -/
theorem sound_kernel0 (c : Dev nD) (E : Set ℕ) (i : grid0.Coords)
    (a0 : Memref sig .tc .vmem S1x256x1024 .f32) (h0 : a0.IsWhole)
    (a1 : Memref sig .tc .vmem S256x256 .f32) (h1 : a1.IsWhole)
    (a2 : Memref sig .tc .vmem S256 .f32) (h2 : a2.IsWhole)
    (a3 : Memref sig .tc .vmem S256x256 .f32) (h3 : a3.IsWhole)
    (a4 : Memref sig .tc .vmem S256 .f32) (h4 : a4.IsWhole)
    (a5 : Memref sig .tc .vmem S1x1024x256 .bf16) (h5 : a5.IsWhole)
    (a6 : Memref sig .tc .vmem S1x1024x256 .bf16) (h6 : a6.IsWhole)
    (x0 : Vec F S1x256x1024 .f32) (x1 : Vec F S256x256 .f32) (x2 : Vec F S256 .f32)
    (x3 : Vec F S256x256 .f32) (x4 : Vec F S256 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4
        ∗ (∃ d, owns (c : Thread nD τ) a5 fullShare d) ∗ (∃ d, owns (c : Thread nD τ) a6 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out0_5 x0 x1 x2 x3 x4)
            ∗ owns (c : Thread nD τ) a6 fullShare (out0_6 x0 x1 x2 x3 x4)) -∗ K ⟨⟩))
      ⊢ wp frame (wpE (defs₀ (F := F)) Variants.none c none) E (cc0__proj_kernel i a0 h0 a1 h1 a2 h2 a3 h3 a4 h4 a5 h5 a6 h6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_y _)
  iexists _; isplitr
  swap; · iexact H6
  ipureintro
  exact View.read_writes_eq_canon _ _ _ (cover0_y _)

/-! ## The pipeline's proof data -/

/-- The proof data of the projection kernel's pipeline on core `c`: the arrays as the region finds them; after the body
    at grid point `t`, each input's buffer at its block and each output's at its stored value of the input blocks; the
    invariant: the rest of the core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- Its arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, what is owed, and every window's current staging buffer
    at what it holds before the body; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same, every buffer at what it holds after. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and what is
    owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Base.lean ====
/-
  The attention kernel's region, the part every case of its body shares.

  The grid is (batch, query tile, key tile) = 4 × 4 × 2, the key tile innermost. At a point the body sees one block of
  1024 query rows, one block of 2048 key rows and the 2048 value rows that go with them. Three scratch buffers carry
  the running maximum, the running sum and the running weighted sum of a query tile from its first key tile to its
  second. The body's first conditional (reset the three buffers) is taken exactly at the even points, its second
  (divide and store the query tile's result) exactly at the odd ones; the result window is idle, and not written
  back, at the even points.
-/
import proofs.«128623_j51281909514577_2_alg».proof.Proof.Gen.Kernel.Launch
import proofs.«128623_j51281909514577_2_alg».proof.Proof.Gen.Kernel.Skeleton
import proofs.«128623_j51281909514577_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is the query tile's first key tile." -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "This is the query tile's last key tile." -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first key tile the result window is idle and not written back; at a last one it is live. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem liveAt1_3_B : ∀ t : Fin cfg1.N, ¬cond1_0 (grid1.coords t) → cond1_1 (grid1.coords t) → cfg1.idle 3 (grid1.coords t) = false := by decide +kernel

/-! ## The memrefs the body is called with -/

abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x2 .f32 := win1_3.stage (cfg1.slots t 3)
abbrev hs1_3 (t : Fin cfg1.N) : (ms1_3 t).IsWhole := hstage1_3 ((cfg1.slots t 3).cast nbuf1_3)
/-- The scratch operands: the running maximum, the running sum, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x2 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x2 .f32 := scM1_2.view
/-- One staging buffer of the result window, through which its contents are stated. -/
abbrev VO1_3 : View sig .tc .vmem S1x1024x2 .f32 := (Memref.whole cc1_stg3_0 : Memref sig .tc .vmem S1x1024x2 .f32).view

/-- The core's other scoped buffers (the projection kernel's staging buffers), each whole at some contents: they ride
    through this region untouched. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class invariant with the three scratch operands as memrefs owned at some contents, beside the other scoped
    buffers and the generator register: what the body obligation hands the run and takes back. -/
theorem PhiA1_eq (c : Dev nD) :
    (Pipeline.ΦA spec1 c : sProp 𝕄)
      ⊣⊢ iprop(otherScoped (F := F) c ∗ (∃ d, owns (c : Thread nD τ) scM1_0 fullShare d) ∗ (∃ d, owns (c : Thread nD τ) scM1_1 fullShare d)
          ∗ (∃ d, owns (c : Thread nD τ) scM1_2 fullShare d) ∗ (∃ r, prngReg c r)) := by
  unfold Pipeline.ΦA otherScoped; rw [scopedRest1_eq]; simp only [scM1_0, scM1_1, scM1_2, owns_whole]
  constructor
  · iintro ⟨⟨H0, H1, H2, H3, H4, H5, H6, H7, H8, H9, S0, S1, S2⟩, Hp⟩
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [S0]; · iexact S0
    isplitl [S1]; · iexact S1
    isplitl [S2]; · iexact S2
    iexact Hp
  · iintro ⟨⟨H0, H1, H2, H3, H4, H5, H6, H7, H8, H9⟩, S0, S1, S2, Hp⟩
    isplitr [Hp]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      iexact S2
    iexact Hp

end Cert.Kernel.Hand

end
-- ==== Proof.KRun1A.lean ====
/-
  The attention kernel's body at a query tile's FIRST key tile: the three scratch buffers are reset (maximum to −∞,
  sums to 0), the tile's scores, running maximum, exponentials and sums are computed and stored back into the three
  buffers, and the result window is left as it was found.
-/
import proofs.«128623_j51281909514577_2_alg».proof.Proof.KRegion1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers, as pieces (last first), with the proof that on whole
    memrefs — the three inputs at their contents, the result buffer at contents handed back untouched, the scratch at
    anything — the body runs to the continuation holding the inputs and the result buffer as they were and each scratch
    buffer with its pieces written. -/
noncomputable def kernelRun1_A (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole)
    (hc0 : cond1_0 i) (hc1 : ¬cond1_1 i)
    (x0 : Vec F S1x1024x256 .bf16) (x1 : Vec F S1x2048x256 .bf16) (x2 : Vec F S1x2048x2 .f32) :
    Σ' (LS0 : List (View.Piece (Elt F) S1024x1 .f32)) (LS1 : List (View.Piece (Elt F) S1024x1 .f32)), { LS2 : List (View.Piece (Elt F) S1024x2 .f32) //
      ∀ (xi3 : Vec F S1x1024x2 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KRun1B.lean ====
/-
  The attention kernel's body at a query tile's LAST key tile: the three scratch buffers come in holding what the
  first key tile left, are updated with this tile's maximum, exponentials and sums, and the weighted sum divided by
  the sum is stored into the result window.
-/
import proofs.«128623_j51281909514577_2_alg».proof.Proof.KRegion1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result buffer and in the three scratch buffers, as pieces (last first), with
    the proof that on whole memrefs — the three inputs at their contents, the result buffer at anything, the scratch at
    the contents the point before left — the body runs to the continuation holding the inputs as they were and each
    other buffer with its pieces written. -/
noncomputable def kernelRun1_B (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole)
    (hc0 : ¬cond1_0 i) (hc1 : cond1_1 i)
    (x0 : Vec F S1x1024x256 .bf16) (x1 : Vec F S1x2048x256 .bf16) (x2 : Vec F S1x2048x2 .f32)
    (xs0 : Vec F S1024x1 .f32) (xs1 : Vec F S1024x1 .f32) (xs2 : Vec F S1024x2 .f32) :
    Σ' (L3 : List (View.Piece (Elt F) S1x1024x2 .f32)) (LS0 : List (View.Piece (Elt F) S1024x1 .f32)) (LS1 : List (View.Piece (Elt F) S1024x1 .f32)), { LS2 : List (View.Piece (Elt F) S1024x2 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.KRegion1.lean ====
/-
  The attention kernel's region: what its buffers hold point by point, its proof data and its body obligation.

  After the body at a point the result window's buffer and the three scratch buffers hold what the point's case
  leaves: at a first key tile the scratch is rebuilt from the point's blocks alone and the result buffer is not
  touched; at a last key tile the scratch is updated from what the first key tile left and the result buffer receives
  the quotient. The invariant between points is the class invariant before the first point and, after a point, the
  three scratch buffers at that point's contents beside the core's other scoped buffers and the generator register.
-/
import proofs.«128623_j51281909514577_2_alg».proof.Proof.KRun1A
import proofs.«128623_j51281909514577_2_alg».proof.Proof.KRun1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each case's pieces cover their buffers -/

theorem scover1_A_0 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : cond1_0 i) (hc1 : ¬cond1_1 i) (x0 : Vec F S1x1024x256 .bf16) (x1 : Vec F S1x2048x256 .bf16) (x2 : Vec F S1x2048x2 .f32) (y : S1024x1.Idx) :
    ∃ pc ∈ (kernelRun1_A c i arg3 harg3 arg4 harg4 arg5 harg5 arg6 harg6 arg7 harg7 arg8 harg8 arg9 harg9 hc0 hc1 x0 x1 x2).1, y ∈ pc.1.set :=
  View.cover_of_tiledL (kernelRun1_A c i arg3 harg3 arg4 harg4 arg5 harg5 arg6 harg6 arg7 harg7 arg8 harg8 arg9 harg9 hc0 hc1 x0 x1 x2).1 S1024x1.size (by sl_kernel_rfl) y
theorem scover1_A_1 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : cond1_0 i) (hc1 : ¬cond1_1 i) (x0 : Vec F S1x1024x256 .bf16) (x1 : Vec F S1x2048x256 .bf16) (x2 : Vec F S1x2048x2 .f32) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y
theorem scover1_A_2 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : cond1_0 i) (hc1 : ¬cond1_1 i) (x0 : Vec F S1x1024x256 .bf16) (x1 : Vec F S1x2048x256 .bf16) (x2 : Vec F S1x2048x2 .f32) (y : S1024x2.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x2.size (by sl_kernel_rfl) y

theorem cover1_B_3 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : ¬cond1_0 i) (hc1 : cond1_1 i) (x0 : Vec F S1x1024x256 .bf16) (x1 : Vec F S1x2048x256 .bf16) (x2 : Vec F S1x2048x2 .f32) (xs0 : Vec F S1024x1 .f32) (xs1 : Vec F S1024x1 .f32) (xs2 : Vec F S1024x2 .f32) (y : S1x1024x2.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S1x1024x2.size (by sl_kernel_rfl) y
theorem scover1_B_0 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : ¬cond1_0 i) (hc1 : cond1_1 i) (x0 : Vec F S1x1024x256 .bf16) (x1 : Vec F S1x2048x256 .bf16) (x2 : Vec F S1x2048x2 .f32) (xs0 : Vec F S1024x1 .f32) (xs1 : Vec F S1024x1 .f32) (xs2 : Vec F S1024x2 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y
theorem scover1_B_1 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : ¬cond1_0 i) (hc1 : cond1_1 i) (x0 : Vec F S1x1024x256 .bf16) (x1 : Vec F S1x2048x256 .bf16) (x2 : Vec F S1x2048x2 .f32) (xs0 : Vec F S1024x1 .f32) (xs1 : Vec F S1024x1 .f32) (xs2 : Vec F S1024x2 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y
theorem scover1_B_2 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : ¬cond1_0 i) (hc1 : cond1_1 i) (x0 : Vec F S1x1024x256 .bf16) (x1 : Vec F S1x2048x256 .bf16) (x2 : Vec F S1x2048x2 .f32) (xs0 : Vec F S1024x1 .f32) (xs1 : Vec F S1024x1 .f32) (xs2 : Vec F S1024x2 .f32) (y : S1024x2.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x2.size (by sl_kernel_rfl) y

/-! ## What the four buffers hold after a point -/

/-- The result window's buffer, the running maximum, the running sum, the running weighted sum. -/
abbrev St (F : FTy → Type) [FloatOps F] : Type := Vec F S1x1024x2 .f32 × Vec F S1024x1 .f32 × Vec F S1024x1 .f32 × Vec F S1024x2 .f32

/-- After a first key tile: the scratch rebuilt from the point's blocks; the result buffer a placeholder nothing
    consults (the window is idle there, neither written back nor read at the next point). -/
def stepA (c : Dev nD) (t : Fin cfg1.N) (h0 : t.val % 2 = 0) : St F :=
  (VO1_3.read (Elt F) (VO1_3.writes (Elt F) VO1_3.junk []),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t)).1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t)).2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t)).2.2.1))

/-- After a last key tile, from the scratch the first key tile left. -/
def stepB (c : Dev nD) (t : Fin cfg1.N) (h1 : t.val % 2 = 1) (xs : Vec F S1024x1 .f32 × Vec F S1024x1 .f32 × Vec F S1024x2 .f32) : St F :=
  (VO1_3.read (Elt F) (VO1_3.writes (Elt F) VO1_3.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) (iblk1 V c 0 t) (iblk1 V c 1 t) (iblk1 V c 2 t) xs.1 xs.2.1 xs.2.2).1),
   VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) (iblk1 V c 0 t) (iblk1 V c 1 t) (iblk1 V c 2 t) xs.1 xs.2.1 xs.2.2).2.1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) (iblk1 V c 0 t) (iblk1 V c 1 t) (iblk1 V c 2 t) xs.1 xs.2.1 xs.2.2).2.2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) (iblk1 V c 0 t) (iblk1 V c 1 t) (iblk1 V c 2 t) xs.1 xs.2.1 xs.2.2).2.2.2.1))

/-- THE ACCUMULATION over the grid: the case the point's parity selects, a last key tile over what the point before
    left in the scratch. -/
def outsAt1 (c : Dev nD) : (n : ℕ) → n < cfg1.N → St F
  | 0, hn => stepA V c ⟨0, hn⟩ (Nat.zero_mod _)
  | n + 1, hn =>
    if h0 : (n + 1) % 2 = 0 then stepA V c ⟨n + 1, hn⟩ h0
    else stepB V c ⟨n + 1, hn⟩ (by show (n + 1) % 2 = 1; omega) (outsAt1 c n (Nat.lt_of_succ_lt hn)).2

theorem outsAt1_A (c : Dev nD) (t : Fin cfg1.N) (h0 : t.val % 2 = 0) : outsAt1 V c t.val t.isLt = stepA V c t h0 := by
  obtain ⟨n, hn⟩ := t
  cases n with
  | zero => rfl
  | succ n => exact dif_pos h0

theorem outsAt1_B (c : Dev nD) (t : Fin cfg1.N) (h1 : t.val % 2 = 1) :
    outsAt1 V c t.val t.isLt = stepB V c t h1 (outsAt1 V c (t.val - 1) (Nat.lt_of_le_of_lt (Nat.sub_le _ _) t.isLt)).2 := by
  obtain ⟨n, hn⟩ := t
  cases n with
  | zero => exact absurd (show (0 : ℕ) % 2 = 1 from h1) (by omega)
  | succ n =>
    have h1' : (n + 1) % 2 = 1 := h1
    exact dif_neg (by omega)

/-! ## The invariant between points -/

def PhiS (c : Dev nD) : (n : ℕ) → n ≤ cfg1.N → sProp 𝕄
  | 0, _ => Pipeline.ΦA spec1 c
  | n + 1, hn => iprop(otherScoped (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(otherScoped (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2 ∗ (∃ r, prngReg c r)) := rfl

theorem PhiS_pos (c : Dev nD) (n : ℕ) (h : n ≤ cfg1.N) (hz : n ≠ 0) :
    PhiS V c n h = iprop(otherScoped (F := F) c ∗ owns (c : Thread nD τ) scM1_0 fullShare (outsAt1 V c (n - 1) (by omega)).2.1
      ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's parity says which case it is in; the
    invariant hands the body the scratch (at anything before the first point, else at what the point before left) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3_A t hc0 hc1) (noFlush1_3_A t hc0 hc1)]
    rw [outsAt1_A V c t h0]
    unfold stepA; dsimp only
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_eq (F := F) c).1 $$ HΦ
      icases HΦ' with ⟨Hoth, HS0, HS1, HS2, Hg⟩
      iapply ((kernelRun1_A c (grid1.coords t) _ _ _ _ _ _ _ _ _ _ _ _ _ _ hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨Hoth, HS0, HS1, HS2, Hg⟩, Ho, ⟨%d0, H0⟩, ⟨%d1, H1⟩, ⟨%d2, H2⟩, ⟨%d3, H3⟩⟩
      iapply ((kernelRun1_A c (grid1.coords t) _ _ _ _ _ _ _ _ _ _ _ _ _ _ hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := by omega
    have hc0 : ¬cond1_0 (grid1.coords t) := fun h => h0 ((hcond1_0 t).mp h)
    have hc1 : cond1_1 (grid1.coords t) := (hcond1_1 t).mpr h1
    rw [show (dat1 V c).leavesExact 3 t = owns (c : Thread nD τ) (ms1_3 t) fullShare ((dat1 V c).after 3 t) from by
      unfold Dat.leavesExact; rw [liveAt1_3_B t hc0 hc1], after1_3]
    rw [outsAt1_B V c t h1]
    unfold stepB; dsimp only
    have hz : t.val ≠ 0 := by omega
    rw [PhiS_castSucc V c t, PhiS_pos V c _ _ hz]
    iintro ⟨⟨Hoth, HS0, HS1, HS2, Hg⟩, Ho, ⟨%d0, H0⟩, ⟨%d1, H1⟩, ⟨%d2, H2⟩, ⟨%d3, H3⟩⟩
    iapply ((kernelRun1_B c (grid1.coords t) _ _ _ _ _ _ _ _ _ _ _ _ _ _ hc0 hc1 (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [Hoth HS0 HS1 HS2 Hg]
    · isplitl [Hoth]; · iexact Hoth
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (the class invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ hne]
  iintro ⟨Hoth, HS0, HS1, HS2, Hg⟩
  iapply (PhiA1_eq (F := F) c).2
  isplitl [Hoth]; · iexact Hoth
  isplitl [HS0]; · iexists _; iexact HS0
  isplitl [HS1]; · iexists _; iexact HS1
  isplitl [HS2]; · iexists _; iexact HS2
  iexact Hg

end Cert.Kernel.Hand

end
-- ==== Proof.KRun.lean ====
/-
  The whole program's run: two host operations' stretches around the two kernel regions.

  Between two items a core's unscoped buffers hold: the launch contents; then those after the first host stretch (the
  feature map and the flow re-laid as tokens); then, after the projection region, its two output arrays at what its
  write-backs leave and everything else as before; then, after the attention region, its output array likewise; then
  those after the last host stretch. Each region is entered from the buffers at one boundary's contents and left at
  the next; the generator register and the core's (empty) dues ride along. Every weakly fair execution terminates, and
  the final memory holds every unscoped buffer at the last boundary's contents.
-/
import proofs.«128623_j51281909514577_2_alg».proof.Proof.KRegion0
import proofs.«128623_j51281909514577_2_alg».proof.Proof.KRegion1
import proofs.«128623_j51281909514577_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- After the first host stretch, read at the TensorCore's references: what the projection region finds. -/
abbrev Vt1 : (c : Dev nD) → (b : Ref sig .tc) → Buf (Elt F) ((c : Thread nD τ).loc b) := fun c b => V1 m c b
/-- After the projection region: its arrays at what the pipeline leaves, every other buffer as entered. -/
def W2 (c : Dev nD) : Valuation τ sig (Elt F) :=
  Pipeline.withArrays spec0 c (V1 m c) fun w => (dat0 (Vt1 m) c).arrAt w cfg0.N
theorem W2_arr (c : Dev nD) (w : Fin cfg0.W) :
    W2 m c (Proc.devRef .tc (Pipeline.arrRef spec0 w)) = (dat0 (Vt1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
abbrev Vt2 : (c : Dev nD) → (b : Ref sig .tc) → Buf (Elt F) ((c : Thread nD τ).loc b) := fun c b => W2 m c b
theorem hF0 (c : Dev nD) (w : Fin cfg0.W) : (dat0 (Vt1 m) c).arrAt w cfg0.N = Vt2 m c (Pipeline.arrRef spec0 w) :=
  (W2_arr m c w).symm
theorem hrest0 (c : Dev nD) : ∀ b, b ∉ Finset.univ.image (Pipeline.arrRef spec0) → Vt2 m c b = Vt1 m c b :=
  fun b hb => W2_of_ne m c b fun w e => hb (Finset.mem_image.mpr ⟨w, Finset.mem_univ _, e⟩)

/-- After the attention region. -/
def W3 (c : Dev nD) : Valuation τ sig (Elt F) :=
  Pipeline.withArrays spec1 c (W2 m c) fun w => (dat1 (Vt2 m) c).arrAt w cfg1.N
theorem W3_arr (c : Dev nD) (w : Fin cfg1.W) :
    W3 m c (Proc.devRef .tc (Pipeline.arrRef spec1 w)) = (dat1 (Vt2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vt3 : (c : Dev nD) → (b : Ref sig .tc) → Buf (Elt F) ((c : Thread nD τ).loc b) := fun c b => W3 m c b
theorem hF1 (c : Dev nD) (w : Fin cfg1.W) : (dat1 (Vt2 m) c).arrAt w cfg1.N = Vt3 m c (Pipeline.arrRef spec1 w) :=
  (W3_arr m c w).symm
theorem hrest1 (c : Dev nD) : ∀ b, b ∉ Finset.univ.image (Pipeline.arrRef spec1) → Vt3 m c b = Vt2 m c b :=
  fun b hb => W3_of_ne m c b fun w e => hb (Finset.mem_image.mpr ⟨w, Finset.mem_univ _, e⟩)

/-- After the last host stretch: what the launch reads at the end. -/
abbrev W4 : Dev nD → Valuation τ sig (Elt F) := fun c => StableHlo.after hostOps2 (W3 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt2 m) c
abbrev 𝒱₀ : Variants := Variants.none
abbrev L : GSem nD τ sig → Finset Unit := fun _ => ∅
abbrev lv : GSem nD τ sig → Unit → ℕ := fun _ _ => 0
/-- What rides beside the buffers through every segment: the generator register at some state, the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region over the thread state: entered from every unscoped buffer after the first host stretch,
    left with its two output arrays at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt1 m c) (Vt2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from the buffers the projection region left, left with its
    output array at what its write-backs leave. Its invariant meets the class invariant at both ends: before the
    first point it IS the class invariant, after the last the scratch's named contents are forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Vt2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vt2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hA : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (Vt2 m) c).trans hA
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt2 m c) (Vt3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (V0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun c =>
      (show (iprop(StableHlo.held (c : Thread nD τ) (Pipeline.ucRefs τ sig) (W4 m c) ∗ R c) : sProp 𝕄)
          ⊢ iprop(Tₙ m c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The arguments end as launched -/

/-- A buffer that neither the last host stretch writes nor the attention region holds as an array is, at the end,
    what the projection region left. -/
theorem W4_of (c : Dev nD) (b : Ref sig .tc) (h2 : b ∉ hostOps2_W) (h1 : ∀ w, Pipeline.arrRef spec1 w ≠ b) :
    W4 m c (Proc.devRef .tc b) = W2 m c (Proc.devRef .tc b) :=
  (StableHlo.after_of_writes_sub hostOps2 _ hostOps2_writes h2).trans (W3_of_ne m c b h1)

theorem W4_main_arg0 (c : Dev nD) : W4 m c (Proc.devRef .tc main_arg0) = m ((c : Thread nD τ).loc main_arg0) :=
  (W4_of m c main_arg0 (by decide) (by decide)).trans ((W2_of_ne m c main_arg0 (by decide)).trans (V1_of m c main_arg0 (by decide)))
theorem W4_main_arg1 (c : Dev nD) : W4 m c (Proc.devRef .tc main_arg1) = m ((c : Thread nD τ).loc main_arg1) :=
  (W4_of m c main_arg1 (by decide) (by decide)).trans ((W2_of_ne m c main_arg1 (by decide)).trans (V1_of m c main_arg1 (by decide)))
theorem W4_main_arg2 (c : Dev nD) : W4 m c (Proc.devRef .tc main_arg2) = m ((c : Thread nD τ).loc main_arg2) :=
  (W4_of m c main_arg2 (by decide) (by decide)).trans ((W2_arr m c 1).trans (((dat0 (Vt1 m) c).arrAt_in 1 rfl _).trans ((A_eq0 (Vt1 m) c 1).trans (V1_of m c main_arg2 (by decide)))))
theorem W4_main_arg3 (c : Dev nD) : W4 m c (Proc.devRef .tc main_arg3) = m ((c : Thread nD τ).loc main_arg3) :=
  (W4_of m c main_arg3 (by decide) (by decide)).trans ((W2_arr m c 2).trans (((dat0 (Vt1 m) c).arrAt_in 2 rfl _).trans ((A_eq0 (Vt1 m) c 2).trans (V1_of m c main_arg3 (by decide)))))
theorem W4_main_arg4 (c : Dev nD) : W4 m c (Proc.devRef .tc main_arg4) = m ((c : Thread nD τ).loc main_arg4) :=
  (W4_of m c main_arg4 (by decide) (by decide)).trans ((W2_arr m c 3).trans (((dat0 (Vt1 m) c).arrAt_in 3 rfl _).trans ((A_eq0 (Vt1 m) c 3).trans (V1_of m c main_arg4 (by decide)))))
theorem W4_main_arg5 (c : Dev nD) : W4 m c (Proc.devRef .tc main_arg5) = m ((c : Thread nD τ).loc main_arg5) :=
  (W4_of m c main_arg5 (by decide) (by decide)).trans ((W2_arr m c 4).trans (((dat0 (Vt1 m) c).arrAt_in 4 rfl _).trans ((A_eq0 (Vt1 m) c 4).trans (V1_of m c main_arg5 (by decide)))))

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.Kernel.Hand

end
-- ==== Proof.KIRegion0.lean ====
/-
  The projection kernel's half of the frame, at the buffer contents `V` its region is entered with.

  The pipeline has seven windows: the features' [1,256,1024] block at a grid point; a [256,256] weight and a [256] bias
  for each of the two projections, whole, whose block index never moves; and the two projected [1,1024,256] blocks. The body
  reads every input whole and stores each output whole, once. So after the body each input's staging buffer is as it
  was found — the window's block of the array —, and each output's is the one stored value, a function of the input
  blocks. These are the pipeline's proof data here, and the body's triple at every grid point is its obligation.
-/
import proofs.«128623_j51281909514577_2_alg».proof.Proof.Gen.KernelIdeal.Launch
import proofs.«128623_j51281909514577_2_alg».proof.Proof.Gen.KernelIdeal.Skeleton
import proofs.«128623_j51281909514577_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 1024 and 256 is decided by a structural recursion one level per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the window's view of its array, read off the contents `V`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! Each of the five inputs is an uncut window with no idle point, and the body leaves its buffer as found. So at every
point, fetched there or not, its current staging buffer holds its block: where it is not fetched the block index has
not moved since the last fetch. This holds of any proof data over `V`'s arrays that leaves the blocks in place. -/

theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  have hkeep : ∀ t, (cfg0.win 2).cut (cfg0.grid.coords t) (dat.after 2 t) = dat.blockOf 2 t := fun t => by
    rw [hafter]; unfold Dat.blockOf iblk0; rw [hA]; try rfl
  rw [dat.before_in_eq_fetched 2 rfl (fun _ => rfl) (fun _ _ _ => rfl) hkeep t d]
  unfold Dat.fetched Dat.blockOf iblk0; rw [hA]; try rfl

theorem before0_3_of {c : Dev nD} (dat : Dat τ (Elt F) Unit ℕ (UR sig nD τ) ℕ cfg0 c)
    (hA : dat.A 3 = V c (Pipeline.arrRef spec0 3)) (hafter : ∀ t, dat.after 3 t = iblk0 V c 3 t)
    (t : Fin cfg0.N) (d) : dat.before 3 t d = iblk0 V c 3 t := by
  have hkeep : ∀ t, (cfg0.win 3).cut (cfg0.grid.coords t) (dat.after 3 t) = dat.blockOf 3 t := fun t => by
    rw [hafter]; unfold Dat.blockOf iblk0; rw [hA]; try rfl
  rw [dat.before_in_eq_fetched 3 rfl (fun _ => rfl) (fun _ _ _ => rfl) hkeep t d]
  unfold Dat.fetched Dat.blockOf iblk0; rw [hA]; try rfl

theorem before0_4_of {c : Dev nD} (dat : Dat τ (Elt F) Unit ℕ (UR sig nD τ) ℕ cfg0 c)
    (hA : dat.A 4 = V c (Pipeline.arrRef spec0 4)) (hafter : ∀ t, dat.after 4 t = iblk0 V c 4 t)
    (t : Fin cfg0.N) (d) : dat.before 4 t d = iblk0 V c 4 t := by
  have hkeep : ∀ t, (cfg0.win 4).cut (cfg0.grid.coords t) (dat.after 4 t) = dat.blockOf 4 t := fun t => by
    rw [hafter]; unfold Dat.blockOf iblk0; rw [hA]; try rfl
  rw [dat.before_in_eq_fetched 4 rfl (fun _ => rfl) (fun _ _ _ => rfl) hkeep t d]
  unfold Dat.fetched Dat.blockOf iblk0; rw [hA]; try rfl

/-! ## The body's accesses: every one is of a whole buffer -/

abbrev r0_x : Rect S1x256x1024 := Rect.unit (s := S1x256x1024) ![0, 0, 0] S1x256x1024.size inb_S1x256x1024_S1x256x1024_0_0_0
abbrev r0_w : Rect S256x256 := Rect.unit (s := S256x256) ![0, 0] S256x256.size inb_S256x256_S256x256_0_0
abbrev r0_b : Rect S256 := Rect.unit (s := S256) ![0] S256.size inb_S256_S256_0
abbrev r0_y : Rect S1x1024x256 := Rect.unit (s := S1x1024x256) ![0, 0, 0] S1x1024x256.size inb_S1x1024x256_S1x1024x256_0_0_0

/-! ## What the body leaves in the two output buffers -/

/-- The first projection's staging buffer after the body: its one store, of the features' block through the first
    weight and bias. (All five input blocks are arguments, so that both outputs read alike.) -/
def out0_5 (x0 : Vec F S1x256x1024 .f32) (x1 : Vec F S256x256 .f32) (x2 : Vec F S256 .f32)
    (x3 : Vec F S256x256 .f32) (x4 : Vec F S256 .f32) : Vec F S1x1024x256 .bf16 :=
  View.canon [⟨r0_y, k0_pay2 (View.ld x0 r0_x) (View.ld x1 r0_w) (View.ld x2 r0_b)⟩]

/-- The second projection's, through the second weight and bias. -/
def out0_6 (x0 : Vec F S1x256x1024 .f32) (x1 : Vec F S256x256 .f32) (x2 : Vec F S256 .f32)
    (x3 : Vec F S256x256 .f32) (x4 : Vec F S256 .f32) : Vec F S1x1024x256 .bf16 :=
  View.canon [⟨r0_y, k0_pay3 (View.ld x0 r0_x) (View.ld x3 r0_w) (View.ld x4 r0_b)⟩]

/-- One store of the whole buffer covers it. -/
theorem cover0_y (p0 : Vec F S1x1024x256 .bf16) (y : S1x1024x256.Idx) :
    ∃ pc ∈ ([⟨r0_y, p0⟩] : List (View.Piece (Elt F) S1x1024x256 .bf16)), y ∈ pc.1.set :=
  View.cover_of_tiled [⟨r0_y, p0⟩] S1x1024x256.size (by rfl) y

/-! ## The body's triple -/

set_option maxHeartbeats 1000000 in
/-- The body on whole staging memrefs — the inputs' holding `x0 … x4`, the outputs' anything — runs to a state where
    the inputs' hold what they held and the outputs' hold `out0_5`, `out0_6` of them. -/
theorem sound_kernel0 (c : Dev nD) (E : Set ℕ) (i : grid0.Coords)
    (a0 : Memref sig .tc .vmem S1x256x1024 .f32) (h0 : a0.IsWhole)
    (a1 : Memref sig .tc .vmem S256x256 .f32) (h1 : a1.IsWhole)
    (a2 : Memref sig .tc .vmem S256 .f32) (h2 : a2.IsWhole)
    (a3 : Memref sig .tc .vmem S256x256 .f32) (h3 : a3.IsWhole)
    (a4 : Memref sig .tc .vmem S256 .f32) (h4 : a4.IsWhole)
    (a5 : Memref sig .tc .vmem S1x1024x256 .bf16) (h5 : a5.IsWhole)
    (a6 : Memref sig .tc .vmem S1x1024x256 .bf16) (h6 : a6.IsWhole)
    (x0 : Vec F S1x256x1024 .f32) (x1 : Vec F S256x256 .f32) (x2 : Vec F S256 .f32)
    (x3 : Vec F S256x256 .f32) (x4 : Vec F S256 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4
        ∗ (∃ d, owns (c : Thread nD τ) a5 fullShare d) ∗ (∃ d, owns (c : Thread nD τ) a6 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out0_5 x0 x1 x2 x3 x4)
            ∗ owns (c : Thread nD τ) a6 fullShare (out0_6 x0 x1 x2 x3 x4)) -∗ K ⟨⟩))
      ⊢ wp frame (wpE (defs₀ (F := F)) Variants.none c none) E (cc0__proj_kernel i a0 h0 a1 h1 a2 h2 a3 h3 a4 h4 a5 h5 a6 h6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_y _)
  iexists _; isplitr
  swap; · iexact H6
  ipureintro
  exact View.read_writes_eq_canon _ _ _ (cover0_y _)

/-! ## The pipeline's proof data -/

/-- The proof data of the projection kernel's pipeline on core `c`: the arrays as the region finds them; after the body
    at grid point `t`, each input's buffer at its block and each output's at its stored value of the input blocks; the
    invariant: the rest of the core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- Its arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, what is owed, and every window's current staging buffer
    at what it holds before the body; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same, every buffer at what it holds after. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and what is
    owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1Base.lean ====
/-
  The attention kernel's region, the part every case of its body shares.

  The grid is (batch, query tile, key tile) = 4 × 4 × 2, the key tile innermost. At a point the body sees one block of
  1024 query rows, one block of 2048 key rows and the 2048 value rows that go with them. Three scratch buffers carry
  the running maximum, the running sum and the running weighted sum of a query tile from its first key tile to its
  second. The body's first conditional (reset the three buffers) is taken exactly at the even points, its second
  (divide and store the query tile's result) exactly at the odd ones; the result window is idle, and not written
  back, at the even points.
-/
import proofs.«128623_j51281909514577_2_alg».proof.Proof.Gen.KernelIdeal.Launch
import proofs.«128623_j51281909514577_2_alg».proof.Proof.Gen.KernelIdeal.Skeleton
import proofs.«128623_j51281909514577_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is the query tile's first key tile." -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "This is the query tile's last key tile." -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first key tile the result window is idle and not written back; at a last one it is live. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem liveAt1_3_B : ∀ t : Fin cfg1.N, ¬cond1_0 (grid1.coords t) → cond1_1 (grid1.coords t) → cfg1.idle 3 (grid1.coords t) = false := by decide +kernel

/-! ## The memrefs the body is called with -/

abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x2 .f32 := win1_3.stage (cfg1.slots t 3)
abbrev hs1_3 (t : Fin cfg1.N) : (ms1_3 t).IsWhole := hstage1_3 ((cfg1.slots t 3).cast nbuf1_3)
/-- The scratch operands: the running maximum, the running sum, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x2 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x2 .f32 := scM1_2.view
/-- One staging buffer of the result window, through which its contents are stated. -/
abbrev VO1_3 : View sig .tc .vmem S1x1024x2 .f32 := (Memref.whole cc1_stg3_0 : Memref sig .tc .vmem S1x1024x2 .f32).view

/-- The core's other scoped buffers (the projection kernel's staging buffers), each whole at some contents: they ride
    through this region untouched. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class invariant with the three scratch operands as memrefs owned at some contents, beside the other scoped
    buffers and the generator register: what the body obligation hands the run and takes back. -/
theorem PhiA1_eq (c : Dev nD) :
    (Pipeline.ΦA spec1 c : sProp 𝕄)
      ⊣⊢ iprop(otherScoped (F := F) c ∗ (∃ d, owns (c : Thread nD τ) scM1_0 fullShare d) ∗ (∃ d, owns (c : Thread nD τ) scM1_1 fullShare d)
          ∗ (∃ d, owns (c : Thread nD τ) scM1_2 fullShare d) ∗ (∃ r, prngReg c r)) := by
  unfold Pipeline.ΦA otherScoped; rw [scopedRest1_eq]; simp only [scM1_0, scM1_1, scM1_2, owns_whole]
  constructor
  · iintro ⟨⟨H0, H1, H2, H3, H4, H5, H6, H7, H8, H9, S0, S1, S2⟩, Hp⟩
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [S0]; · iexact S0
    isplitl [S1]; · iexact S1
    isplitl [S2]; · iexact S2
    iexact Hp
  · iintro ⟨⟨H0, H1, H2, H3, H4, H5, H6, H7, H8, H9⟩, S0, S1, S2, Hp⟩
    isplitr [Hp]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      iexact S2
    iexact Hp

end Cert.KernelIdeal.Hand

end
-- ==== Proof.KIRun1A.lean ====
/-
  The attention kernel's body at a query tile's FIRST key tile: the three scratch buffers are reset (maximum to −∞,
  sums to 0), the tile's scores, running maximum, exponentials and sums are computed and stored back into the three
  buffers, and the result window is left as it was found.
-/
import proofs.«128623_j51281909514577_2_alg».proof.Proof.KIRegion1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers, as pieces (last first), with the proof that on whole
    memrefs — the three inputs at their contents, the result buffer at contents handed back untouched, the scratch at
    anything — the body runs to the continuation holding the inputs and the result buffer as they were and each scratch
    buffer with its pieces written. -/
noncomputable def kernelRun1_A (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole)
    (hc0 : cond1_0 i) (hc1 : ¬cond1_1 i)
    (x0 : Vec F S1x1024x256 .bf16) (x1 : Vec F S1x2048x256 .bf16) (x2 : Vec F S1x2048x2 .f32) :
    Σ' (LS0 : List (View.Piece (Elt F) S1024x1 .f32)) (LS1 : List (View.Piece (Elt F) S1024x1 .f32)), { LS2 : List (View.Piece (Elt F) S1024x2 .f32) //
      ∀ (xi3 : Vec F S1x1024x2 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KIRun1B.lean ====
/-
  The attention kernel's body at a query tile's LAST key tile: the three scratch buffers come in holding what the
  first key tile left, are updated with this tile's maximum, exponentials and sums, and the weighted sum divided by
  the sum is stored into the result window.
-/
import proofs.«128623_j51281909514577_2_alg».proof.Proof.KIRegion1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result buffer and in the three scratch buffers, as pieces (last first), with
    the proof that on whole memrefs — the three inputs at their contents, the result buffer at anything, the scratch at
    the contents the point before left — the body runs to the continuation holding the inputs as they were and each
    other buffer with its pieces written. -/
noncomputable def kernelRun1_B (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole)
    (hc0 : ¬cond1_0 i) (hc1 : cond1_1 i)
    (x0 : Vec F S1x1024x256 .bf16) (x1 : Vec F S1x2048x256 .bf16) (x2 : Vec F S1x2048x2 .f32)
    (xs0 : Vec F S1024x1 .f32) (xs1 : Vec F S1024x1 .f32) (xs2 : Vec F S1024x2 .f32) :
    Σ' (L3 : List (View.Piece (Elt F) S1x1024x2 .f32)) (LS0 : List (View.Piece (Elt F) S1024x1 .f32)) (LS1 : List (View.Piece (Elt F) S1024x1 .f32)), { LS2 : List (View.Piece (Elt F) S1024x2 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KIRegion1.lean ====
/-
  The attention kernel's region: what its buffers hold point by point, its proof data and its body obligation.

  After the body at a point the result window's buffer and the three scratch buffers hold what the point's case
  leaves: at a first key tile the scratch is rebuilt from the point's blocks alone and the result buffer is not
  touched; at a last key tile the scratch is updated from what the first key tile left and the result buffer receives
  the quotient. The invariant between points is the class invariant before the first point and, after a point, the
  three scratch buffers at that point's contents beside the core's other scoped buffers and the generator register.
-/
import proofs.«128623_j51281909514577_2_alg».proof.Proof.KIRun1A
import proofs.«128623_j51281909514577_2_alg».proof.Proof.KIRun1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each case's pieces cover their buffers -/

theorem scover1_A_0 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : cond1_0 i) (hc1 : ¬cond1_1 i) (x0 : Vec F S1x1024x256 .bf16) (x1 : Vec F S1x2048x256 .bf16) (x2 : Vec F S1x2048x2 .f32) (y : S1024x1.Idx) :
    ∃ pc ∈ (kernelRun1_A c i arg3 harg3 arg4 harg4 arg5 harg5 arg6 harg6 arg7 harg7 arg8 harg8 arg9 harg9 hc0 hc1 x0 x1 x2).1, y ∈ pc.1.set :=
  View.cover_of_tiledL (kernelRun1_A c i arg3 harg3 arg4 harg4 arg5 harg5 arg6 harg6 arg7 harg7 arg8 harg8 arg9 harg9 hc0 hc1 x0 x1 x2).1 S1024x1.size (by sl_kernel_rfl) y
theorem scover1_A_1 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : cond1_0 i) (hc1 : ¬cond1_1 i) (x0 : Vec F S1x1024x256 .bf16) (x1 : Vec F S1x2048x256 .bf16) (x2 : Vec F S1x2048x2 .f32) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y
theorem scover1_A_2 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : cond1_0 i) (hc1 : ¬cond1_1 i) (x0 : Vec F S1x1024x256 .bf16) (x1 : Vec F S1x2048x256 .bf16) (x2 : Vec F S1x2048x2 .f32) (y : S1024x2.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x2.size (by sl_kernel_rfl) y

theorem cover1_B_3 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : ¬cond1_0 i) (hc1 : cond1_1 i) (x0 : Vec F S1x1024x256 .bf16) (x1 : Vec F S1x2048x256 .bf16) (x2 : Vec F S1x2048x2 .f32) (xs0 : Vec F S1024x1 .f32) (xs1 : Vec F S1024x1 .f32) (xs2 : Vec F S1024x2 .f32) (y : S1x1024x2.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S1x1024x2.size (by sl_kernel_rfl) y
theorem scover1_B_0 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : ¬cond1_0 i) (hc1 : cond1_1 i) (x0 : Vec F S1x1024x256 .bf16) (x1 : Vec F S1x2048x256 .bf16) (x2 : Vec F S1x2048x2 .f32) (xs0 : Vec F S1024x1 .f32) (xs1 : Vec F S1024x1 .f32) (xs2 : Vec F S1024x2 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y
theorem scover1_B_1 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : ¬cond1_0 i) (hc1 : cond1_1 i) (x0 : Vec F S1x1024x256 .bf16) (x1 : Vec F S1x2048x256 .bf16) (x2 : Vec F S1x2048x2 .f32) (xs0 : Vec F S1024x1 .f32) (xs1 : Vec F S1024x1 .f32) (xs2 : Vec F S1024x2 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y
theorem scover1_B_2 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : ¬cond1_0 i) (hc1 : cond1_1 i) (x0 : Vec F S1x1024x256 .bf16) (x1 : Vec F S1x2048x256 .bf16) (x2 : Vec F S1x2048x2 .f32) (xs0 : Vec F S1024x1 .f32) (xs1 : Vec F S1024x1 .f32) (xs2 : Vec F S1024x2 .f32) (y : S1024x2.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x2.size (by sl_kernel_rfl) y

/-! ## What the four buffers hold after a point -/

/-- The result window's buffer, the running maximum, the running sum, the running weighted sum. -/
abbrev St (F : FTy → Type) [FloatOps F] : Type := Vec F S1x1024x2 .f32 × Vec F S1024x1 .f32 × Vec F S1024x1 .f32 × Vec F S1024x2 .f32

/-- After a first key tile: the scratch rebuilt from the point's blocks; the result buffer a placeholder nothing
    consults (the window is idle there, neither written back nor read at the next point). -/
def stepA (c : Dev nD) (t : Fin cfg1.N) (h0 : t.val % 2 = 0) : St F :=
  (VO1_3.read (Elt F) (VO1_3.writes (Elt F) VO1_3.junk []),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t)).1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t)).2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t)).2.2.1))

/-- After a last key tile, from the scratch the first key tile left. -/
def stepB (c : Dev nD) (t : Fin cfg1.N) (h1 : t.val % 2 = 1) (xs : Vec F S1024x1 .f32 × Vec F S1024x1 .f32 × Vec F S1024x2 .f32) : St F :=
  (VO1_3.read (Elt F) (VO1_3.writes (Elt F) VO1_3.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) (iblk1 V c 0 t) (iblk1 V c 1 t) (iblk1 V c 2 t) xs.1 xs.2.1 xs.2.2).1),
   VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) (iblk1 V c 0 t) (iblk1 V c 1 t) (iblk1 V c 2 t) xs.1 xs.2.1 xs.2.2).2.1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) (iblk1 V c 0 t) (iblk1 V c 1 t) (iblk1 V c 2 t) xs.1 xs.2.1 xs.2.2).2.2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) (iblk1 V c 0 t) (iblk1 V c 1 t) (iblk1 V c 2 t) xs.1 xs.2.1 xs.2.2).2.2.2.1))

/-- THE ACCUMULATION over the grid: the case the point's parity selects, a last key tile over what the point before
    left in the scratch. -/
def outsAt1 (c : Dev nD) : (n : ℕ) → n < cfg1.N → St F
  | 0, hn => stepA V c ⟨0, hn⟩ (Nat.zero_mod _)
  | n + 1, hn =>
    if h0 : (n + 1) % 2 = 0 then stepA V c ⟨n + 1, hn⟩ h0
    else stepB V c ⟨n + 1, hn⟩ (by show (n + 1) % 2 = 1; omega) (outsAt1 c n (Nat.lt_of_succ_lt hn)).2

theorem outsAt1_A (c : Dev nD) (t : Fin cfg1.N) (h0 : t.val % 2 = 0) : outsAt1 V c t.val t.isLt = stepA V c t h0 := by
  obtain ⟨n, hn⟩ := t
  cases n with
  | zero => rfl
  | succ n => exact dif_pos h0

theorem outsAt1_B (c : Dev nD) (t : Fin cfg1.N) (h1 : t.val % 2 = 1) :
    outsAt1 V c t.val t.isLt = stepB V c t h1 (outsAt1 V c (t.val - 1) (Nat.lt_of_le_of_lt (Nat.sub_le _ _) t.isLt)).2 := by
  obtain ⟨n, hn⟩ := t
  cases n with
  | zero => exact absurd (show (0 : ℕ) % 2 = 1 from h1) (by omega)
  | succ n =>
    have h1' : (n + 1) % 2 = 1 := h1
    exact dif_neg (by omega)

/-! ## The invariant between points -/

def PhiS (c : Dev nD) : (n : ℕ) → n ≤ cfg1.N → sProp 𝕄
  | 0, _ => Pipeline.ΦA spec1 c
  | n + 1, hn => iprop(otherScoped (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(otherScoped (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2 ∗ (∃ r, prngReg c r)) := rfl

theorem PhiS_pos (c : Dev nD) (n : ℕ) (h : n ≤ cfg1.N) (hz : n ≠ 0) :
    PhiS V c n h = iprop(otherScoped (F := F) c ∗ owns (c : Thread nD τ) scM1_0 fullShare (outsAt1 V c (n - 1) (by omega)).2.1
      ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's parity says which case it is in; the
    invariant hands the body the scratch (at anything before the first point, else at what the point before left) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3_A t hc0 hc1) (noFlush1_3_A t hc0 hc1)]
    rw [outsAt1_A V c t h0]
    unfold stepA; dsimp only
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_eq (F := F) c).1 $$ HΦ
      icases HΦ' with ⟨Hoth, HS0, HS1, HS2, Hg⟩
      iapply ((kernelRun1_A c (grid1.coords t) _ _ _ _ _ _ _ _ _ _ _ _ _ _ hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨Hoth, HS0, HS1, HS2, Hg⟩, Ho, ⟨%d0, H0⟩, ⟨%d1, H1⟩, ⟨%d2, H2⟩, ⟨%d3, H3⟩⟩
      iapply ((kernelRun1_A c (grid1.coords t) _ _ _ _ _ _ _ _ _ _ _ _ _ _ hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := by omega
    have hc0 : ¬cond1_0 (grid1.coords t) := fun h => h0 ((hcond1_0 t).mp h)
    have hc1 : cond1_1 (grid1.coords t) := (hcond1_1 t).mpr h1
    rw [show (dat1 V c).leavesExact 3 t = owns (c : Thread nD τ) (ms1_3 t) fullShare ((dat1 V c).after 3 t) from by
      unfold Dat.leavesExact; rw [liveAt1_3_B t hc0 hc1], after1_3]
    rw [outsAt1_B V c t h1]
    unfold stepB; dsimp only
    have hz : t.val ≠ 0 := by omega
    rw [PhiS_castSucc V c t, PhiS_pos V c _ _ hz]
    iintro ⟨⟨Hoth, HS0, HS1, HS2, Hg⟩, Ho, ⟨%d0, H0⟩, ⟨%d1, H1⟩, ⟨%d2, H2⟩, ⟨%d3, H3⟩⟩
    iapply ((kernelRun1_B c (grid1.coords t) _ _ _ _ _ _ _ _ _ _ _ _ _ _ hc0 hc1 (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [Hoth HS0 HS1 HS2 Hg]
    · isplitl [Hoth]; · iexact Hoth
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (the class invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ hne]
  iintro ⟨Hoth, HS0, HS1, HS2, Hg⟩
  iapply (PhiA1_eq (F := F) c).2
  isplitl [Hoth]; · iexact Hoth
  isplitl [HS0]; · iexists _; iexact HS0
  isplitl [HS1]; · iexists _; iexact HS1
  isplitl [HS2]; · iexists _; iexact HS2
  iexact Hg

end Cert.KernelIdeal.Hand

end
-- ==== Proof.KIRun.lean ====
/-
  The whole program's run: two host operations' stretches around the two kernel regions.

  Between two items a core's unscoped buffers hold: the launch contents; then those after the first host stretch (the
  feature map and the flow re-laid as tokens); then, after the projection region, its two output arrays at what its
  write-backs leave and everything else as before; then, after the attention region, its output array likewise; then
  those after the last host stretch. Each region is entered from the buffers at one boundary's contents and left at
  the next; the generator register and the core's (empty) dues ride along. Every weakly fair execution terminates, and
  the final memory holds every unscoped buffer at the last boundary's contents.
-/
import proofs.«128623_j51281909514577_2_alg».proof.Proof.KIRegion0
import proofs.«128623_j51281909514577_2_alg».proof.Proof.KIRegion1
import proofs.«128623_j51281909514577_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- After the first host stretch, read at the TensorCore's references: what the projection region finds. -/
abbrev Vt1 : (c : Dev nD) → (b : Ref sig .tc) → Buf (Elt F) ((c : Thread nD τ).loc b) := fun c b => V1 m c b
/-- After the projection region: its arrays at what the pipeline leaves, every other buffer as entered. -/
def W2 (c : Dev nD) : Valuation τ sig (Elt F) :=
  Pipeline.withArrays spec0 c (V1 m c) fun w => (dat0 (Vt1 m) c).arrAt w cfg0.N
theorem W2_arr (c : Dev nD) (w : Fin cfg0.W) :
    W2 m c (Proc.devRef .tc (Pipeline.arrRef spec0 w)) = (dat0 (Vt1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
abbrev Vt2 : (c : Dev nD) → (b : Ref sig .tc) → Buf (Elt F) ((c : Thread nD τ).loc b) := fun c b => W2 m c b
theorem hF0 (c : Dev nD) (w : Fin cfg0.W) : (dat0 (Vt1 m) c).arrAt w cfg0.N = Vt2 m c (Pipeline.arrRef spec0 w) :=
  (W2_arr m c w).symm
theorem hrest0 (c : Dev nD) : ∀ b, b ∉ Finset.univ.image (Pipeline.arrRef spec0) → Vt2 m c b = Vt1 m c b :=
  fun b hb => W2_of_ne m c b fun w e => hb (Finset.mem_image.mpr ⟨w, Finset.mem_univ _, e⟩)

/-- After the attention region. -/
def W3 (c : Dev nD) : Valuation τ sig (Elt F) :=
  Pipeline.withArrays spec1 c (W2 m c) fun w => (dat1 (Vt2 m) c).arrAt w cfg1.N
theorem W3_arr (c : Dev nD) (w : Fin cfg1.W) :
    W3 m c (Proc.devRef .tc (Pipeline.arrRef spec1 w)) = (dat1 (Vt2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vt3 : (c : Dev nD) → (b : Ref sig .tc) → Buf (Elt F) ((c : Thread nD τ).loc b) := fun c b => W3 m c b
theorem hF1 (c : Dev nD) (w : Fin cfg1.W) : (dat1 (Vt2 m) c).arrAt w cfg1.N = Vt3 m c (Pipeline.arrRef spec1 w) :=
  (W3_arr m c w).symm
theorem hrest1 (c : Dev nD) : ∀ b, b ∉ Finset.univ.image (Pipeline.arrRef spec1) → Vt3 m c b = Vt2 m c b :=
  fun b hb => W3_of_ne m c b fun w e => hb (Finset.mem_image.mpr ⟨w, Finset.mem_univ _, e⟩)

/-- After the last host stretch: what the launch reads at the end. -/
abbrev W4 : Dev nD → Valuation τ sig (Elt F) := fun c => StableHlo.after hostOps2 (W3 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt2 m) c
abbrev 𝒱₀ : Variants := Variants.none
abbrev L : GSem nD τ sig → Finset Unit := fun _ => ∅
abbrev lv : GSem nD τ sig → Unit → ℕ := fun _ _ => 0
/-- What rides beside the buffers through every segment: the generator register at some state, the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region over the thread state: entered from every unscoped buffer after the first host stretch,
    left with its two output arrays at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt1 m c) (Vt2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from the buffers the projection region left, left with its
    output array at what its write-backs leave. Its invariant meets the class invariant at both ends: before the
    first point it IS the class invariant, after the last the scratch's named contents are forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Vt2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vt2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hA : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (Vt2 m) c).trans hA
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt2 m c) (Vt3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (V0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun c =>
      (show (iprop(StableHlo.held (c : Thread nD τ) (Pipeline.ucRefs τ sig) (W4 m c) ∗ R c) : sProp 𝕄)
          ⊢ iprop(Tₙ m c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The arguments end as launched -/

/-- A buffer that neither the last host stretch writes nor the attention region holds as an array is, at the end,
    what the projection region left. -/
theorem W4_of (c : Dev nD) (b : Ref sig .tc) (h2 : b ∉ hostOps2_W) (h1 : ∀ w, Pipeline.arrRef spec1 w ≠ b) :
    W4 m c (Proc.devRef .tc b) = W2 m c (Proc.devRef .tc b) :=
  (StableHlo.after_of_writes_sub hostOps2 _ hostOps2_writes h2).trans (W3_of_ne m c b h1)

theorem W4_main_arg0 (c : Dev nD) : W4 m c (Proc.devRef .tc main_arg0) = m ((c : Thread nD τ).loc main_arg0) :=
  (W4_of m c main_arg0 (by decide) (by decide)).trans ((W2_of_ne m c main_arg0 (by decide)).trans (V1_of m c main_arg0 (by decide)))
theorem W4_main_arg1 (c : Dev nD) : W4 m c (Proc.devRef .tc main_arg1) = m ((c : Thread nD τ).loc main_arg1) :=
  (W4_of m c main_arg1 (by decide) (by decide)).trans ((W2_of_ne m c main_arg1 (by decide)).trans (V1_of m c main_arg1 (by decide)))
theorem W4_main_arg2 (c : Dev nD) : W4 m c (Proc.devRef .tc main_arg2) = m ((c : Thread nD τ).loc main_arg2) :=
  (W4_of m c main_arg2 (by decide) (by decide)).trans ((W2_arr m c 1).trans (((dat0 (Vt1 m) c).arrAt_in 1 rfl _).trans ((A_eq0 (Vt1 m) c 1).trans (V1_of m c main_arg2 (by decide)))))
theorem W4_main_arg3 (c : Dev nD) : W4 m c (Proc.devRef .tc main_arg3) = m ((c : Thread nD τ).loc main_arg3) :=
  (W4_of m c main_arg3 (by decide) (by decide)).trans ((W2_arr m c 2).trans (((dat0 (Vt1 m) c).arrAt_in 2 rfl _).trans ((A_eq0 (Vt1 m) c 2).trans (V1_of m c main_arg3 (by decide)))))
theorem W4_main_arg4 (c : Dev nD) : W4 m c (Proc.devRef .tc main_arg4) = m ((c : Thread nD τ).loc main_arg4) :=
  (W4_of m c main_arg4 (by decide) (by decide)).trans ((W2_arr m c 3).trans (((dat0 (Vt1 m) c).arrAt_in 3 rfl _).trans ((A_eq0 (Vt1 m) c 3).trans (V1_of m c main_arg4 (by decide)))))
theorem W4_main_arg5 (c : Dev nD) : W4 m c (Proc.devRef .tc main_arg5) = m ((c : Thread nD τ).loc main_arg5) :=
  (W4_of m c main_arg5 (by decide) (by decide)).trans ((W2_arr m c 4).trans (((dat0 (Vt1 m) c).arrAt_in 4 rfl _).trans ((A_eq0 (Vt1 m) c 4).trans (V1_of m c main_arg5 (by decide)))))

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.KernelIdeal.Hand

end
-- ==== Proof.KIHost.lean ====
/-
  What the kernel program's two host stretches compute, read off the boundary contents.

  The first stretch re-lays the feature map [4, 256, 64, 64] as [4, 256, 4096] and the flow [4, 2, 64, 64] as tokens
  [4, 4096, 2]; the last re-lays the attention region's output [4, 4096, 2] as [4, 2, 64, 64]. No stretch writes an
  argument or a weight.
-/
import proofs.«128623_j51281909514577_2_alg».proof.Proof.KIRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The feature map as the projection region finds it: the argument reshaped. -/
theorem V1_main_v0 (c : Dev nD) :
    (V1 m c (Proc.devRef .tc main_v0) : (⟨S4x256x4096, .f32⟩ : BufTy).Contents (Elt F))
      = shapeCast S4x256x4096 (m ((c : Thread nD τ).loc main_arg0)) shapeCasts_S4x256x64x64_S4x256x4096 := by
  show StableHlo.after hostOps0 (V0 m c) (Proc.devRef .tc main_v0) = _
  after_results; rfl

/-- The flow as tokens: the argument reshaped, then its last two axes exchanged. -/
theorem V1_main_v2 (c : Dev nD) :
    (V1 m c (Proc.devRef .tc main_v2) : (⟨S4x4096x2, .f32⟩ : BufTy).Contents (Elt F))
      = transpose S4x4096x2 [0, 2, 1] (shapeCast S4x2x4096 (m ((c : Thread nD τ).loc main_arg1)) shapeCasts_S4x2x64x64_S4x2x4096) transposes_S4x2x4096_S4x4096x2_0_2_1 := by
  show StableHlo.after hostOps0 (V0 m c) (Proc.devRef .tc main_v2) = _
  after_results; rfl

/-- The program's result: the attention region's output array reshaped and its channel axis moved forward. -/
theorem W4_main_v6 (c : Dev nD) :
    (W4 m c (Proc.devRef .tc main_v6) : (⟨S4x2x64x64, .f32⟩ : BufTy).Contents (Elt F))
      = transpose S4x2x64x64 [0, 3, 1, 2] (shapeCast S4x64x64x2 (W3 m c (Proc.devRef .tc main_v4)) shapeCasts_S4x4096x2_S4x64x64x2) transposes_S4x64x64x2_S4x2x64x64_0_3_1_2 := by
  show StableHlo.after hostOps2 (W3 m c) (Proc.devRef .tc main_v6) = _
  after_results; rfl

end Cert.KernelIdeal.Hand

end
-- ==== Proof.Spec.lean ====
/-
  The mathematics both programs compute, as functions of index functions into the extended reals.

  A token (b, n) is projected by a linear layer: the sum over the 256 input channels c of feature (b, c, n) times
  weight (d, c), plus bias d. A query row l of batch b is scored against key row s by the dot product of their 256
  projected channels times a scale. A row of scores x over keys, with values u at the keys, yields the
  softmax-weighted value: every exp (x s − M), M the row's maximum, divided by the sum of those exponentials, times
  u s, summed over the keys. The online arrangement visits the keys tile by tile, carrying the running maximum m, the
  running sum l and the running weighted sum a, each rescaled by exp (m − m') when the maximum moves to m', and divides
  once at the end. Both arrangements start their maxima from −∞ and their sums from 0.
-/
import Idealize.ShloMosaic.PureOps.Ideal
import Idealize.ShloMosaic.Lib.ValueIdx

noncomputable section

namespace Cert.Spec

open Idealize.ShloMosaic Idealize.ShloMosaic.ValueIdx
open scoped BigOperators

/-- The linear layer at token (b, n) and output channel d. -/
def projAt (feat : (⟨3, ![4, 256, 4096]⟩ : Shape).Idx → EReal) (w : (⟨2, ![256, 256]⟩ : Shape).Idx → EReal)
    (bias : (⟨1, ![256]⟩ : Shape).Idx → EReal) (b : Fin 4) (n : Fin 4096) (d : Fin 256) : EReal :=
  (∑ c : Fin 256, feat (ix3 b c n) * w (ix2 d c)) + bias (ix1 d)

/-- The projected tokens as one array [4, 4096, 256]. -/
def proj (feat : (⟨3, ![4, 256, 4096]⟩ : Shape).Idx → EReal) (w : (⟨2, ![256, 256]⟩ : Shape).Idx → EReal)
    (bias : (⟨1, ![256]⟩ : Shape).Idx → EReal) : (⟨3, ![4, 4096, 256]⟩ : Shape).Idx → EReal :=
  fun i => projAt feat w bias (i 0) (i 1) (i 2)

/-- The scaled score of query row l against key row s in batch b. -/
def scoreAt (σ : EReal) (q k : (⟨3, ![4, 4096, 256]⟩ : Shape).Idx → EReal) (b : Fin 4) (l s : Fin 4096) : EReal :=
  (∑ d : Fin 256, q (ix3 b l d) * k (ix3 b s d)) * σ

section Row

variable {ι : Type} [Fintype ι]

/-- The softmax-weighted value of a row of scores x with values u: maximum from −∞, exponentials of the differences,
    their sum from 0, each quotient times its value, summed. -/
def soft (x u : ι → EReal) : EReal :=
  ∑ s, Ideal.div (Ideal.exp (x s - max ⊥ (Finset.univ.fold max ⊥ x)))
      (0 + ∑ s', Ideal.exp (x s' - max ⊥ (Finset.univ.fold max ⊥ x))) * u s

/-- A tile's update of the running maximum. -/
def stepM (m : EReal) (x : ι → EReal) : EReal := max m (Finset.univ.fold max ⊥ x)

/-- A tile's update of the running sum of exponentials. -/
def stepL (m l : EReal) (x : ι → EReal) : EReal :=
  Ideal.exp (m - stepM m x) * l + ∑ t, Ideal.exp (x t - stepM m x)

/-- A tile's update of the running weighted sum. -/
def stepA (m a : EReal) (x u : ι → EReal) : EReal :=
  Ideal.exp (m - stepM m x) * a + ∑ t, Ideal.exp (x t - stepM m x) * u t

end Row

/-- The online arrangement over two tiles of keys, divided once at the end. -/
def flash2 {ι₀ ι₁ : Type} [Fintype ι₀] [Fintype ι₁] (x0 u0 : ι₀ → EReal) (x1 u1 : ι₁ → EReal) : EReal :=
  Ideal.div (stepA (stepM ⊥ x0) (stepA ⊥ 0 x0 u0) x1 u1) (stepL (stepM ⊥ x0) (stepL ⊥ 0 x0) x1)

/-- Key s of the first tile, and of the second, among the 4096 keys. -/
def lo (t : Fin 2048) : Fin 4096 := ⟨t.val, by have := t.isLt; omega⟩
def hi (t : Fin 2048) : Fin 4096 := ⟨2048 + t.val, by have := t.isLt; omega⟩

/-- Attention at (b, l, c) in the reference's arrangement. -/
def attnAt (σ : EReal) (q k : (⟨3, ![4, 4096, 256]⟩ : Shape).Idx → EReal) (v : (⟨3, ![4, 4096, 2]⟩ : Shape).Idx → EReal)
    (b : Fin 4) (l : Fin 4096) (c : Fin 2) : EReal :=
  soft (fun s : Fin 4096 => scoreAt σ q k b l s) (fun s : Fin 4096 => v (ix3 b s c))

/-- Attention at (b, l, c) in the online arrangement over two tiles of 2048 keys. -/
def flashAt (σ : EReal) (q k : (⟨3, ![4, 4096, 256]⟩ : Shape).Idx → EReal) (v : (⟨3, ![4, 4096, 2]⟩ : Shape).Idx → EReal)
    (b : Fin 4) (l : Fin 4096) (c : Fin 2) : EReal :=
  flash2 (fun t : Fin 2048 => scoreAt σ q k b l (lo t)) (fun t : Fin 2048 => v (ix3 b (lo t) c))
    (fun t : Fin 2048 => scoreAt σ q k b l (hi t)) (fun t : Fin 2048 => v (ix3 b (hi t) c))

/-- "Every entry is a real number." -/
def AllReal {α : Type} (f : α → EReal) : Prop := ∀ i, ∃ r : ℝ, f i = (r : EReal)

end Cert.Spec

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibUnitAxes.lean ====
/-
  Adding and dropping axes of extent one, read at an index, generic in the extents and in the entries' type.

  An array [1, A, B] reshaped to [A, B] reads, at (a, b), the array at (0, a, b).  A scalar reshaped to [1, 1]
  reads the scalar.  A [1, 1] array broadcast to the row [1, C] reads, at (0, c), its one entry.  An array
  [A, B] broadcast onto axes 1 and 2 of [1, A, B] reads, at (z, a, b), the array at (a, b).
-/
import Idealize.ShloMosaic.Lib.ValueIdx
import Idealize.ShloMosaic.Lib.Pipeline.Value

noncomputable section

namespace Cert.Lib.UnitAxes

open Idealize.ShloMosaic Idealize.ShloMosaic.ValueIdx

variable {α : Type}

/-- An array [1, A, B] reshaped to [A, B], read at (a, b), is the array at (0, a, b). -/
theorem shapeCast_dropLead_apply {A B : Nat} (x : (⟨3, ![1, A, B]⟩ : Shape).Idx → α)
    (h : (⟨3, ![1, A, B]⟩ : Shape).ShapeCasts ⟨2, ![A, B]⟩) (a : Fin A) (b : Fin B) :
    shapeCast ⟨2, ![A, B]⟩ x h (ix2 a b) = x (ix3 0 a b) :=
  shapeCast_apply x h (ix2 a b) (ix3 0 a b) (by
    rw [Shape.rowMajor_val_three, Shape.rowMajor_val_two]
    show ((0 : Nat) * A + a.val) * B + b.val = a.val * B + b.val
    rw [Nat.zero_mul, Nat.zero_add])

/-- A scalar reshaped to [1, 1] reads the scalar. -/
theorem shapeCast_scalar_apply (x : (⟨0, ![]⟩ : Shape).Idx → α)
    (h : (⟨0, ![]⟩ : Shape).ShapeCasts ⟨2, ![1, 1]⟩) (j : (⟨2, ![1, 1]⟩ : Shape).Idx) :
    shapeCast ⟨2, ![1, 1]⟩ x h j = x ix0 := by
  unfold shapeCast
  exact congrArg x (funext fun a => a.elim0)

/-- A [1, 1] array broadcast to the row [1, C], read at (0, c), is its one entry. -/
theorem broadcastInDim_unit_row_apply {C : Nat} (x : (⟨2, ![1, 1]⟩ : Shape).Idx → α)
    (h : (⟨2, ![1, 1]⟩ : Shape).BroadcastsInDim ⟨2, ![1, C]⟩ (![0, 1] : Fin 2 → Fin 2)) (c : Fin C) :
    broadcastInDim ⟨2, ![1, C]⟩ ![0, 1] h x (ix2 0 c) = x (ix2 0 0) :=
  broadcastInDim_apply _ h x (ix2 0 c) (ix2 0 0) (fun a => by
    match a with
    | ⟨0, _⟩ => show (0 : Nat) = if (1 : Nat) = 1 then 0 else _; rw [if_pos rfl]
    | ⟨1, _⟩ => show (0 : Nat) = if (1 : Nat) = 1 then 0 else _; rw [if_pos rfl])

/-- An array [A, B] broadcast onto axes 1 and 2 of [1, A, B], read at (z, a, b), is the array at (a, b). -/
theorem broadcastInDim_addLead_apply {A B : Nat} (x : (⟨2, ![A, B]⟩ : Shape).Idx → α)
    (h : (⟨2, ![A, B]⟩ : Shape).BroadcastsInDim ⟨3, ![1, A, B]⟩ (![1, 2] : Fin 2 → Fin 3)) (z : Fin 1) (a : Fin A) (b : Fin B) :
    broadcastInDim ⟨3, ![1, A, B]⟩ ![1, 2] h x (ix3 z a b) = x (ix2 a b) :=
  broadcastInDim_apply _ h x (ix3 z a b) (ix2 a b) (fun d => by
    match d with
    | ⟨0, _⟩ =>
      show a.val = if A = 1 then 0 else a.val
      by_cases hA : A = 1
      · rw [if_pos hA]; have := a.isLt; omega
      · rw [if_neg hA]
    | ⟨1, _⟩ =>
      show b.val = if B = 1 then 0 else b.val
      by_cases hB : B = 1
      · rw [if_pos hB]; have := b.isLt; omega
      · rw [if_neg hB])

end Cert.Lib.UnitAxes

end
-- ==== Proof.KIRegion0Value.lean ====
/-
  What the projection kernel's region leaves in its two output arrays, in closed form, over the extended reals.

  The body's stored value at (0, r, d) of a block is the sum over the 256 input channels c of the features' block at
  (0, c, r) times the weight at (d, c), plus the bias at d: a contraction of axis 0 of the [256, 1024] block with axis 1
  of the [256, 256] weight into a zero accumulator, the bias broadcast down the rows, and roundings that are the
  identity on extended reals. Grid point (i, j) holds batch i and tokens 1024 j … 1024 j + 1023 of the features, and
  writes back the same batch and tokens of the output: so what it writes back is its block of the linear layer of the
  whole arrays, the sixteen blocks cover the output, and the array the region leaves is the linear layer.
-/
import proofs.«128623_j51281909514577_2_alg».proof.Proof.KIRegion0
import proofs.«128623_j51281909514577_2_alg».proof.Proof.Spec
import proofs.«128623_j51281909514577_2_alg».proof.Proof.LibRows
import proofs.«128623_j51281909514577_2_alg».proof.Proof.LibUnitAxes
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The contraction's operand indices -/

/-- At output (r, d) and contraction position q, the left operand is read at row q … -/
theorem dotL0 (j : S1024x256.Idx) (q : dot_S256x1024_S256x256_S1024x256_0_1_1_0_n_n.contr.Idx) :
    (dot_S256x1024_S256x256_S1024x256_0_1_1_0_n_n.lhsIdx j q 0).val = (q ⟨0, by decide⟩).val :=
  dot_S256x1024_S256x256_S1024x256_0_1_1_0_n_n.lhsIdx_val_of_single rfl j q
/-- … and column r; -/
theorem dotL1 (j : S1024x256.Idx) (q : dot_S256x1024_S256x256_S1024x256_0_1_1_0_n_n.contr.Idx) :
    (dot_S256x1024_S256x256_S1024x256_0_1_1_0_n_n.lhsIdx j q 1).val = (j 0).val := by
  unfold DotDims.lhsIdx
  rw [dif_neg (show ¬(1 : Fin S256x1024.rank) ∈ dot_S256x1024_S256x256_S1024x256_0_1_1_0_n_n.lhsBatch by decide), dif_pos (show (1 : Fin S256x1024.rank) ∈ dot_S256x1024_S256x256_S1024x256_0_1_1_0_n_n.lhsNonContracting by decide)]
  rfl
/-- the right operand at row d … -/
theorem dotR0 (j : S1024x256.Idx) (q : dot_S256x1024_S256x256_S1024x256_0_1_1_0_n_n.contr.Idx) :
    (dot_S256x1024_S256x256_S1024x256_0_1_1_0_n_n.rhsIdx j q 0).val = (j 1).val := by
  unfold DotDims.rhsIdx
  rw [dif_neg (show ¬(0 : Fin S256x256.rank) ∈ dot_S256x1024_S256x256_S1024x256_0_1_1_0_n_n.rhsBatch by decide), dif_pos (show (0 : Fin S256x256.rank) ∈ dot_S256x1024_S256x256_S1024x256_0_1_1_0_n_n.rhsNonContracting by decide)]
  rfl
/-- … and column q. -/
theorem dotR1 (j : S1024x256.Idx) (q : dot_S256x1024_S256x256_S1024x256_0_1_1_0_n_n.contr.Idx) :
    (dot_S256x1024_S256x256_S1024x256_0_1_1_0_n_n.rhsIdx j q 1).val = (q ⟨0, by decide⟩).val :=
  dot_S256x1024_S256x256_S1024x256_0_1_1_0_n_n.rhsIdx_val_of_single rfl j q

/-- The contraction into the zero accumulator, at (r, d): the sum over c of left (c, r) times right (d, c). -/
theorem matmul_zero_apply (lhs : FVec Ideal S256x1024 .bf16) (rhs : FVec Ideal S256x256 .bf16) (r : Fin 1024) (d : Fin 256) :
    matmul dot_S256x1024_S256x256_S1024x256_0_1_1_0_n_n none lhs rhs (constant (F := Ideal) S1024x256 .f32 0x00000000#32) (ix2 r d)
      = ∑ c : Fin 256, lhs (ix2 c r) * rhs (ix2 d c) := by
  refine (Ideal.matmul_constant_zero_apply dot_S256x1024_S256x256_S1024x256_0_1_1_0_n_n none lhs rhs (ix2 r d)).trans ?_
  rw [← Equiv.sum_comp (contrEquiv1 dot_S256x1024_S256x256_S1024x256_0_1_1_0_n_n 256 rfl rfl).symm]
  refine Finset.sum_congr rfl fun k _ => ?_
  have hk := contrEquiv1_symm_val dot_S256x1024_S256x256_S1024x256_0_1_1_0_n_n 256 rfl rfl k
  have el : dot_S256x1024_S256x256_S1024x256_0_1_1_0_n_n.lhsIdx (ix2 r d) ((contrEquiv1 dot_S256x1024_S256x256_S1024x256_0_1_1_0_n_n 256 rfl rfl).symm k) = ix2 k r := funext fun a => Fin.ext (by
    match a with
    | ⟨0, _⟩ => exact (dotL0 _ _).trans hk
    | ⟨1, _⟩ => exact dotL1 _ _)
  have er : dot_S256x1024_S256x256_S1024x256_0_1_1_0_n_n.rhsIdx (ix2 r d) ((contrEquiv1 dot_S256x1024_S256x256_S1024x256_0_1_1_0_n_n 256 rfl rfl).symm k) = ix2 d k := funext fun a => Fin.ext (by
    match a with
    | ⟨0, _⟩ => exact dotR0 _ _
    | ⟨1, _⟩ => exact (dotR1 _ _).trans hk)
  rw [el, er]

/-- An array [A, B] reshaped to [1, A, B], read at (z, a, b), is the array at (a, b). -/
theorem shapeCast_addLead_apply {α : Type} {A B : Nat} (x : (⟨2, ![A, B]⟩ : Shape).Idx → α)
    (h : (⟨2, ![A, B]⟩ : Shape).ShapeCasts ⟨3, ![1, A, B]⟩) (z : Fin 1) (a : Fin A) (b : Fin B) :
    shapeCast ⟨3, ![1, A, B]⟩ x h (ix3 z a b) = x (ix2 a b) :=
  shapeCast_apply x h (ix3 z a b) (ix2 a b) (by
    rw [Shape.rowMajor_val_three, Shape.rowMajor_val_two]
    show a.val * B + b.val = (z.val * A + a.val) * B + b.val
    have hz : z.val = 0 := by have := z.isLt; omega
    rw [hz, Nat.zero_mul, Nat.zero_add])

/-! ## The body's stored values at an index -/

/-- The first projection's stored value at (0, r, d). -/
theorem k0_pay2_apply (v0 : Vec Ideal S1x256x1024 .f32) (v3 : Vec Ideal S256x256 .f32) (v8 : Vec Ideal S256 .f32)
    (z : Fin 1) (r : Fin 1024) (d : Fin 256) :
    k0_pay2 (F := Ideal) v0 v3 v8 (ix3 z r d) = (∑ c : Fin 256, v0 (ix3 0 c r) * v3 (ix2 d c)) + v8 (ix1 d) := by
  unfold k0_pay2 k0_pay1
  dsimp only
  rw [shapeCast_addLead_apply, truncf_apply, addf_apply, matmul_zero_apply, Cert.Lib.Rows.broadcastTo_row_apply,
    Cert.Lib.Rows.shapeCast_vec_row_apply]
  refine congrArg (· + v8 (ix1 d)) (Finset.sum_congr rfl fun c _ => ?_)
  rw [truncf_apply, truncf_apply, Cert.Lib.UnitAxes.shapeCast_dropLead_apply]

/-- The second projection's. -/
theorem k0_pay3_apply (v0 : Vec Ideal S1x256x1024 .f32) (v5 : Vec Ideal S256x256 .f32) (v13 : Vec Ideal S256 .f32)
    (z : Fin 1) (r : Fin 1024) (d : Fin 256) :
    k0_pay3 (F := Ideal) v0 v5 v13 (ix3 z r d) = (∑ c : Fin 256, v0 (ix3 0 c r) * v5 (ix2 d c)) + v13 (ix1 d) := by
  unfold k0_pay3 k0_pay1
  dsimp only
  rw [shapeCast_addLead_apply, truncf_apply, addf_apply, matmul_zero_apply, Cert.Lib.Rows.broadcastTo_row_apply,
    Cert.Lib.Rows.shapeCast_vec_row_apply]
  refine congrArg (· + v13 (ix1 d)) (Finset.sum_congr rfl fun c _ => ?_)
  rw [truncf_apply, truncf_apply, Cert.Lib.UnitAxes.shapeCast_dropLead_apply]

/-! ## From blocks to the arrays -/

-- the TensorCore's buffer contents when the region is entered
variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The windows' block indices, decided over the sixteen grid points: the features' block has the batch of the outputs'
    and, on its tokens axis, their tokens-block; the weights' and biases' never move; the outputs' channel block is
    the only one, and their batch and tokens-block are below 4. -/
theorem index_facts : ∀ t : Fin cfg0.N,
    win0_0.index t (0 : Fin 3) = win0_5.index t (0 : Fin 3) ∧ win0_0.index t (1 : Fin 3) = 0
    ∧ win0_0.index t (2 : Fin 3) = win0_5.index t (1 : Fin 3)
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (2 : Fin 3) = 0 ∧ win0_5.index t (0 : Fin 3) ≤ 3 ∧ win0_5.index t (1 : Fin 3) ≤ 3
    ∧ win0_6.index t (0 : Fin 3) = win0_5.index t (0 : Fin 3) ∧ win0_6.index t (1 : Fin 3) = win0_5.index t (1 : Fin 3)
    ∧ win0_6.index t (2 : Fin 3) = 0 :=
  (by decide +kernel : ∀ t : Fin grid0.N, _)

/-- Every batch and tokens-block is some grid point's. -/
theorem index_onto : ∀ (q0 : Fin 4) (q1 : Fin 4), ∃ t : Fin cfg0.N, win0_5.index t = ![q0.val, q1.val, 0] :=
  (by decide +kernel : ∀ (q0 : Fin 4) (q1 : Fin 4), ∃ t : Fin grid0.N, win0_5.index t = ![q0.val, q1.val, 0])

/-- WHAT GRID POINT `t` WRITES BACK to the first output is its block of the linear layer of the arrays. -/
theorem flushed5_eq (c : Dev nD) (t : Fin cfg0.N) :
    (dat0 (F := Ideal) V c).flushed 5 t
      = ((cfg0.win 5).blk t).view.read (Elt Ideal) (Cert.Spec.proj (V c main_v0) (V c main_arg2) (V c main_arg3)) := by
  show (cfg0.win 5).cut (grid0.coords t) ((dat0 V c).after 5 t) = _
  rw [after0_5]
  unfold out0_5
  rw [View.canon_unit_zero zeros3]
  simp only [View.ld_unit_zero (S := S1x256x1024) zeros3, View.ld_unit_zero (S := S256x256) zeros2, View.ld_unit_zero (S := S256) zeros1]
  obtain ⟨e00, e01, e02, e10, e11, e20, e30, e31, e40, e52, b50, b51, e60, e61, e62⟩ := index_facts t
  funext j
  obtain ⟨z, r, d, rfl⟩ : ∃ (z : Fin 1) (r : Fin 1024) (d : Fin 256), j = ix3 z r d := ⟨j 0, j 1, j 2, eq_ix3 j⟩
  show k0_pay2 (F := Ideal) (iblk0 V c 0 t) (iblk0 V c 1 t) (iblk0 V c 2 t) (ix3 z r d)
    = Cert.Spec.proj (V c main_v0) (V c main_arg2) (V c main_arg3) (((cfg0.win 5).blk t).view.emb (ix3 z r d))
  refine (k0_pay2_apply (iblk0 V c 0 t) (iblk0 V c 1 t) (iblk0 V c 2 t) z r d).trans ?_
  unfold Cert.Spec.proj Cert.Spec.projAt
  refine congrArg₂ (· + ·) (Finset.sum_congr rfl fun c' _ => congrArg₂ (· * ·) ?_ ?_) ?_
  · show V c main_v0 (((cfg0.win 0).blk t).view.emb (ix3 0 c' r)) = _
    refine congrArg (V c main_v0) (funext fun a => Fin.ext ?_)
    match a with
    | ⟨0, _⟩ => show win0_0.index t (0 : Fin 3) * 1 + 1 * 0 = win0_5.index t (0 : Fin 3) * 1 + 1 * z.val; have := z.isLt; omega
    | ⟨1, _⟩ => show win0_0.index t (1 : Fin 3) * 256 + 1 * c'.val = c'.val; omega
    | ⟨2, _⟩ => show win0_0.index t (2 : Fin 3) * 1024 + 1 * r.val = win0_5.index t (1 : Fin 3) * 1024 + 1 * r.val; omega
  · show V c main_arg2 (((cfg0.win 1).blk t).view.emb (ix2 d c')) = _
    refine congrArg (V c main_arg2) (funext fun a => Fin.ext ?_)
    match a with
    | ⟨0, _⟩ => show win0_1.index t (0 : Fin 2) * 256 + 1 * d.val = win0_5.index t (2 : Fin 3) * 256 + 1 * d.val; omega
    | ⟨1, _⟩ => show win0_1.index t (1 : Fin 2) * 256 + 1 * c'.val = c'.val; omega
  · show V c main_arg3 (((cfg0.win 2).blk t).view.emb (ix1 d)) = _
    refine congrArg (V c main_arg3) (funext fun a => Fin.ext ?_)
    match a with
    | ⟨0, _⟩ => show win0_2.index t (0 : Fin 1) * 256 + 1 * d.val = win0_5.index t (2 : Fin 3) * 256 + 1 * d.val; omega

/-- An index of the first output is in grid point `t`'s block iff each coordinate is in the block's range on its axis. -/
theorem mem_blk5 (t : Fin cfg0.N) (i : S4x4096x256.Idx) :
    i ∈ ((cfg0.win 5).blk t).view.set ↔ ∀ a : Fin 3, win0_5.index t a * S1x1024x256.size a ≤ (i a).val
      ∧ (i a).val < win0_5.index t a * S1x1024x256.size a + S1x1024x256.size a := by
  show i ∈ ((View.whole main_v3_0).slice (win0_5.rect t)).set ↔ _
  rw [View.set_slice_whole, Rect.mem_set_unit]
  exact Iff.rfl

/-- Every index of the first output is in the block of the grid point of its batch and tokens-block, which writes back. -/
theorem cover5 (i : S4x4096x256.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 256 := (i 2).isLt
  obtain ⟨t, ht⟩ := index_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 256 ≤ (i 2).val ∧ (i 2).val < win0_5.index t (2 : Fin 3) * 256 + 256; omega

/-- THE FIRST OUTPUT ARRAY after the region: the linear layer of the features through the first weight and bias. -/
theorem arr0_5 (c : Dev nD) :
    (dat0 (F := Ideal) V c).arrAt 5 cfg0.N = Cert.Spec.proj (V c main_v0) (V c main_arg2) (V c main_arg3) :=
  (dat0 (F := Ideal) V c).arrAt_eq_of_cover 5 (Cert.Spec.proj (V c main_v0) (V c main_arg2) (V c main_arg3))
    (fun t _ => flushed5_eq V c t) cover5

/-- WHAT GRID POINT `t` WRITES BACK to the second output is its block of the linear layer through the second weight and bias. -/
theorem flushed6_eq (c : Dev nD) (t : Fin cfg0.N) :
    (dat0 (F := Ideal) V c).flushed 6 t
      = ((cfg0.win 6).blk t).view.read (Elt Ideal) (Cert.Spec.proj (V c main_v0) (V c main_arg4) (V c main_arg5)) := by
  show (cfg0.win 6).cut (grid0.coords t) ((dat0 V c).after 6 t) = _
  rw [after0_6]
  unfold out0_6
  rw [View.canon_unit_zero zeros3]
  simp only [View.ld_unit_zero (S := S1x256x1024) zeros3, View.ld_unit_zero (S := S256x256) zeros2, View.ld_unit_zero (S := S256) zeros1]
  obtain ⟨e00, e01, e02, e10, e11, e20, e30, e31, e40, e52, b50, b51, e60, e61, e62⟩ := index_facts t
  funext j
  obtain ⟨z, r, d, rfl⟩ : ∃ (z : Fin 1) (r : Fin 1024) (d : Fin 256), j = ix3 z r d := ⟨j 0, j 1, j 2, eq_ix3 j⟩
  show k0_pay3 (F := Ideal) (iblk0 V c 0 t) (iblk0 V c 3 t) (iblk0 V c 4 t) (ix3 z r d)
    = Cert.Spec.proj (V c main_v0) (V c main_arg4) (V c main_arg5) (((cfg0.win 6).blk t).view.emb (ix3 z r d))
  refine (k0_pay3_apply (iblk0 V c 0 t) (iblk0 V c 3 t) (iblk0 V c 4 t) z r d).trans ?_
  unfold Cert.Spec.proj Cert.Spec.projAt
  refine congrArg₂ (· + ·) (Finset.sum_congr rfl fun c' _ => congrArg₂ (· * ·) ?_ ?_) ?_
  · show V c main_v0 (((cfg0.win 0).blk t).view.emb (ix3 0 c' r)) = _
    refine congrArg (V c main_v0) (funext fun a => Fin.ext ?_)
    match a with
    | ⟨0, _⟩ => show win0_0.index t (0 : Fin 3) * 1 + 1 * 0 = win0_6.index t (0 : Fin 3) * 1 + 1 * z.val; have := z.isLt; omega
    | ⟨1, _⟩ => show win0_0.index t (1 : Fin 3) * 256 + 1 * c'.val = c'.val; omega
    | ⟨2, _⟩ => show win0_0.index t (2 : Fin 3) * 1024 + 1 * r.val = win0_6.index t (1 : Fin 3) * 1024 + 1 * r.val; omega
  · show V c main_arg4 (((cfg0.win 3).blk t).view.emb (ix2 d c')) = _
    refine congrArg (V c main_arg4) (funext fun a => Fin.ext ?_)
    match a with
    | ⟨0, _⟩ => show win0_3.index t (0 : Fin 2) * 256 + 1 * d.val = win0_6.index t (2 : Fin 3) * 256 + 1 * d.val; omega
    | ⟨1, _⟩ => show win0_3.index t (1 : Fin 2) * 256 + 1 * c'.val = c'.val; omega
  · show V c main_arg5 (((cfg0.win 4).blk t).view.emb (ix1 d)) = _
    refine congrArg (V c main_arg5) (funext fun a => Fin.ext ?_)
    match a with
    | ⟨0, _⟩ => show win0_4.index t (0 : Fin 1) * 256 + 1 * d.val = win0_6.index t (2 : Fin 3) * 256 + 1 * d.val; omega

/-- An index of the second output is in grid point `t`'s block iff each coordinate is in the block's range on its axis. -/
theorem mem_blk6 (t : Fin cfg0.N) (i : S4x4096x256.Idx) :
    i ∈ ((cfg0.win 6).blk t).view.set ↔ ∀ a : Fin 3, win0_6.index t a * S1x1024x256.size a ≤ (i a).val
      ∧ (i a).val < win0_6.index t a * S1x1024x256.size a + S1x1024x256.size a := by
  show i ∈ ((View.whole main_v3_1).slice (win0_6.rect t)).set ↔ _
  rw [View.set_slice_whole, Rect.mem_set_unit]
  exact Iff.rfl

/-- Every index of the second output is in the block of the grid point of its batch and tokens-block, which writes back. -/
theorem cover6 (i : S4x4096x256.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 256 := (i 2).isLt
  obtain ⟨t, ht⟩ := index_onto ⟨(i 0).val, hi0⟩ ⟨(i 1).val / 1024, by omega⟩
  obtain ⟨e00, e01, e02, e10, e11, e20, e30, e31, e40, e52, b50, b51, e60, e61, e62⟩ := index_facts t
  have q0 : win0_5.index t (0 : Fin 3) = (i 0).val := congrFun ht 0
  have q1 : win0_5.index t (1 : Fin 3) = (i 1).val / 1024 := congrFun ht 1
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 256 ≤ (i 2).val ∧ (i 2).val < win0_6.index t (2 : Fin 3) * 256 + 256; omega

/-- THE SECOND OUTPUT ARRAY after the region: the linear layer of the features through the second weight and bias. -/
theorem arr0_6 (c : Dev nD) :
    (dat0 (F := Ideal) V c).arrAt 6 cfg0.N = Cert.Spec.proj (V c main_v0) (V c main_arg4) (V c main_arg5) :=
  (dat0 (F := Ideal) V c).arrAt_eq_of_cover 6 (Cert.Spec.proj (V c main_v0) (V c main_arg4) (V c main_arg5))
    (fun t _ => flushed6_eq V c t) cover6

end Cert.KernelIdeal.Hand

end
-- ==== Proof.KIValueOf.lean ====
/-
  The kernel program's result in closed form, at the ideal values.

  The last host stretch re-lays the attention region's output array; that array is the online arrangement of the
  projected queries and keys the projection region left and of the flow re-laid as tokens; the projection region's
  two output arrays are the linear layers of the re-laid feature map. Nothing else enters.
-/
import proofs.«128623_j51281909514577_2_alg».proof.Proof.KIHost
import proofs.«128623_j51281909514577_2_alg».proof.Proof.KIRegion0Value
import proofs.«128623_j51281909514577_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

/-- The attention region's output array as the online arrangement of its three input arrays as it finds them. -/
abbrev Region1Closed : Prop :=
  ∀ (V : (c : Dev nD) → (b : Ref sig .tc) → Buf (Elt Ideal) ((c : Thread nD τ).loc b)) (c : Dev nD),
    (dat1 (F := Ideal) V c).arrAt 3 cfg1.N
      = fun i => Cert.Spec.flashAt (Ideal.ofBits .f32 0x3D800000#32) (V c main_v3_0) (V c main_v3_1) (V c main_v2) (i 0) (i 1) (i 2)

theorem kernel_result_of (h13 : Region1Closed) (c : Dev nD) :
    (W4 (F := Ideal) m c (Proc.devRef .tc main_v6) : (⟨S4x2x64x64, .f32⟩ : BufTy).Contents (Elt Ideal))
      = transpose S4x2x64x64 [0, 3, 1, 2] (shapeCast S4x64x64x2
          (fun i => Cert.Spec.flashAt (Ideal.ofBits .f32 0x3D800000#32)
            (Cert.Spec.proj (shapeCast S4x256x4096 (m ((c : Thread nD τ).loc main_arg0)) shapeCasts_S4x256x64x64_S4x256x4096) (m ((c : Thread nD τ).loc main_arg2)) (m ((c : Thread nD τ).loc main_arg3)))
            (Cert.Spec.proj (shapeCast S4x256x4096 (m ((c : Thread nD τ).loc main_arg0)) shapeCasts_S4x256x64x64_S4x256x4096) (m ((c : Thread nD τ).loc main_arg4)) (m ((c : Thread nD τ).loc main_arg5)))
            (transpose S4x4096x2 [0, 2, 1] (shapeCast S4x2x4096 (m ((c : Thread nD τ).loc main_arg1)) shapeCasts_S4x2x64x64_S4x2x4096) transposes_S4x2x4096_S4x4096x2_0_2_1)
            (i 0) (i 1) (i 2)) shapeCasts_S4x4096x2_S4x64x64x2) transposes_S4x64x64x2_S4x2x64x64_0_3_1_2 := by
  have hq : Vt2 m c main_v3_0 = Cert.Spec.proj (shapeCast S4x256x4096 (m ((c : Thread nD τ).loc main_arg0)) shapeCasts_S4x256x64x64_S4x256x4096) (m ((c : Thread nD τ).loc main_arg2)) (m ((c : Thread nD τ).loc main_arg3)) := by
    refine (W2_arr m c 5).trans ((arr0_5 (Vt1 m) c).trans ?_)
    rw [show Vt1 m c main_v0 = _ from V1_main_v0 m c, show Vt1 m c main_arg2 = _ from V1_of m c main_arg2 (by decide),
      show Vt1 m c main_arg3 = _ from V1_of m c main_arg3 (by decide)]
  have hk : Vt2 m c main_v3_1 = Cert.Spec.proj (shapeCast S4x256x4096 (m ((c : Thread nD τ).loc main_arg0)) shapeCasts_S4x256x64x64_S4x256x4096) (m ((c : Thread nD τ).loc main_arg4)) (m ((c : Thread nD τ).loc main_arg5)) := by
    refine (W2_arr m c 6).trans ((arr0_6 (Vt1 m) c).trans ?_)
    rw [show Vt1 m c main_v0 = _ from V1_main_v0 m c, show Vt1 m c main_arg4 = _ from V1_of m c main_arg4 (by decide),
      show Vt1 m c main_arg5 = _ from V1_of m c main_arg5 (by decide)]
  have hv : Vt2 m c main_v2 = transpose S4x4096x2 [0, 2, 1] (shapeCast S4x2x4096 (m ((c : Thread nD τ).loc main_arg1)) shapeCasts_S4x2x64x64_S4x2x4096) transposes_S4x2x4096_S4x4096x2_0_2_1 :=
    (W2_of_ne m c main_v2 (by decide)).trans (V1_main_v2 m c)
  rw [W4_main_v6]
  refine congrArg (fun y => transpose S4x2x64x64 [0, 3, 1, 2] (shapeCast S4x64x64x2 y shapeCasts_S4x4096x2_S4x64x64x2) transposes_S4x64x64x2_S4x2x64x64_0_3_1_2) ?_
  refine (W3_arr m c 3).trans ((h13 (Vt2 m) c).trans ?_)
  rw [hq, hk, hv]
  rfl

end Cert.KernelIdeal.Hand

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibRowDot.lean ====
/-
  A product of rows against rows, read at an index, generic in the three extents.

  For the dimension numbers "rows × contraction times columns × contraction" (`DotDims.transposedRhs M K N`: no batch
  axis, both operands contracted on their last axis), at the ideal values — floats extended reals, every operation
  exact — a matrix product into the zero accumulator, read at the output index (r, c), is the plain sum over k of
  lhs (r, k) · rhs (c, k): row r of the left operand against row c of the right one. The contraction index, a
  one-axis multi-index, is re-indexed by its one coordinate.
-/
import Idealize.ShloMosaic.Lib.ValueIdx
import Idealize.ShloMosaic.PureOps.Ideal.Laws

noncomputable section

namespace Cert.Lib.RowDot

open Idealize.ShloMosaic Idealize.ShloMosaic.ValueIdx

variable {M K N : Nat}

/-- The left operand's index at output index (r, c) and contraction position k is (r, k). -/
theorem lhsIdx_rows (r : Fin M) (c : Fin N) (k : Fin K) :
    (DotDims.transposedRhs M K N).lhsIdx (ix2 r c) ((contrEquiv1 (DotDims.transposedRhs M K N) K rfl rfl).symm k) = ix2 r k := by
  have hk := contrEquiv1_symm_val (DotDims.transposedRhs M K N) K rfl rfl k
  exact funext fun a => Fin.ext (by
    match a with
    | ⟨0, _⟩ => rfl
    | ⟨1, _⟩ => exact ((DotDims.transposedRhs M K N).lhsIdx_val_of_single rfl _ _).trans hk)

/-- The right operand's index at output index (r, c) and contraction position k is (c, k). -/
theorem rhsIdx_rows (r : Fin M) (c : Fin N) (k : Fin K) :
    (DotDims.transposedRhs M K N).rhsIdx (ix2 r c) ((contrEquiv1 (DotDims.transposedRhs M K N) K rfl rfl).symm k) = ix2 c k := by
  have hk := contrEquiv1_symm_val (DotDims.transposedRhs M K N) K rfl rfl k
  exact funext fun a => Fin.ext (by
    match a with
    | ⟨0, _⟩ => rfl
    | ⟨1, _⟩ => exact ((DotDims.transposedRhs M K N).rhsIdx_val_of_single rfl _ _).trans hk)

/-- A rows-against-rows matrix product into the zero accumulator, at the ideal values, read at (r, c):
    the sum over k of lhs (r, k) · rhs (c, k). -/
theorem matmul_rows_zero_apply {φ₁ φ₂ : FTy} (prec : Option ContractPrecision)
    (lhs : FVec Ideal ⟨2, ![M, K]⟩ φ₁) (rhs : FVec Ideal ⟨2, ![N, K]⟩ φ₂) (r : Fin M) (c : Fin N) :
    matmul (DotDims.transposedRhs M K N) prec lhs rhs (constant (F := Ideal) ⟨2, ![M, N]⟩ .f32 0x00000000#32) (ix2 r c)
      = ∑ k : Fin K, lhs (ix2 r k) * rhs (ix2 c k) := by
  show FloatOps.matmul (DotDims.transposedRhs M K N) prec lhs rhs (constant (F := Ideal) ⟨2, ![M, N]⟩ .f32 0x00000000#32) (ix2 r c) = _
  rw [Ideal.matmul_constant_zero_apply, ← Equiv.sum_comp (contrEquiv1 (DotDims.transposedRhs M K N) K rfl rfl).symm]
  refine Finset.sum_congr rfl fun k _ => ?_
  rw [lhsIdx_rows, rhsIdx_rows]

end Cert.Lib.RowDot

end
-- ==== Proof.KIRegion1ValuePay.lean ====
/-
  The attention kernel's arithmetic at an index, at the ideal values.

  A key tile's scores of query row r are the 2048 dot products of the row with the tile's key rows, times the scale.
  The body's other values are, row by row, the running maximum, the exponentials of the differences to it, the
  running sum and the running weighted sum of the online arrangement, and at the end the quotient.
-/
import proofs.«128623_j51281909514577_2_alg».proof.Proof.Gen.KernelIdeal.Skeleton
import proofs.«128623_j51281909514577_2_alg».proof.Proof.Spec
import proofs.«128623_j51281909514577_2_alg».proof.Proof.LibColumns
import proofs.«128623_j51281909514577_2_alg».proof.Proof.LibRowDot
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-- The single-precision word of −∞ denotes ⊥. -/
theorem negInf_word : Ideal.ofBits .f32 0xFF800000#32 = ⊥ := by simp [Ideal.ofBits, Ideal.ieee]

/-- Row r of a key tile's scaled scores: query row r of the block against every key row of the block. -/
def tileRow (x0 : Vec Ideal S1x1024x256 .bf16) (x1 : Vec Ideal S1x2048x256 .bf16) (r : Fin 1024) : Fin 2048 → EReal :=
  fun t => (∑ d : Fin 256, x0 (ix3 (0 : Fin 1) r d) * x1 (ix3 (0 : Fin 1) t d)) * Ideal.ofBits .f32 0x3D800000#32

/-- The scores at (r, t). -/
theorem pay7_apply (x0 : Vec Ideal S1x1024x256 .bf16) (x1 : Vec Ideal S1x2048x256 .bf16) (r : Fin 1024) (t : Fin 2048) :
    k1_pay7 (F := Ideal) x0 x1 (ix2 r t) = tileRow x0 x1 r t := by
  unfold k1_pay7 tileRow
  refine congrArg (· * Ideal.ofBits .f32 0x3D800000#32) ?_
  refine (Cert.Lib.RowDot.matmul_rows_zero_apply (M := 1024) (K := 256) (N := 2048) none
    (shapeCast S1024x256 x0 shapeCasts_S1x1024x256_S1024x256) (shapeCast S2048x256 x1 shapeCasts_S1x2048x256_S2048x256) r t).trans ?_
  refine Finset.sum_congr rfl fun d _ => ?_
  exact congrArg₂ (· * ·) (shapeCast_1ab_ab_apply x0 _ r d) (shapeCast_1ab_ab_apply x1 _ t d)

/-- The new running maximum of row r: the old one against the tile's maximum from −∞. -/
theorem pay8_apply (x0 : Vec Ideal S1x1024x256 .bf16) (x1 : Vec Ideal S1x2048x256 .bf16) (m : Vec Ideal S1024x1 .f32) (r : Fin 1024) (u : Fin 1) :
    k1_pay8 (F := Ideal) x0 x1 m (ix2 r u) = Cert.Spec.stepM (m (ix2 r u)) (tileRow x0 x1 r) := by
  unfold k1_pay8 Cert.Spec.stepM
  refine congrArg (max (m (ix2 r u))) ?_
  refine (Cert.Columns.shapeCast_a_a1_apply _ _ r u).trans ?_
  refine (Cert.Columns.laneMax_apply (k1_pay7 (F := Ideal) x0 x1) 0xFF800000#32 _ _ _ r).trans ?_
  exact congrArg₂ (fun (z : EReal) (f : Fin 2048 → EReal) => (Finset.univ : Finset (Fin 2048)).fold max z f) negInf_word
    (funext fun k => pay7_apply x0 x1 r k)

/-- The rescaling factor of row r: the exponential of the old maximum less the new one. -/
theorem pay9_apply (x0 : Vec Ideal S1x1024x256 .bf16) (x1 : Vec Ideal S1x2048x256 .bf16) (m : Vec Ideal S1024x1 .f32) (r : Fin 1024) (u : Fin 1) :
    k1_pay9 (F := Ideal) x0 x1 m (ix2 r u)
      = Ideal.exp (m (ix2 r u) - Cert.Spec.stepM (m (ix2 r u)) (tileRow x0 x1 r)) := by
  unfold k1_pay9
  exact congrArg (fun z => Ideal.exp (m (ix2 r u) - z)) (pay8_apply x0 x1 m r u)

/-- The exponential of a score's difference to its row's new maximum. -/
theorem pay10_apply (x0 : Vec Ideal S1x1024x256 .bf16) (x1 : Vec Ideal S1x2048x256 .bf16) (m : Vec Ideal S1024x1 .f32) (r : Fin 1024) (t : Fin 2048) (u : Fin 1) :
    k1_pay10 (F := Ideal) x0 x1 m (ix2 r t)
      = Ideal.exp (tileRow x0 x1 r t - Cert.Spec.stepM (m (ix2 r u)) (tileRow x0 x1 r)) := by
  unfold k1_pay10
  refine congrArg Ideal.exp ?_
  exact congrArg₂ (· - ·) (pay7_apply x0 x1 r t)
    ((Cert.Columns.broadcastTo_a1_ab_apply _ _ r t u).trans (pay8_apply x0 x1 m r u))

/-- The new running sum of row r. -/
theorem pay11_apply (x0 : Vec Ideal S1x1024x256 .bf16) (x1 : Vec Ideal S1x2048x256 .bf16) (m : Vec Ideal S1024x1 .f32) (l : Vec Ideal S1024x1 .f32) (r : Fin 1024) (u : Fin 1) :
    k1_pay11 (F := Ideal) x0 x1 m l (ix2 r u) = Cert.Spec.stepL (m (ix2 r u)) (l (ix2 r u)) (tileRow x0 x1 r) := by
  unfold k1_pay11 Cert.Spec.stepL
  refine (congrFun (shapeCast_self _ _) (ix2 r u)).trans ?_
  refine congrArg₂ (· + ·) (congrArg (· * l (ix2 r u)) (pay9_apply x0 x1 m r u)) ?_
  refine (Cert.Columns.shapeCast_a_a1_apply _ _ r u).trans ?_
  refine (Cert.Columns.laneSum_apply (k1_pay10 (F := Ideal) x0 x1 m) 0x00000000#32 _ _ _ r).trans ?_
  exact Finset.sum_congr rfl fun t _ => pay10_apply x0 x1 m r t u

/-- The value block transposed: channel ch of key row t. -/
theorem pay12_apply (x2 : Vec Ideal S1x2048x2 .f32) (ch : Fin 2) (t : Fin 2048) :
    k1_pay12 (F := Ideal) x2 (ix2 ch t) = x2 (ix3 (0 : Fin 1) t ch) := by
  unfold k1_pay12
  exact (transpose_ix2_apply _ _ ch t).trans (shapeCast_1ab_ab_apply x2 _ t ch)

/-- An exponential times its key row's first value channel. -/
theorem pay13_apply (x0 : Vec Ideal S1x1024x256 .bf16) (x1 : Vec Ideal S1x2048x256 .bf16) (x2 : Vec Ideal S1x2048x2 .f32) (m : Vec Ideal S1024x1 .f32) (r : Fin 1024) (t : Fin 2048) (u : Fin 1) :
    k1_pay13 (F := Ideal) x0 x1 x2 m (ix2 r t)
      = Ideal.exp (tileRow x0 x1 r t - Cert.Spec.stepM (m (ix2 r u)) (tileRow x0 x1 r)) * x2 (ix3 (0 : Fin 1) t (0 : Fin 2)) := by
  unfold k1_pay13
  refine congrArg₂ (· * ·) (pay10_apply x0 x1 m r t u) ?_
  refine (broadcastTo_1b_ab_apply _ _ r t).trans ?_
  exact (slice2_axis0_apply 0 (k1_pay12 (F := Ideal) x2) _ (0 : Fin 1) t (0 : Fin 2) rfl).trans (pay12_apply x2 0 t)

/-- The new running weighted sum's first channel, over any five operands. -/
theorem pay1_apply0 (v17 : FVec Ideal S1024x1 .f32) (v20 : FVec Ideal S1024x2048 .f32) (v29 : FVec Ideal S2x2048 .f32)
    (v32 : FVec Ideal S1024x2048 .f32) (v41 : Vec Ideal S1024x2 .f32) (r : Fin 1024) (u : Fin 1) :
    k1_pay1 (F := Ideal) v17 v20 v29 v32 v41 (ix2 r (0 : Fin 2))
      = v17 (ix2 r u) * v41 (ix2 r (0 : Fin 2)) + ∑ t : Fin 2048, v32 (ix2 r t) := by
  unfold k1_pay1
  refine (congrFun (shapeCast_self _ _) (ix2 r (0 : Fin 2))).trans ?_
  refine congrArg₂ (· + ·) (congrArg (· * v41 (ix2 r (0 : Fin 2))) (Cert.Columns.broadcastTo_a1_ab_apply v17 _ r (0 : Fin 2) u)) ?_
  refine (concatenate_pair_apply_left (t := S1024x2) (s₁ := S1024x1) (s₂ := S1024x1) (1 : Fin 2) _ _ _ (ix2 r (0 : Fin 2)) rfl (ix2 r (0 : Fin 1))
    (fun b => match b with | ⟨0, _⟩ => rfl | ⟨1, _⟩ => rfl)).trans ?_
  refine (Cert.Columns.shapeCast_a_a1_apply _ _ r (0 : Fin 1)).trans ?_
  exact Cert.Columns.laneSum_apply v32 0x00000000#32 _ _ _ r

/-- The new running weighted sum's second channel, over any five operands. -/
theorem pay1_apply1 (v17 : FVec Ideal S1024x1 .f32) (v20 : FVec Ideal S1024x2048 .f32) (v29 : FVec Ideal S2x2048 .f32)
    (v32 : FVec Ideal S1024x2048 .f32) (v41 : Vec Ideal S1024x2 .f32) (r : Fin 1024) (u : Fin 1) :
    k1_pay1 (F := Ideal) v17 v20 v29 v32 v41 (ix2 r (1 : Fin 2))
      = v17 (ix2 r u) * v41 (ix2 r (1 : Fin 2)) + ∑ t : Fin 2048, v20 (ix2 r t) * v29 (ix2 (1 : Fin 2) t) := by
  unfold k1_pay1
  refine (congrFun (shapeCast_self _ _) (ix2 r (1 : Fin 2))).trans ?_
  refine congrArg₂ (· + ·) (congrArg (· * v41 (ix2 r (1 : Fin 2))) (Cert.Columns.broadcastTo_a1_ab_apply v17 _ r (1 : Fin 2) u)) ?_
  refine (concatenate_pair_apply_right (t := S1024x2) (s₁ := S1024x1) (s₂ := S1024x1) (1 : Fin 2) _ _ _ (ix2 r (1 : Fin 2)) rfl rfl (ix2 r (0 : Fin 1))
    (fun b hb => match b, hb with | ⟨0, _⟩, _ => rfl | ⟨1, _⟩, hb => absurd rfl hb) rfl).trans ?_
  refine (Cert.Columns.shapeCast_a_a1_apply _ _ r (0 : Fin 1)).trans ?_
  refine (Cert.Columns.laneSum_apply _ 0x00000000#32 _ _ _ r).trans ?_
  refine Finset.sum_congr rfl fun t _ => congrArg (v20 (ix2 r t) * ·) ?_
  refine (broadcastTo_1b_ab_apply _ _ r t).trans ?_
  exact slice2_axis0_apply 1 v29 _ (0 : Fin 1) t (1 : Fin 2) rfl

/-- The new running weighted sum of row r, channel ch. -/
theorem acc_apply (x0 : Vec Ideal S1x1024x256 .bf16) (x1 : Vec Ideal S1x2048x256 .bf16) (x2 : Vec Ideal S1x2048x2 .f32) (m : Vec Ideal S1024x1 .f32) (a : Vec Ideal S1024x2 .f32) (r : Fin 1024) (ch : Fin 2) (u : Fin 1) :
    k1_pay1 (F := Ideal) (k1_pay9 x0 x1 m) (k1_pay10 x0 x1 m) (k1_pay12 x2) (k1_pay13 x0 x1 x2 m) a (ix2 r ch)
      = Cert.Spec.stepA (m (ix2 r u)) (a (ix2 r ch)) (tileRow x0 x1 r) (fun t => x2 (ix3 (0 : Fin 1) t ch)) := by
  unfold Cert.Spec.stepA
  match ch with
  | ⟨0, _⟩ =>
    refine (pay1_apply0 _ _ _ _ a r u).trans ?_
    exact congrArg₂ (· + ·) (congrArg (· * a (ix2 r (0 : Fin 2))) (pay9_apply x0 x1 m r u))
      (Finset.sum_congr rfl fun t _ => pay13_apply x0 x1 x2 m r t u)
  | ⟨1, _⟩ =>
    refine (pay1_apply1 _ _ _ _ a r u).trans ?_
    exact congrArg₂ (· + ·) (congrArg (· * a (ix2 r (1 : Fin 2))) (pay9_apply x0 x1 m r u))
      (Finset.sum_congr rfl fun t _ => congrArg₂ (· * ·) (pay10_apply x0 x1 m r t u) (pay12_apply x2 1 t))

/-- The quotient the last key tile stores: the weighted sum over the sum. -/
theorem pay3_apply (a : Vec Ideal S1024x2 .f32) (l : Vec Ideal S1024x1 .f32) (z : Fin 1) (r : Fin 1024) (ch : Fin 2) (u : Fin 1) :
    k1_pay3 (F := Ideal) a l (ix3 z r ch) = Ideal.div (a (ix2 r ch)) (l (ix2 r u)) := by
  unfold k1_pay3
  refine (shapeCast_ab_1ab_apply _ _ z r ch).trans ?_
  exact congrArg (Ideal.div (a (ix2 r ch))) (Cert.Columns.broadcastTo_a1_ab_apply l _ r ch u)

/-- The three resets: the maximum to −∞, the two sums to 0. -/
theorem pay4_apply (i : S1024x1.Idx) : k1_pay4 (F := Ideal) i = ⊥ := by
  unfold k1_pay4
  exact (congrFun (shapeCast_self _ _) i).trans negInf_word
theorem pay5_apply (i : S1024x1.Idx) : k1_pay5 (F := Ideal) i = 0 := by
  unfold k1_pay5
  exact (congrFun (shapeCast_self _ _) i).trans Ideal.ofBits_zero_f32
theorem pay6_apply (i : S1024x2.Idx) : k1_pay6 (F := Ideal) i = 0 := by
  unfold k1_pay6
  exact (congrFun (shapeCast_self _ _) i).trans Ideal.ofBits_zero_f32

/-- A reshape to the same shape changes nothing, at any values. -/
theorem pay2_eq {F : FTy → Type} [FloatOps F] (v : FVec F S1024x1 .f32) : k1_pay2 (F := F) v = v := by
  unfold k1_pay2
  exact shapeCast_self _ _

end Cert.KernelIdeal.Hand

end
-- ==== Proof.KIRegion1ValueTiles.lean ====
/-
  The two steps of the online arrangement as the kernel's body spells them, and their value at the ideal values.

  A query tile's first key tile leaves, from the resets, the tile's maximum, sum of exponentials and weighted sum; its
  last key tile updates the three with its own scores and stores the weighted sum over the sum. Row by row that
  quotient is the online arrangement over the two tiles' scores and values.
-/
import proofs.«128623_j51281909514577_2_alg».proof.Proof.KIRegion1ValuePay

noncomputable section

namespace Cert.KernelIdeal.Hand

open Cert.KernelIdeal Cert.KernelIdeal.Gen Idealize.ShloMosaic Idealize.ShloMosaic.ValueIdx
open scoped BigOperators

section Generic

variable {F : FTy → Type} [FloatOps F]

/-- The scratch a first key tile leaves, from its three blocks: the running maximum, sum and weighted sum, each from
    its reset. -/
def firstTile (x0 : Vec F S1x1024x256 .bf16) (x1 : Vec F S1x2048x256 .bf16) (x2 : Vec F S1x2048x2 .f32) :
    Vec F S1024x1 .f32 × Vec F S1024x1 .f32 × Vec F S1024x2 .f32 :=
  (k1_pay2 (k1_pay8 x0 x1 k1_pay4), k1_pay11 x0 x1 k1_pay4 k1_pay5,
    k1_pay1 (k1_pay9 x0 x1 k1_pay4) (k1_pay10 x0 x1 k1_pay4) (k1_pay12 x2) (k1_pay13 x0 x1 x2 k1_pay4) k1_pay6)

/-- The result a last key tile stores, from its three blocks and the scratch it finds. -/
def lastTile (y0 : Vec F S1x1024x256 .bf16) (y1 : Vec F S1x2048x256 .bf16) (y2 : Vec F S1x2048x2 .f32)
    (xs : Vec F S1024x1 .f32 × Vec F S1024x1 .f32 × Vec F S1024x2 .f32) : Vec F S1x1024x2 .f32 :=
  k1_pay3 (k1_pay1 (k1_pay9 y0 y1 xs.1) (k1_pay10 y0 y1 xs.1) (k1_pay12 y2) (k1_pay13 y0 y1 y2 xs.1) xs.2.2)
    (k1_pay11 y0 y1 xs.1 xs.2.1)

end Generic

/-- After a first key tile, row r's running maximum is the tile's maximum from −∞. -/
theorem firstTile_m (x0 : Vec Ideal S1x1024x256 .bf16) (x1 : Vec Ideal S1x2048x256 .bf16) (x2 : Vec Ideal S1x2048x2 .f32) (r : Fin 1024) (u : Fin 1) :
    (firstTile x0 x1 x2).1 (ix2 r u) = Cert.Spec.stepM ⊥ (tileRow x0 x1 r) := by
  unfold firstTile
  dsimp only
  rw [pay2_eq]
  exact (pay8_apply x0 x1 _ r u).trans (congrArg (fun z => Cert.Spec.stepM z (tileRow x0 x1 r)) (pay4_apply _))

/-- After a first key tile, row r's running sum is the tile's sum from −∞ and 0. -/
theorem firstTile_l (x0 : Vec Ideal S1x1024x256 .bf16) (x1 : Vec Ideal S1x2048x256 .bf16) (x2 : Vec Ideal S1x2048x2 .f32) (r : Fin 1024) (u : Fin 1) :
    (firstTile x0 x1 x2).2.1 (ix2 r u) = Cert.Spec.stepL ⊥ 0 (tileRow x0 x1 r) := by
  unfold firstTile
  dsimp only
  exact (pay11_apply x0 x1 _ _ r u).trans
    (congrArg₂ (fun z w => Cert.Spec.stepL z w (tileRow x0 x1 r)) (pay4_apply _) (pay5_apply _))

/-- After a first key tile, row r's running weighted sum of channel ch is the tile's from −∞ and 0. -/
theorem firstTile_a (x0 : Vec Ideal S1x1024x256 .bf16) (x1 : Vec Ideal S1x2048x256 .bf16) (x2 : Vec Ideal S1x2048x2 .f32) (r : Fin 1024) (ch : Fin 2) :
    (firstTile x0 x1 x2).2.2 (ix2 r ch)
      = Cert.Spec.stepA ⊥ 0 (tileRow x0 x1 r) (fun s => x2 (ix3 (0 : Fin 1) s ch)) := by
  unfold firstTile
  dsimp only
  exact (acc_apply x0 x1 x2 _ _ r ch (0 : Fin 1)).trans
    (congrArg₂ (fun z w => Cert.Spec.stepA z w (tileRow x0 x1 r) (fun s => x2 (ix3 (0 : Fin 1) s ch)))
      (pay4_apply _) (pay6_apply _))

/-- What a last key tile stores at (r, ch), over what a first key tile left: the online arrangement over the two
    tiles' rows of scores and columns of values. -/
theorem twoTiles_apply (x0 : Vec Ideal S1x1024x256 .bf16) (x1 : Vec Ideal S1x2048x256 .bf16) (x2 : Vec Ideal S1x2048x2 .f32) (y0 : Vec Ideal S1x1024x256 .bf16) (y1 : Vec Ideal S1x2048x256 .bf16)
    (y2 : Vec Ideal S1x2048x2 .f32) (z : Fin 1) (r : Fin 1024) (ch : Fin 2) :
    lastTile y0 y1 y2 (firstTile x0 x1 x2) (ix3 z r ch)
      = Cert.Spec.flash2 (tileRow x0 x1 r) (fun s : Fin 2048 => x2 (ix3 (0 : Fin 1) s ch))
          (tileRow y0 y1 r) (fun s : Fin 2048 => y2 (ix3 (0 : Fin 1) s ch)) := by
  unfold lastTile Cert.Spec.flash2
  refine (pay3_apply _ _ z r ch (0 : Fin 1)).trans ?_
  refine congrArg₂ Ideal.div ?_ ?_
  · refine (acc_apply y0 y1 y2 _ _ r ch (0 : Fin 1)).trans ?_
    rw [firstTile_m, firstTile_a]
  · refine (pay11_apply y0 y1 _ _ r (0 : Fin 1)).trans ?_
    rw [firstTile_m, firstTile_l]

end Cert.KernelIdeal.Hand

end
-- ==== Proof.KIRegion1Value.lean ====
/-
  The value the attention region leaves in its result window's buffer at a query tile's last key tile.

  What each case of the body leaves in its buffers, read back from the pieces its stores were found to write: at a
  first key tile the three scratch buffers hold the online arrangement's first step from the resets (maximum from −∞,
  sums from 0); at a last key tile the result buffer holds the second step's weighted sum over its sum. At the ideal
  values, row by row, that quotient is the online arrangement over the two key tiles.
-/
import proofs.«128623_j51281909514577_2_alg».proof.Proof.KIRegion1
import proofs.«128623_j51281909514577_2_alg».proof.Proof.KIRegion1ValueTiles
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The pieces each case's stores leave, as one payload per buffer -/

/-- A first key tile leaves in the running maximum's buffer the tile's maximum from the reset. -/
theorem canonA_0 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : cond1_0 i) (hc1 : ¬cond1_1 i) (x0 : Vec F S1x1024x256 .bf16) (x1 : Vec F S1x2048x256 .bf16) (x2 : Vec F S1x2048x2 .f32) : View.canon (kernelRun1_A c i arg3 harg3 arg4 harg4 arg5 harg5 arg6 harg6 arg7 harg7 arg8 harg8 arg9 harg9 hc0 hc1 x0 x1 x2).1 = (firstTile x0 x1 x2).1 := by
  unfold kernelRun1_A firstTile
  dsimp only
  sl_unfold_words
  rw [View.canon_cons_unit_zero hz2]
  simp only [View.readAt_eq_ld, harg3.read_unread, harg4.read_unread, harg5.read_unread, harg7.read_unread, harg8.read_unread, harg9.read_unread, View.ld_unit_zero (S := S1x1024x256) hz3, View.ld_unit_zero (S := S1x2048x256) hz3, View.ld_unit_zero (S := S1x2048x2) hz3, View.ld_unit_zero (S := S1024x1) hz2, View.ld_unit_zero (S := S1024x2) hz2, View.readCov_unit_zero (S := S1024x1) _ hz2, View.readCov_unit_zero (S := S1024x2) _ hz2]

/-- A first key tile leaves in the running sum's buffer the tile's sum from the resets. -/
theorem canonA_1 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : cond1_0 i) (hc1 : ¬cond1_1 i) (x0 : Vec F S1x1024x256 .bf16) (x1 : Vec F S1x2048x256 .bf16) (x2 : Vec F S1x2048x2 .f32) : View.canon (kernelRun1_A c i arg3 harg3 arg4 harg4 arg5 harg5 arg6 harg6 arg7 harg7 arg8 harg8 arg9 harg9 hc0 hc1 x0 x1 x2).2.1 = (firstTile x0 x1 x2).2.1 := by
  unfold kernelRun1_A firstTile
  dsimp only
  sl_unfold_words
  rw [View.canon_cons_unit_zero hz2]
  simp only [View.readAt_eq_ld, harg3.read_unread, harg4.read_unread, harg5.read_unread, harg7.read_unread, harg8.read_unread, harg9.read_unread, View.ld_unit_zero (S := S1x1024x256) hz3, View.ld_unit_zero (S := S1x2048x256) hz3, View.ld_unit_zero (S := S1x2048x2) hz3, View.ld_unit_zero (S := S1024x1) hz2, View.ld_unit_zero (S := S1024x2) hz2, View.readCov_unit_zero (S := S1024x1) _ hz2, View.readCov_unit_zero (S := S1024x2) _ hz2]

/-- A first key tile leaves in the running weighted sum's buffer the tile's weighted sum from the resets. -/
theorem canonA_2 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : cond1_0 i) (hc1 : ¬cond1_1 i) (x0 : Vec F S1x1024x256 .bf16) (x1 : Vec F S1x2048x256 .bf16) (x2 : Vec F S1x2048x2 .f32) : View.canon (kernelRun1_A c i arg3 harg3 arg4 harg4 arg5 harg5 arg6 harg6 arg7 harg7 arg8 harg8 arg9 harg9 hc0 hc1 x0 x1 x2).2.2.1 = (firstTile x0 x1 x2).2.2 := by
  unfold kernelRun1_A firstTile
  dsimp only
  sl_unfold_words
  rw [View.canon_cons_unit_zero hz2]
  simp only [View.readAt_eq_ld, harg3.read_unread, harg4.read_unread, harg5.read_unread, harg7.read_unread, harg8.read_unread, harg9.read_unread, View.ld_unit_zero (S := S1x1024x256) hz3, View.ld_unit_zero (S := S1x2048x256) hz3, View.ld_unit_zero (S := S1x2048x2) hz3, View.ld_unit_zero (S := S1024x1) hz2, View.ld_unit_zero (S := S1024x2) hz2, View.readCov_unit_zero (S := S1024x1) _ hz2, View.readCov_unit_zero (S := S1024x2) _ hz2]

/-- A last key tile leaves in the result buffer the updated weighted sum over the updated sum. -/
theorem canonB_3 (c : Dev nD) (i : grid1.Coords) (arg3 : Memref sig .tc .vmem S1x1024x256 .bf16) (harg3 : arg3.IsWhole) (arg4 : Memref sig .tc .vmem S1x2048x256 .bf16) (harg4 : arg4.IsWhole) (arg5 : Memref sig .tc .vmem S1x2048x2 .f32) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x2 .f32) (harg9 : arg9.IsWhole) (hc0 : ¬cond1_0 i) (hc1 : cond1_1 i) (x0 : Vec F S1x1024x256 .bf16) (x1 : Vec F S1x2048x256 .bf16) (x2 : Vec F S1x2048x2 .f32) (xs0 : Vec F S1024x1 .f32) (xs1 : Vec F S1024x1 .f32) (xs2 : Vec F S1024x2 .f32) : View.canon (kernelRun1_B c i arg3 harg3 arg4 harg4 arg5 harg5 arg6 harg6 arg7 harg7 arg8 harg8 arg9 harg9 hc0 hc1 x0 x1 x2 xs0 xs1 xs2).1 = lastTile x0 x1 x2 (xs0, xs1, xs2) := by
  unfold kernelRun1_B lastTile
  dsimp only
  sl_unfold_words
  rw [View.canon_unit_zero hz3]
  simp only [View.readAt_eq_ld, harg3.read_unread, harg4.read_unread, harg5.read_unread, harg7.read_unread, harg8.read_unread, harg9.read_unread, View.ld_unit_zero (S := S1x1024x256) hz3, View.ld_unit_zero (S := S1x2048x256) hz3, View.ld_unit_zero (S := S1x2048x2) hz3, View.ld_unit_zero (S := S1024x1) hz2, View.ld_unit_zero (S := S1024x2) hz2, View.readCov_unit_zero (S := S1024x1) _ hz2, View.readCov_unit_zero (S := S1024x2) _ hz2]

variable (V : (c : Dev nD) → (b : Ref sig .tc) → Buf (Elt F) ((c : Thread nD τ).loc b))

/-! ## The buffers after a point -/

/-- After a first key tile the scratch holds the first step from the resets. -/
theorem stepA_scratch (c : Dev nD) (t : Fin cfg1.N) (h0 : t.val % 2 = 0) :
    (stepA V c t h0).2 = firstTile (iblk1 V c 0 t) (iblk1 V c 1 t) (iblk1 V c 2 t) := by
  unfold stepA
  dsimp only
  rw [View.read_writes_eq_canon _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t)),
    View.read_writes_eq_canon _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t)),
    View.read_writes_eq_canon _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t)),
    canonA_0, canonA_1, canonA_2]

/-- After a last key tile the result buffer holds the quotient of the second step over what the scratch held. -/
theorem stepB_out (c : Dev nD) (t : Fin cfg1.N) (h1 : t.val % 2 = 1) (xs : Vec F S1024x1 .f32 × Vec F S1024x1 .f32 × Vec F S1024x2 .f32) :
    (stepB V c t h1 xs).1 = lastTile (iblk1 V c 0 t) (iblk1 V c 1 t) (iblk1 V c 2 t) xs := by
  unfold stepB
  dsimp only
  rw [View.read_writes_eq_canon _ _ _ (cover1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have := (hcond1_0 t).mp h; omega) ((hcond1_1 t).mpr h1) (iblk1 V c 0 t) (iblk1 V c 1 t) (iblk1 V c 2 t) xs.1 xs.2.1 xs.2.2), canonB_3]

/-- At a last key tile the result buffer holds the two steps over the point's blocks and the point before's. -/
theorem outsAt1_odd (c : Dev nD) (t : Fin cfg1.N) (h1 : t.val % 2 = 1) (hp : t.val - 1 < cfg1.N) :
    (outsAt1 V c t.val t.isLt).1
      = lastTile (iblk1 V c 0 t) (iblk1 V c 1 t) (iblk1 V c 2 t)
          (firstTile (iblk1 V c 0 ⟨t.val - 1, hp⟩) (iblk1 V c 1 ⟨t.val - 1, hp⟩) (iblk1 V c 2 ⟨t.val - 1, hp⟩)) := by
  have h0 : (⟨t.val - 1, hp⟩ : Fin cfg1.N).val % 2 = 0 := by dsimp only; omega
  rw [outsAt1_B V c t h1, stepB_out V c t h1]
  exact congrArg (lastTile (iblk1 V c 0 t) (iblk1 V c 1 t) (iblk1 V c 2 t))
    ((congrArg Prod.snd (outsAt1_A V c ⟨t.val - 1, hp⟩ h0)).trans (stepA_scratch V c ⟨t.val - 1, hp⟩ h0))

end Cert.KernelIdeal.Hand

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- THE ROW FORMULA. At the ideal values, after a query tile's last key tile, the result window's buffer at row r and
    channel ch holds the online arrangement over the two key tiles: the point before's blocks, then this point's. -/
theorem after3_odd (V : (c : Dev nD) → (b : Ref sig .tc) → Buf (Elt Ideal) ((c : Thread nD τ).loc b)) (c : Dev nD)
    (t : Fin cfg1.N) (h1 : t.val % 2 = 1) (hp : t.val - 1 < cfg1.N) (r : Fin 1024) (ch : Fin 2) :
    (dat1 (F := Ideal) V c).after 3 t (ix3 (0 : Fin 1) r ch)
      = Cert.Spec.flash2 (tileRow (iblk1 V c 0 ⟨t.val - 1, hp⟩) (iblk1 V c 1 ⟨t.val - 1, hp⟩) r)
          (fun s : Fin 2048 => iblk1 V c 2 ⟨t.val - 1, hp⟩ (ix3 (0 : Fin 1) s ch))
          (tileRow (iblk1 V c 0 t) (iblk1 V c 1 t) r) (fun s : Fin 2048 => iblk1 V c 2 t (ix3 (0 : Fin 1) s ch)) := by
  rw [after1_3, outsAt1_odd V c t h1 hp]
  exact twoTiles_apply _ _ _ _ _ _ (0 : Fin 1) r ch

end Cert.KernelIdeal.Hand

end
-- ==== Proof.KIRegion1Blocks.lean ====
/-
  The attention kernel's region, from blocks to the output array, over the extended reals.

  The grid is (batch b, query tile qi, key tile ki) = 4 × 4 × 2, the key tile innermost: point t has b = t / 8,
  qi = t / 2 mod 4, ki = t mod 2. At point t the query window holds rows 1024 qi … of batch b of the projected queries,
  the key window rows 2048 ki … of batch b of the projected keys, the value window the same rows of the values, and
  the result window rows 1024 qi … of batch b of the output, written back exactly at the odd points. An odd point t and
  the even point before it share their batch and query tile and see the two key tiles in order: so the score row of a
  query row against the first key tile there, and against the second here, are the scaled scores of that query row
  against keys 0 … 2047 and 2048 … 4095. Hence: if at every odd point the result buffer holds, row by row and channel
  by channel, the two-tile online arrangement of those score rows and value rows, then every block written back is
  its block of the online attention of the whole arrays; the sixteen odd points' blocks cover the output; and the
  output array is the online attention everywhere.
-/
import proofs.«128623_j51281909514577_2_alg».proof.Proof.KIRegion1
import proofs.«128623_j51281909514577_2_alg».proof.Proof.KIRegion1ValuePay
import proofs.«128623_j51281909514577_2_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! ## The windows' block indices -/

/-- The four windows' block indices at every grid point, decided over the 32 points: batch t / 8 on axis 0; on axis 1 the
    query tile t / 2 mod 4 for the queries and the result, the key tile t mod 2 for the keys and the values; the one
    block on axis 2. -/
theorem index_facts1 : ∀ t : Fin cfg1.N,
    win1_0.index t (0 : Fin 3) = t.val / 8 ∧ win1_0.index t (1 : Fin 3) = t.val / 2 % 4 ∧ win1_0.index t (2 : Fin 3) = 0
    ∧ win1_1.index t (0 : Fin 3) = t.val / 8 ∧ win1_1.index t (1 : Fin 3) = t.val % 2 ∧ win1_1.index t (2 : Fin 3) = 0
    ∧ win1_2.index t (0 : Fin 3) = t.val / 8 ∧ win1_2.index t (1 : Fin 3) = t.val % 2 ∧ win1_2.index t (2 : Fin 3) = 0
    ∧ win1_3.index t (0 : Fin 3) = t.val / 8 ∧ win1_3.index t (1 : Fin 3) = t.val / 2 % 4 ∧ win1_3.index t (2 : Fin 3) = 0 :=
  (by decide +kernel : ∀ t : Fin grid1.N, _)

/-! ## The input blocks read off the arrays -/

/-- The query block at point t, row r, channel d: the projected queries at batch t / 8, row 1024 (t / 2 mod 4) + r. -/
theorem iblk1_0_apply (c : Dev nD) (t : Fin cfg1.N) (r : Fin 1024) (d : Fin 256) (b : Fin 4) (l : Fin 4096)
    (hb : b.val = t.val / 8) (hl : l.val = t.val / 2 % 4 * 1024 + r.val) :
    iblk1 V c 0 t (ix3 (0 : Fin 1) r d) = V c main_v3_0 (ix3 b l d) := by
  obtain ⟨e00, e01, e02, e10, e11, e12, e20, e21, e22, e30, e31, e32⟩ := index_facts1 t
  show V c main_v3_0 (((cfg1.win 0).blk t).view.emb (ix3 (0 : Fin 1) r d)) = _
  refine congrArg (V c main_v3_0) (funext fun a => Fin.ext ?_)
  match a with
  | ⟨0, _⟩ => show win1_0.index t (0 : Fin 3) * 1 + 1 * 0 = b.val; omega
  | ⟨1, _⟩ => show win1_0.index t (1 : Fin 3) * 1024 + 1 * r.val = l.val; omega
  | ⟨2, _⟩ => show win1_0.index t (2 : Fin 3) * 256 + 1 * d.val = d.val; omega

/-- The key block at point t, row s, channel d: the projected keys at batch t / 8, row 2048 (t mod 2) + s. -/
theorem iblk1_1_apply (c : Dev nD) (t : Fin cfg1.N) (s : Fin 2048) (d : Fin 256) (b : Fin 4) (key : Fin 4096)
    (hb : b.val = t.val / 8) (hk : key.val = t.val % 2 * 2048 + s.val) :
    iblk1 V c 1 t (ix3 (0 : Fin 1) s d) = V c main_v3_1 (ix3 b key d) := by
  obtain ⟨e00, e01, e02, e10, e11, e12, e20, e21, e22, e30, e31, e32⟩ := index_facts1 t
  show V c main_v3_1 (((cfg1.win 1).blk t).view.emb (ix3 (0 : Fin 1) s d)) = _
  refine congrArg (V c main_v3_1) (funext fun a => Fin.ext ?_)
  match a with
  | ⟨0, _⟩ => show win1_1.index t (0 : Fin 3) * 1 + 1 * 0 = b.val; omega
  | ⟨1, _⟩ => show win1_1.index t (1 : Fin 3) * 2048 + 1 * s.val = key.val; omega
  | ⟨2, _⟩ => show win1_1.index t (2 : Fin 3) * 256 + 1 * d.val = d.val; omega

/-- The value block at point t, row s, channel ch: the values at batch t / 8, row 2048 (t mod 2) + s. -/
theorem iblk1_2_apply (c : Dev nD) (t : Fin cfg1.N) (s : Fin 2048) (ch : Fin 2) (b : Fin 4) (key : Fin 4096)
    (hb : b.val = t.val / 8) (hk : key.val = t.val % 2 * 2048 + s.val) :
    iblk1 V c 2 t (ix3 (0 : Fin 1) s ch) = V c main_v2 (ix3 b key ch) := by
  obtain ⟨e00, e01, e02, e10, e11, e12, e20, e21, e22, e30, e31, e32⟩ := index_facts1 t
  show V c main_v2 (((cfg1.win 2).blk t).view.emb (ix3 (0 : Fin 1) s ch)) = _
  refine congrArg (V c main_v2) (funext fun a => Fin.ext ?_)
  match a with
  | ⟨0, _⟩ => show win1_2.index t (0 : Fin 3) * 1 + 1 * 0 = b.val; omega
  | ⟨1, _⟩ => show win1_2.index t (1 : Fin 3) * 2048 + 1 * s.val = key.val; omega
  | ⟨2, _⟩ => show win1_2.index t (2 : Fin 3) * 2 + 1 * ch.val = ch.val; omega

/-- So the score row of query row r against key row s of the blocks at point t is the scaled score of the whole arrays'
    rows there. -/
theorem tileRow_iblk1 (c : Dev nD) (t : Fin cfg1.N) (r : Fin 1024) (s : Fin 2048) (b : Fin 4) (l key : Fin 4096)
    (hb : b.val = t.val / 8) (hl : l.val = t.val / 2 % 4 * 1024 + r.val) (hk : key.val = t.val % 2 * 2048 + s.val) :
    tileRow (iblk1 V c 0 t) (iblk1 V c 1 t) r s
      = Cert.Spec.scoreAt (Ideal.ofBits .f32 0x3D800000#32) (V c main_v3_0) (V c main_v3_1) b l key := by
  unfold tileRow Cert.Spec.scoreAt
  exact congrArg (· * Ideal.ofBits .f32 0x3D800000#32) (Finset.sum_congr rfl fun d _ =>
    congrArg₂ (· * ·) (iblk1_0_apply V c t r d b l hb hl) (iblk1_1_apply V c t s d b key hb hk))

/-- The two-tile online arrangement respects equal rows. -/
theorem flash2_congr {ι₀ ι₁ : Type} [Fintype ι₀] [Fintype ι₁] {x0 x0' u0 u0' : ι₀ → EReal} {x1 x1' u1 u1' : ι₁ → EReal}
    (h0 : x0 = x0') (h1 : u0 = u0') (h2 : x1 = x1') (h3 : u1 = u1') :
    Cert.Spec.flash2 x0 u0 x1 u1 = Cert.Spec.flash2 x0' u0' x1' u1' := by
  subst h0 h1 h2 h3; rfl

/-! ## From blocks to the array -/

/-- An index of the output is in point `t`'s result block iff each coordinate is in the block's range on its axis. -/
theorem mem_blk1_3 (t : Fin cfg1.N) (i : S4x4096x2.Idx) :
    i ∈ ((cfg1.win 3).blk t).view.set ↔ ∀ a : Fin 3, win1_3.index t a * S1x1024x2.size a ≤ (i a).val
      ∧ (i a).val < win1_3.index t a * S1x1024x2.size a + S1x1024x2.size a := by
  show i ∈ ((View.whole main_v4).slice (win1_3.rect t)).set ↔ _
  rw [View.set_slice_whole, Rect.mem_set_unit]
  exact Iff.rfl

/-- Every index (b, l, ch) of the output is in the result block of the odd point of batch b and query tile l / 1024,
    which writes back. -/
theorem cover1_3 (i : S4x4096x2.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 2 := (i 2).isLt
  have hN : ((i 0).val * 4 + (i 1).val / 1024) * 2 + 1 < cfg1.N := by
    show _ < grid1.N
    rw [N_1]; omega
  obtain ⟨t, ht⟩ : ∃ t : Fin cfg1.N, t.val = ((i 0).val * 4 + (i 1).val / 1024) * 2 + 1 := ⟨⟨_, hN⟩, rfl⟩
  obtain ⟨e00, e01, e02, e10, e11, e12, e20, e21, e22, e30, e31, e32⟩ := index_facts1 t
  refine ⟨t, (flush1_3 t).mpr (by omega), ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 2 ≤ (i 2).val ∧ (i 2).val < win1_3.index t (2 : Fin 3) * 2 + 2; omega

/-- THE OUTPUT ARRAY after the region is the online attention of the projected queries and keys and the values, provided
    that at every odd point the result buffer's row r, channel ch is the two-tile online arrangement of the score rows
    and value rows of the point before and of this point. -/
theorem arr1_3_of_rows (c : Dev nD)
    (hrow : ∀ (t : Fin cfg1.N) (h1 : t.val % 2 = 1) (r : Fin 1024) (ch : Fin 2),
      (dat1 (F := Ideal) V c).after 3 t (ix3 (0 : Fin 1) r ch)
        = Cert.Spec.flash2
            (tileRow (iblk1 V c 0 ⟨t.val - 1, Nat.lt_of_le_of_lt (Nat.sub_le _ _) t.isLt⟩) (iblk1 V c 1 ⟨t.val - 1, Nat.lt_of_le_of_lt (Nat.sub_le _ _) t.isLt⟩) r)
            (fun s : Fin 2048 => iblk1 V c 2 ⟨t.val - 1, Nat.lt_of_le_of_lt (Nat.sub_le _ _) t.isLt⟩ (ix3 (0 : Fin 1) s ch))
            (tileRow (iblk1 V c 0 t) (iblk1 V c 1 t) r) (fun s : Fin 2048 => iblk1 V c 2 t (ix3 (0 : Fin 1) s ch))) :
    (dat1 (F := Ideal) V c).arrAt 3 cfg1.N
      = fun i => Cert.Spec.flashAt (Ideal.ofBits .f32 0x3D800000#32) (V c main_v3_0) (V c main_v3_1) (V c main_v2) (i 0) (i 1) (i 2) := by
  refine (dat1 (F := Ideal) V c).arrAt_eq_of_cover 3
    (fun i => Cert.Spec.flashAt (Ideal.ofBits .f32 0x3D800000#32) (V c main_v3_0) (V c main_v3_1) (V c main_v2) (i 0) (i 1) (i 2))
    (fun t hf => ?_) cover1_3
  have h1 : t.val % 2 = 1 := (flush1_3 t).mp hf
  obtain ⟨e00, e01, e02, e10, e11, e12, e20, e21, e22, e30, e31, e32⟩ := index_facts1 t
  show (cfg1.win 3).cut (grid1.coords t) ((dat1 (F := Ideal) V c).after 3 t) = _
  funext j
  obtain ⟨z, r, ch, rfl⟩ : ∃ (z : Fin 1) (r : Fin 1024) (ch : Fin 2), j = ix3 z r ch := ⟨j 0, j 1, j 2, eq_ix3 j⟩
  obtain rfl : z = 0 := Subsingleton.elim _ _
  show (dat1 (F := Ideal) V c).after 3 t (ix3 (0 : Fin 1) r ch)
    = Cert.Spec.flashAt (Ideal.ofBits .f32 0x3D800000#32) (V c main_v3_0) (V c main_v3_1) (V c main_v2)
        ((((cfg1.win 3).blk t).view.emb (ix3 (0 : Fin 1) r ch)) 0) ((((cfg1.win 3).blk t).view.emb (ix3 (0 : Fin 1) r ch)) 1)
        ((((cfg1.win 3).blk t).view.emb (ix3 (0 : Fin 1) r ch)) 2)
  refine (hrow t h1 r ch).trans ?_
  unfold Cert.Spec.flashAt
  have hb : ((((cfg1.win 3).blk t).view.emb (ix3 (0 : Fin 1) r ch)) 0).val = t.val / 8 := by
    show win1_3.index t (0 : Fin 3) * 1 + 1 * 0 = t.val / 8; omega
  have hl : ((((cfg1.win 3).blk t).view.emb (ix3 (0 : Fin 1) r ch)) 1).val = t.val / 2 % 4 * 1024 + r.val := by
    show win1_3.index t (1 : Fin 3) * 1024 + 1 * r.val = t.val / 2 % 4 * 1024 + r.val; omega
  have hc : ((((cfg1.win 3).blk t).view.emb (ix3 (0 : Fin 1) r ch)) 2) = ch := Fin.ext (by
    show win1_3.index t (2 : Fin 3) * 2 + 1 * ch.val = ch.val; omega)
  rw [hc]
  refine flash2_congr (funext fun s => ?_) (funext fun s => ?_) (funext fun s => ?_) (funext fun s => ?_)
  · exact tileRow_iblk1 V c ⟨t.val - 1, Nat.lt_of_le_of_lt (Nat.sub_le _ _) t.isLt⟩ r s _ _ (Cert.Spec.lo s)
      (by show _ = (t.val - 1) / 8; omega) (by show _ = (t.val - 1) / 2 % 4 * 1024 + r.val; omega)
      (by show s.val = (t.val - 1) % 2 * 2048 + s.val; omega)
  · exact iblk1_2_apply V c ⟨t.val - 1, Nat.lt_of_le_of_lt (Nat.sub_le _ _) t.isLt⟩ s ch _ (Cert.Spec.lo s)
      (by show _ = (t.val - 1) / 8; omega) (by show s.val = (t.val - 1) % 2 * 2048 + s.val; omega)
  · exact tileRow_iblk1 V c t r s _ _ (Cert.Spec.hi s) hb hl (by show 2048 + s.val = t.val % 2 * 2048 + s.val; omega)
  · exact iblk1_2_apply V c t s ch _ (Cert.Spec.hi s) hb (by show 2048 + s.val = t.val % 2 * 2048 + s.val; omega)

end Cert.KernelIdeal.Hand

end
-- ==== Proof.KIRegion1ValueArr.lean ====
/-
  The attention region's result array, at the ideal values: every entry is the online arrangement's attention over
  the two key tiles, from the row formula of the result window's buffer and the way the window's blocks tile the array.
-/
import proofs.«128623_j51281909514577_2_alg».proof.Proof.KIRegion1Value
import proofs.«128623_j51281909514577_2_alg».proof.Proof.KIRegion1Blocks

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The result array after the region holds, at (b, l, c), the online arrangement's attention of query row l. -/
theorem arr1_3 (V : (c : Dev nD) → (b : Ref sig .tc) → Buf (Elt Ideal) ((c : Thread nD τ).loc b)) (c : Dev nD) :
    (dat1 (F := Ideal) V c).arrAt 3 cfg1.N
      = fun i => Cert.Spec.flashAt (Ideal.ofBits .f32 0x3D800000#32) (V c main_v3_0) (V c main_v3_1) (V c main_v2) (i 0) (i 1) (i 2) :=
  arr1_3_of_rows V c fun t h1 r ch => after3_odd V c t h1 _ r ch

end Cert.KernelIdeal.Hand

end
-- ==== Proof.KIValue.lean ====
/-
  The kernel program's result in closed form, the attention region's output array inserted: the online arrangement of
  the projected tokens and the re-laid flow, re-laid by the last host stretch.
-/
import proofs.«128623_j51281909514577_2_alg».proof.Proof.KIValueOf
import proofs.«128623_j51281909514577_2_alg».proof.Proof.KIRegion1ValueArr

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

/-- The attention region leaves the online arrangement of its input arrays in its output array. -/
theorem region1_closed : Region1Closed := fun V c => arr1_3 V c

end Cert.KernelIdeal.Hand

end
-- ==== Proof.LibHostRows.lean ====
/-
  The host's reductions over the last axis of a rank-3 array, read at a row, at the ideal values and for any extents.

  A one-operand host reduce with a maximum body over the last axis of an [a, b, n] array is, at (p, q), the running
  maximum from the initial value over the n entries of row (p, q).
-/
import Idealize.ShloMosaic.Lib.ValueIdx
import Idealize.ShloMosaic.PureOps.Ideal.Laws

noncomputable section

namespace Cert.Lib.HostRows

open Idealize.ShloMosaic Idealize.ShloMosaic.ValueIdx

/-- The host's maximum over the last axis of an [a, b, n] array, from the initial value, read at (p, q): the running
    maximum over the row. -/
theorem hostMax_last3_apply {a b n : ℕ} {φ : FTy} {u : Shape} (x : FVec Ideal ⟨3, ![a, b, n]⟩ φ) (init : u.Idx → Ideal φ)
    (h' : (⟨3, ![a, b, n]⟩ : Shape).ReducesTo [2] ⟨2, ![a, b]⟩) (h : (⟨3, ![a, b, n]⟩ : Shape).Reduces [2] ⟨2, ![a, b]⟩)
    (hu : 0 < u.numel) (p : Fin a) (q : Fin b) :
    Host.reduce FloatOps.maximumf x init h' hu (ix2 p q)
      = (Finset.univ : Finset (Fin n)).fold max (init (Shape.Idx.first hu)) (fun k => x (ix3 p q k)) := by
  refine (Host.reduce_eq_fold_single FloatOps.maximumf x init h' h hu (ix2 p q)).trans ?_
  show (Finset.univ : Finset (Fin n)).fold max (init (Shape.Idx.first hu)) (x ∘ h.lift (ix2 p q)) = _
  refine congrArg (fun f => (Finset.univ : Finset (Fin n)).fold max (init (Shape.Idx.first hu)) f) (funext fun k => congrArg x ?_)
  exact funext fun ax => Fin.ext (by match ax with | ⟨0, _⟩ => rfl | ⟨1, _⟩ => rfl | ⟨2, _⟩ => rfl)

end Cert.Lib.HostRows

end
-- ==== Proof.RefSide.lean ====
/-
  The reference program's side: its run read back one operation at a time, at explicit coordinates.

  The reference reshapes and transposes the feature map into tokens, projects them twice (query and key rows: a
  contraction over the 256 input channels plus a bias), scores every query row against every key row (a contraction
  over the 256 projected channels times the scale 1 / sqrt 256), and takes the softmax of every row of scores in the
  usual arrangement: the row's maximum from −∞, the exponentials of the differences, their sum from 0, the quotients.
  The result at (b, l, c) is the sum over the keys s of the quotient at (b, l, s) times the value at (b, s, c).
  Each stage below is the corresponding operation read at literal coordinates; the last theorem chains them into the
  specification's attention at (b, l, c).
-/
import proofs.«128623_j51281909514577_2_alg».proof.Proof.Gen.ReferenceIdeal.Read
import proofs.«128623_j51281909514577_2_alg».proof.Proof.Spec
import proofs.«128623_j51281909514577_2_alg».proof.Proof.LibHostRows
import Idealize.ShloMosaic.Lib.ValueIdx
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.ValueIdx
open scoped BigOperators

/-! ## The two literal words -/

/-- The single-precision word of −∞ denotes ⊥. -/
theorem ofBits_neg_inf_f32 : Ideal.ofBits .f32 0xFF800000#32 = ⊥ := by
  simp [Ideal.ofBits, Ideal.ieee]

/-- The scale the reference computes on the host: 1 / sqrt 256. -/
abbrev refScale : EReal :=
  Ideal.div (Ideal.ofBits .f32 0x3F800000#32) (Ideal.sqrt (Ideal.ofBits .f32 0x43800000#32))

/-! ## Index equations at literal coordinates -/

theorem idx1_ix (b : Fin 4) (n : Fin 4096) (c : Fin 256) : idx_main_v1 (ix3 b n c) = ix3 b c n :=
  funext fun a => Fin.ext (by match a with | ⟨0, _⟩ => rfl | ⟨1, _⟩ => rfl | ⟨2, _⟩ => rfl)
theorem idx3_ix (b : Fin 4) (s : Fin 4096) (c : Fin 2) : idx_main_v3 (ix3 b s c) = ix3 b c s :=
  funext fun a => Fin.ext (by match a with | ⟨0, _⟩ => rfl | ⟨1, _⟩ => rfl | ⟨2, _⟩ => rfl)
theorem lidx4_ix (b : Fin 4) (n : Fin 4096) (d k : Fin 256) : lidx_main_v4 (ix3 b n d) k = ix3 b n k :=
  funext fun a => Fin.ext (by match a with | ⟨0, _⟩ => rfl | ⟨1, _⟩ => rfl | ⟨2, _⟩ => rfl)
theorem ridx4_ix (b : Fin 4) (n : Fin 4096) (d k : Fin 256) : ridx_main_v4 (ix3 b n d) k = ix2 d k :=
  funext fun a => Fin.ext (by match a with | ⟨0, _⟩ => rfl | ⟨1, _⟩ => rfl)
theorem idx56_ix (b : Fin 4) (n : Fin 4096) (d : Fin 256) : idx_main_v5 (idx_main_v6 (ix3 b n d)) = ix1 d :=
  funext fun a => Fin.ext (by match a with | ⟨0, _⟩ => rfl)
theorem lidx8_ix (b : Fin 4) (n : Fin 4096) (d k : Fin 256) : lidx_main_v8 (ix3 b n d) k = ix3 b n k :=
  funext fun a => Fin.ext (by match a with | ⟨0, _⟩ => rfl | ⟨1, _⟩ => rfl | ⟨2, _⟩ => rfl)
theorem ridx8_ix (b : Fin 4) (n : Fin 4096) (d k : Fin 256) : ridx_main_v8 (ix3 b n d) k = ix2 d k :=
  funext fun a => Fin.ext (by match a with | ⟨0, _⟩ => rfl | ⟨1, _⟩ => rfl)
theorem idx910_ix (b : Fin 4) (n : Fin 4096) (d : Fin 256) : idx_main_v9 (idx_main_v10 (ix3 b n d)) = ix1 d :=
  funext fun a => Fin.ext (by match a with | ⟨0, _⟩ => rfl)
theorem lidx14_ix (b : Fin 4) (l s : Fin 4096) (k : Fin 256) : lidx_main_v14 (ix3 b l s) k = ix3 b l k :=
  funext fun a => Fin.ext (by match a with | ⟨0, _⟩ => rfl | ⟨1, _⟩ => rfl | ⟨2, _⟩ => rfl)
theorem ridx14_ix (b : Fin 4) (l s : Fin 4096) (k : Fin 256) : ridx_main_v14 (ix3 b l s) k = ix3 b s k :=
  funext fun a => Fin.ext (by match a with | ⟨0, _⟩ => rfl | ⟨1, _⟩ => rfl | ⟨2, _⟩ => rfl)
theorem idx2021_ix (b : Fin 4) (l s : Fin 4096) : idx_main_v20 (idx_main_v21 (ix3 b l s)) = ix2 b l :=
  funext fun a => Fin.ext (by match a with | ⟨0, _⟩ => rfl | ⟨1, _⟩ => rfl)
theorem idx24_ix (b : Fin 4) (l k : Fin 4096) : idx_main_v24 (ix2 b l) k = ix3 b l k :=
  funext fun a => Fin.ext (by match a with | ⟨0, _⟩ => rfl | ⟨1, _⟩ => rfl | ⟨2, _⟩ => rfl)
theorem idx2526_ix (b : Fin 4) (l s : Fin 4096) : idx_main_v25 (idx_main_v26 (ix3 b l s)) = ix2 b l :=
  funext fun a => Fin.ext (by match a with | ⟨0, _⟩ => rfl | ⟨1, _⟩ => rfl)
theorem lidx28_ix (b : Fin 4) (l : Fin 4096) (c : Fin 2) (k : Fin 4096) : lidx_main_v28 (ix3 b l c) k = ix3 b l k :=
  funext fun a => Fin.ext (by match a with | ⟨0, _⟩ => rfl | ⟨1, _⟩ => rfl | ⟨2, _⟩ => rfl)
theorem ridx28_ix (b : Fin 4) (l : Fin 4096) (c : Fin 2) (k : Fin 4096) : ridx_main_v28 (ix3 b l c) k = ix3 b k c :=
  funext fun a => Fin.ext (by match a with | ⟨0, _⟩ => rfl | ⟨1, _⟩ => rfl | ⟨2, _⟩ => rfl)

/-! ## The projections -/

/-- A token (b, n) at channel c is the reshaped feature map at (b, c, n). -/
theorem tok_apply (x0 : (⟨S4x256x64x64, .f32⟩ : BufTy).Contents (Elt Ideal)) (b : Fin 4) (n : Fin 4096) (c : Fin 256) :
    val_main_v1 (F := Ideal) x0 (ix3 b n c) = val_main_v0 (F := Ideal) x0 (ix3 b c n) := by
  rw [val_main_v1_apply, idx1_ix]

/-- The query rows are the linear layer of the tokens. -/
theorem q_apply (x0 : (⟨S4x256x64x64, .f32⟩ : BufTy).Contents (Elt Ideal)) (x2 : (⟨S256x256, .f32⟩ : BufTy).Contents (Elt Ideal)) (x3 : (⟨S256, .f32⟩ : BufTy).Contents (Elt Ideal)) (b : Fin 4) (n : Fin 4096) (d : Fin 256) :
    val_main_v7 (F := Ideal) x0 x2 x3 (ix3 b n d) = Cert.Spec.projAt (val_main_v0 (F := Ideal) x0) x2 x3 b n d := by
  rw [val_main_v7_apply, val_main_v4_apply, val_main_v6_apply, val_main_v5_apply, idx56_ix, Ideal.addf_def]
  unfold Cert.Spec.projAt
  refine congrArg (· + x3 (ix1 d)) (Finset.sum_congr rfl fun k _ => ?_)
  rw [lidx4_ix, ridx4_ix, tok_apply]

/-- The key rows are the linear layer of the tokens. -/
theorem k_apply (x0 : (⟨S4x256x64x64, .f32⟩ : BufTy).Contents (Elt Ideal)) (x4 : (⟨S256x256, .f32⟩ : BufTy).Contents (Elt Ideal)) (x5 : (⟨S256, .f32⟩ : BufTy).Contents (Elt Ideal)) (b : Fin 4) (n : Fin 4096) (d : Fin 256) :
    val_main_v11 (F := Ideal) x0 x4 x5 (ix3 b n d) = Cert.Spec.projAt (val_main_v0 (F := Ideal) x0) x4 x5 b n d := by
  rw [val_main_v11_apply, val_main_v8_apply, val_main_v10_apply, val_main_v9_apply, idx910_ix, Ideal.addf_def]
  unfold Cert.Spec.projAt
  refine congrArg (· + x5 (ix1 d)) (Finset.sum_congr rfl fun k _ => ?_)
  rw [lidx8_ix, ridx8_ix, tok_apply]

/-! ## The scores -/

/-- The broadcast scale is 1 / sqrt 256 everywhere. -/
theorem scale_apply (i : S4x4096x4096.Idx) : val_main_v15 (F := Ideal) i = refScale := by
  rw [val_main_v15_apply, val_main_v13_apply, val_main_v12_apply, val_main_cst_0_apply, val_main_cst_apply]
  rfl

/-- The scaled score of query row l against key row s. -/
theorem score_apply (x0 : (⟨S4x256x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (b : Fin 4) (l s : Fin 4096) :
    val_main_v16 (F := Ideal) x0 x2 x3 x4 x5 (ix3 b l s)
      = Cert.Spec.scoreAt refScale (Cert.Spec.proj (val_main_v0 (F := Ideal) x0) x2 x3)
          (Cert.Spec.proj (val_main_v0 (F := Ideal) x0) x4 x5) b l s := by
  rw [val_main_v16_apply, val_main_v14_apply, scale_apply, Ideal.mulf_def]
  unfold Cert.Spec.scoreAt
  refine congrArg (· * refScale) (Finset.sum_congr rfl fun k _ => ?_)
  rw [lidx14_ix, ridx14_ix, q_apply, k_apply]
  rfl

/-! ## The softmax of a row of scores -/

/-- Row (b, l) of the scaled scores, as the specification spells it. -/
abbrev scoreRow (x0 : (⟨S4x256x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (b : Fin 4) (l : Fin 4096) : Fin 4096 → EReal :=
  fun s => Cert.Spec.scoreAt refScale (Cert.Spec.proj (val_main_v0 (F := Ideal) x0) x2 x3)
    (Cert.Spec.proj (val_main_v0 (F := Ideal) x0) x4 x5) b l s

/-- The row's maximum: the host's maximum over the keys from −∞, then once more against −∞. -/
theorem rowMax_apply (x0 : (⟨S4x256x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (b : Fin 4) (l : Fin 4096) :
    val_main_v19 (F := Ideal) x0 x2 x3 x4 x5 (ix2 b l)
      = max ⊥ ((Finset.univ : Finset (Fin 4096)).fold max ⊥ (scoreRow x0 x2 x3 x4 x5 b l)) := by
  rw [val_main_v19_apply, val_main_v18_apply, val_main_cst_2_apply, Ideal.ofBits_def, ofBits_neg_inf_f32,
    Ideal.maximumf_def]
  unfold val_main_v17
  rw [Cert.Lib.HostRows.hostMax_last3_apply (val_main_v16 (F := Ideal) x0 x2 x3 x4 x5) (val_main_cst_1 (F := Ideal))
    reducesTo_S4x4096x4096_S4x4096_d2 (by decide) h_S_ b l, val_main_cst_1_apply, Ideal.ofBits_def, ofBits_neg_inf_f32]
  refine congrArg (fun f => max ⊥ ((Finset.univ : Finset (Fin 4096)).fold max ⊥ f)) (funext fun s => ?_)
  exact score_apply x0 x2 x3 x4 x5 b l s

/-- The exponential of a score's difference to its row's maximum. -/
theorem exp_apply (x0 : (⟨S4x256x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (b : Fin 4) (l s : Fin 4096) :
    val_main_v23 (F := Ideal) x0 x2 x3 x4 x5 (ix3 b l s)
      = Ideal.exp (scoreRow x0 x2 x3 x4 x5 b l s
          - max ⊥ ((Finset.univ : Finset (Fin 4096)).fold max ⊥ (scoreRow x0 x2 x3 x4 x5 b l))) := by
  rw [val_main_v23_apply, val_main_v22_apply, val_main_v21_apply, val_main_v20_apply, idx2021_ix, rowMax_apply,
    score_apply, Ideal.hostUnary_exp_def, Ideal.subf_def]

/-- The row's sum of exponentials, from 0. -/
theorem rowSum_apply (x0 : (⟨S4x256x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (b : Fin 4) (l : Fin 4096) :
    val_main_v24 (F := Ideal) x0 x2 x3 x4 x5 (ix2 b l)
      = 0 + ∑ s : Fin 4096, Ideal.exp (scoreRow x0 x2 x3 x4 x5 b l s
          - max ⊥ ((Finset.univ : Finset (Fin 4096)).fold max ⊥ (scoreRow x0 x2 x3 x4 x5 b l))) := by
  rw [val_main_v24_apply, val_main_cst_3_apply, Ideal.ofBits_def, Ideal.ofBits_zero_f32]
  refine congrArg (0 + ·) (Finset.sum_congr rfl fun k _ => ?_)
  rw [idx24_ix, exp_apply]

/-- The softmax weight of key s in row (b, l). -/
theorem weight_apply (x0 : (⟨S4x256x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (b : Fin 4) (l s : Fin 4096) :
    val_main_v27 (F := Ideal) x0 x2 x3 x4 x5 (ix3 b l s)
      = Ideal.div (Ideal.exp (scoreRow x0 x2 x3 x4 x5 b l s
          - max ⊥ ((Finset.univ : Finset (Fin 4096)).fold max ⊥ (scoreRow x0 x2 x3 x4 x5 b l))))
        (0 + ∑ s' : Fin 4096, Ideal.exp (scoreRow x0 x2 x3 x4 x5 b l s'
          - max ⊥ ((Finset.univ : Finset (Fin 4096)).fold max ⊥ (scoreRow x0 x2 x3 x4 x5 b l)))) := by
  rw [val_main_v27_apply, val_main_v26_apply, val_main_v25_apply, idx2526_ix, rowSum_apply, exp_apply,
    Ideal.hostDivf_def]

/-! ## The result before the final layout operations -/

/-- The reference's attention at (b, l, c) is the specification's. -/
theorem ref_v28_apply (x0 : (⟨S4x256x64x64, .f32⟩ : BufTy).Contents (Elt Ideal)) (x1 : (⟨S4x2x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (b : Fin 4) (l : Fin 4096) (c : Fin 2) :
    Read.val_main_v28 (F := Ideal) x0 x1 x2 x3 x4 x5 (ValueIdx.ix3 b l c)
      = Cert.Spec.attnAt (Ideal.div (Ideal.ofBits .f32 0x3F800000#32) (Ideal.sqrt (Ideal.ofBits .f32 0x43800000#32)))
          (Cert.Spec.proj (Read.val_main_v0 (F := Ideal) x0) x2 x3) (Cert.Spec.proj (Read.val_main_v0 (F := Ideal) x0) x4 x5)
          (Read.val_main_v3 (F := Ideal) x1) b l c := by
  rw [val_main_v28_apply]
  unfold Cert.Spec.attnAt Cert.Spec.soft
  refine Finset.sum_congr rfl fun k _ => ?_
  rw [lidx28_ix, ridx28_ix, weight_apply]

/-! ## The final layout operations -/

/-- The reference's last two operations on an array [4, 4096, 2]: the reshape to [4, 64, 64, 2], then the transpose
    by [0, 3, 1, 2] to [4, 2, 64, 64]. -/
def refTail {α : Type} (y : (⟨3, ![4, 4096, 2]⟩ : Shape).Idx → α) : (⟨4, ![4, 2, 64, 64]⟩ : Shape).Idx → α :=
  transpose (⟨4, ![4, 2, 64, 64]⟩ : Shape) [0, 3, 1, 2]
    (shapeCast (⟨4, ![4, 64, 64, 2]⟩ : Shape) y shapeCasts_S4x4096x2_S4x64x64x2)
    transposes_S4x64x64x2_S4x2x64x64_0_3_1_2

/-- The reference's result is those two operations applied to its attention array. -/
theorem ref_result (x0 : (⟨S4x256x64x64, .f32⟩ : BufTy).Contents (Elt Ideal)) (x1 : (⟨S4x2x64x64, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) :
    Read.val_main_v30 (F := Ideal) x0 x1 x2 x3 x4 x5 = refTail (Read.val_main_v28 (F := Ideal) x0 x1 x2 x3 x4 x5) := rfl

/-- The two operations read at (b, c, h, w): the array at token 64 h + w of batch b, channel c. -/
theorem refTail_apply {α : Type} (y : (⟨3, ![4, 4096, 2]⟩ : Shape).Idx → α) (b : Fin 4) (c : Fin 2) (h w : Fin 64) :
    refTail y (ix4 b c h w) = y (ix3 b ⟨h.val * 64 + w.val, by have := h.isLt; have := w.isLt; omega⟩ c) := by
  unfold refTail
  rw [transpose_apply [0, 3, 1, 2] _ transposes_S4x64x64x2_S4x2x64x64_0_3_1_2 (ix4 b c h w) (ix4 b h w c)
    (fun a => match a with | ⟨0, _⟩ => rfl | ⟨1, _⟩ => rfl | ⟨2, _⟩ => rfl | ⟨3, _⟩ => rfl)]
  refine shapeCast_apply y shapeCasts_S4x4096x2_S4x64x64x2 (ix4 b h w c)
    (ix3 b ⟨h.val * 64 + w.val, by have := h.isLt; have := w.isLt; omega⟩ c) ?_
  rewrite [Shape.rowMajor_val_three, Shape.rowMajor_val_four]
  show (b.val * 4096 + (h.val * 64 + w.val)) * 2 + c.val = ((b.val * 64 + h.val) * 64 + w.val) * 2 + c.val
  omega

end Cert.ReferenceIdeal.RefSide

end
-- ==== Proof.LibReals.lean ====
/-
  Extended reals that are real numbers. At the ideal float values every float is an extended real; a
  value is FINITE when it is the image of a real number. This module collects, with no reference to any
  program: the predicate "every entry of a family is a real" and its closure under the exact operations
  (sum, product, difference, maximum, finite sums, division by a nonzero real, reciprocal square root
  of a positive real); the coercion of a finite real sum; and the identity between the two textbook
  forms of the variance of a finite family, (1/N) Σ (xᵢ − μ)² = (1/N) Σ xᵢ² − μ² with μ = (1/N) Σ xᵢ,
  first over the reals and then over real-valued extended reals, where each quotient is the ideal
  division and each sum may carry a leading zero summand; the variance is a real and is not negative.
-/
import Idealize.ShloMosaic.PureOps.Ideal

noncomputable section

namespace Cert.Reals

open Idealize.ShloMosaic
open scoped BigOperators

/-- An extended real that is (the image of) a real number. -/
def IsRealS (x : EReal) : Prop := ∃ r : ℝ, x = (r : EReal)

/-- Every entry of a family of extended reals is a real number. -/
def IsReal {ι : Type*} (f : ι → EReal) : Prop := ∀ i, ∃ r : ℝ, f i = (r : EReal)

/-- A family is real exactly when each entry is. -/
theorem isReal_iff {ι : Type*} (f : ι → EReal) : IsReal f ↔ ∀ i, IsRealS (f i) := Iff.rfl

/-- An entry of a real family is a real. -/
theorem IsReal.apply {ι : Type*} {f : ι → EReal} (h : IsReal f) (i : ι) : IsRealS (f i) := h i

/-- A real family is the coercion of a family of reals. -/
theorem IsReal.exists_eq {ι : Type*} {f : ι → EReal} (h : IsReal f) : ∃ r : ι → ℝ, f = fun i => (r i : EReal) := by
  choose r hr using h
  exact ⟨r, funext hr⟩

/-- The coercion of a family of reals is a real family. -/
theorem isReal_coe {ι : Type*} (r : ι → ℝ) : IsReal (fun i => (r i : EReal)) := fun i => ⟨r i, rfl⟩

/-- Re-indexing a real family gives a real family. -/
theorem IsReal.comp {ι κ : Type*} {f : ι → EReal} (h : IsReal f) (g : κ → ι) : IsReal (fun k => f (g k)) :=
  fun k => h (g k)

/-- A real number is a real. -/
theorem isRealS_coe (r : ℝ) : IsRealS (r : EReal) := ⟨r, rfl⟩

/-- Zero is a real. -/
theorem isRealS_zero : IsRealS 0 := ⟨0, rfl⟩

/-- One is a real. -/
theorem isRealS_one : IsRealS 1 := ⟨1, rfl⟩

/-- A real is not the upper infinity. -/
theorem IsRealS.ne_top {x : EReal} (h : IsRealS x) : x ≠ ⊤ := by
  obtain ⟨r, rfl⟩ := h; exact EReal.coe_ne_top r

/-- A real is not the lower infinity. -/
theorem IsRealS.ne_bot {x : EReal} (h : IsRealS x) : x ≠ ⊥ := by
  obtain ⟨r, rfl⟩ := h; exact EReal.coe_ne_bot r

/-- An extended real that is neither infinity is a real. -/
theorem isRealS_of_ne {x : EReal} (ht : x ≠ ⊤) (hb : x ≠ ⊥) : IsRealS x := by
  induction x using EReal.rec with
  | bot => exact absurd rfl hb
  | top => exact absurd rfl ht
  | coe r => exact ⟨r, rfl⟩

/-- The sum of two reals is a real. -/
theorem IsRealS.add {x y : EReal} (hx : IsRealS x) (hy : IsRealS y) : IsRealS (x + y) := by
  obtain ⟨a, rfl⟩ := hx; obtain ⟨b, rfl⟩ := hy
  exact ⟨a + b, (EReal.coe_add a b).symm⟩

/-- The product of two reals is a real. -/
theorem IsRealS.mul {x y : EReal} (hx : IsRealS x) (hy : IsRealS y) : IsRealS (x * y) := by
  obtain ⟨a, rfl⟩ := hx; obtain ⟨b, rfl⟩ := hy
  exact ⟨a * b, (EReal.coe_mul a b).symm⟩

/-- The negation of a real is a real. -/
theorem IsRealS.neg {x : EReal} (hx : IsRealS x) : IsRealS (-x) := by
  obtain ⟨a, rfl⟩ := hx
  exact ⟨-a, (EReal.coe_neg a).symm⟩

/-- The difference of two reals (the extended reals' subtraction, which the ideal values' subtraction is)
    is a real. -/
theorem IsRealS.sub {x y : EReal} (hx : IsRealS x) (hy : IsRealS y) : IsRealS (x - y) := by
  obtain ⟨a, rfl⟩ := hx; obtain ⟨b, rfl⟩ := hy
  exact ⟨a - b, (EReal.coe_sub a b).symm⟩

/-- The maximum of two reals is a real. -/
theorem IsRealS.max {x y : EReal} (hx : IsRealS x) (hy : IsRealS y) : IsRealS (max x y) := by
  rcases max_choice x y with h | h <;> rw [h] <;> assumption

/-- The minimum of two reals is a real. -/
theorem IsRealS.min {x y : EReal} (hx : IsRealS x) (hy : IsRealS y) : IsRealS (min x y) := by
  rcases min_choice x y with h | h <;> rw [h] <;> assumption

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) := coe_finset_sum Finset.univ f

/-- A finite sum of reals is a real. -/
theorem isRealS_sum {ι : Type*} (s : Finset ι) (f : ι → EReal) (h : ∀ i ∈ s, IsRealS (f i)) :
    IsRealS (∑ i ∈ s, f i) := by
  classical
  induction s using Finset.induction_on with
  | empty => simpa using isRealS_zero
  | insert a s ha ih =>
    rw [Finset.sum_insert ha]
    exact (h a (Finset.mem_insert_self a s)).add (ih fun i hi => h i (Finset.mem_insert_of_mem hi))

/-- A sum over a finite set of entries of a real family is a real. -/
theorem IsReal.sum {ι : Type*} {f : ι → EReal} (h : IsReal f) (s : Finset ι) : IsRealS (∑ i ∈ s, f i) :=
  isRealS_sum s f fun i _ => h i

/-- A sum over a whole finite type of entries of a real family is a real. -/
theorem IsReal.sum_univ {ι : Type*} [Fintype ι] {f : ι → EReal} (h : IsReal f) : IsRealS (∑ i, f i) :=
  h.sum Finset.univ

/-- A finite sum of extended reals that are not negative is not negative. -/
theorem sum_nonneg {ι : Type*} (s : Finset ι) (f : ι → EReal) (h : ∀ i ∈ s, 0 ≤ f i) : 0 ≤ ∑ i ∈ s, f i :=
  Finset.sum_nonneg h

/-- The ideal quotient of two reals, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The ideal quotient of a real by a nonzero real number is a real. -/
theorem IsRealS.div_coe {x : EReal} (hx : IsRealS x) {n : ℝ} (hn : n ≠ 0) : IsRealS (Ideal.div x (n : EReal)) := by
  obtain ⟨a, rfl⟩ := hx
  exact ⟨a / n, div_coe_coe a hn⟩

/-- The ideal quotient of a real by a real that is not zero is a real. -/
theorem IsRealS.div {x y : EReal} (hx : IsRealS x) (hy : IsRealS y) (hy0 : y ≠ 0) : IsRealS (Ideal.div x y) := by
  obtain ⟨n, rfl⟩ := hy
  exact hx.div_coe (by rintro rfl; exact hy0 rfl)

/-- The ideal quotient of a real that is not negative by a positive real is not negative. -/
theorem div_coe_nonneg {a n : ℝ} (ha : 0 ≤ a) (hn : 0 < n) : (0 : EReal) ≤ Ideal.div (a : EReal) (n : EReal) := by
  rw [div_coe_coe a hn.ne']
  exact EReal.coe_nonneg.mpr (div_nonneg ha hn.le)

/-- The ideal reciprocal square root of a positive real is the real reciprocal of its square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is a real. -/
theorem IsRealS.rsqrt {x : EReal} (hx : IsRealS x) (hpos : 0 < x) : IsRealS (Ideal.rsqrt x) := by
  obtain ⟨r, rfl⟩ := hx
  exact ⟨_, rsqrt_coe_pos (EReal.coe_pos.mp hpos)⟩

/-- The host's reciprocal square root at the ideal values is the same function. -/
theorem IsRealS.hostRsqrt {φ : FTy} {x : Ideal φ} (hx : IsRealS x) (hpos : (0 : EReal) < x) :
    IsRealS (FloatOps.hostUnary (F := Ideal) .rsqrt x) := by
  rw [Ideal.hostUnary_rsqrt_def]; exact hx.rsqrt hpos

/-- The ideal reciprocal square root of a positive real is positive. -/
theorem rsqrt_pos {x : EReal} (hx : IsRealS x) (hpos : 0 < x) : 0 < Ideal.rsqrt x := by
  obtain ⟨r, rfl⟩ := hx
  have hr : 0 < r := EReal.coe_pos.mp hpos
  rw [rsqrt_coe_pos hr]
  exact EReal.coe_pos.mpr (inv_pos.mpr (Real.sqrt_pos.mpr hr))

/-- An extended real that is not negative plus a positive one is positive. -/
theorem add_pos_of_nonneg_of_pos {v e : EReal} (hv : 0 ≤ v) (he : 0 < e) : 0 < v + e := by
  calc (0 : EReal) < e := he
    _ = 0 + e := (zero_add e).symm
    _ ≤ v + e := add_le_add hv le_rfl

/-- An extended real that is not negative, plus one, is at least one. -/
theorem one_le_add_one_of_nonneg {c : EReal} (hc : 0 ≤ c) : 1 ≤ c + 1 := by
  calc (1 : EReal) = 0 + 1 := (zero_add 1).symm
    _ ≤ c + 1 := add_le_add hc le_rfl

/-- An extended real that is at least one is positive. -/
theorem pos_of_one_le {x : EReal} (h : 1 ≤ x) : 0 < x := lt_of_lt_of_le zero_lt_one h

/-! ## The variance identity -/

/-- THE VARIANCE IDENTITY over the reals: for a finite family of N reals, N not zero, the mean of the
    squared deviations from the mean is the mean of the squares minus the square of the mean. -/
theorem variance_real {ι : Type*} [Fintype ι] (f : ι → ℝ) (N : ℝ) (hN : N = Fintype.card ι) (hN0 : N ≠ 0) :
    (∑ i, (f i - (∑ j, f j) / N) * (f i - (∑ j, f j) / N)) / N
      = (∑ i, f i * f i) / N - ((∑ j, f j) / N) * ((∑ j, f j) / N) := by
  have h1 : ∑ i, (f i - (∑ j, f j) / N) * (f i - (∑ j, f j) / N)
      = (∑ i, f i * f i) - 2 * ((∑ j, f j) / N) * (∑ j, f j) + N * (((∑ j, f j) / N) * ((∑ j, f j) / N)) := by
    have h2 : ∀ i, (f i - (∑ j, f j) / N) * (f i - (∑ j, f j) / N)
        = f i * f i - 2 * ((∑ j, f j) / N) * f i + ((∑ j, f j) / N) * ((∑ j, f j) / N) := fun i => by ring
    simp only [h2]
    rw [Finset.sum_add_distrib, Finset.sum_sub_distrib, ← Finset.mul_sum, Finset.sum_const, Finset.card_univ,
      nsmul_eq_mul, ← hN]
  rw [h1]
  field_simp
  ring

/-- The mean of the squared deviations is not negative. -/
theorem variance_real_nonneg {ι : Type*} [Fintype ι] (f : ι → ℝ) (N : ℝ) (hN0 : 0 < N) :
    0 ≤ (∑ i, (f i - (∑ j, f j) / N) * (f i - (∑ j, f j) / N)) / N :=
  div_nonneg (Finset.sum_nonneg fun i _ => mul_self_nonneg _) hN0.le

/-- The variance of a family of reals, in the deviation form. -/
def varR {ι : Type*} [Fintype ι] (f : ι → ℝ) (N : ℝ) : ℝ :=
  (∑ i, (f i - (∑ j, f j) / N) * (f i - (∑ j, f j) / N)) / N

/-- It is not negative. -/
theorem varR_nonneg {ι : Type*} [Fintype ι] (f : ι → ℝ) {N : ℝ} (hN0 : 0 < N) : 0 ≤ varR f N :=
  variance_real_nonneg f N hN0

/-- The deviation form of the variance over real-valued extended reals, each quotient the ideal division
    and each difference the extended reals' subtraction, is the coercion of the real variance. -/
theorem variance_dev_coe {ι : Type*} [Fintype ι] (r : ι → ℝ) {N : ℝ} (hN0 : N ≠ 0) :
    Ideal.div (∑ i, ((r i : EReal) - Ideal.div (∑ j, (r j : EReal)) (N : EReal))
        * ((r i : EReal) - Ideal.div (∑ j, (r j : EReal)) (N : EReal))) (N : EReal)
      = ((varR r N : ℝ) : EReal) := by
  rw [← coe_fintype_sum, div_coe_coe _ hN0]
  simp only [← EReal.coe_sub, ← EReal.coe_mul]
  rw [← coe_fintype_sum, div_coe_coe _ hN0]
  rfl

/-- The moment form of the variance over real-valued extended reals is the coercion of the real variance,
    when the divisor is the number of entries. -/
theorem variance_mom_coe {ι : Type*} [Fintype ι] (r : ι → ℝ) {N : ℝ} (hN : N = Fintype.card ι) (hN0 : N ≠ 0) :
    Ideal.div (∑ i, (r i : EReal) * (r i : EReal)) (N : EReal)
        - Ideal.div (∑ j, (r j : EReal)) (N : EReal) * Ideal.div (∑ j, (r j : EReal)) (N : EReal)
      = ((varR r N : ℝ) : EReal) := by
  simp only [← EReal.coe_mul]
  rw [← coe_fintype_sum, ← coe_fintype_sum, div_coe_coe _ hN0, div_coe_coe _ hN0, ← EReal.coe_mul, ← EReal.coe_sub,
    varR, variance_real r N hN hN0]

/-- THE VARIANCE IDENTITY over real-valued extended reals: the deviation form (the mean of the squared
    differences from the mean) is the moment form (the mean of the squares minus the squared mean); every
    quotient is the ideal division by the real N, the number of entries. -/
theorem variance_ereal {ι : Type*} [Fintype ι] (x : ι → EReal) (hx : IsReal x) {N : ℝ} (hN : N = Fintype.card ι)
    (hN0 : N ≠ 0) :
    Ideal.div (∑ i, (x i - Ideal.div (∑ j, x j) (N : EReal)) * (x i - Ideal.div (∑ j, x j) (N : EReal))) (N : EReal)
      = Ideal.div (∑ i, x i * x i) (N : EReal) - Ideal.div (∑ j, x j) (N : EReal) * Ideal.div (∑ j, x j) (N : EReal) := by
  obtain ⟨r, rfl⟩ := hx.exists_eq
  rw [variance_dev_coe r hN0, variance_mom_coe r hN hN0]

/-- The same with every sum carrying the leading zero summand of a host reduction. -/
theorem variance_ereal_zero_add {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (0 + ∑ i, x i * x i) (N : EReal)
          - Ideal.div (0 + ∑ j, x j) (N : EReal) * Ideal.div (0 + ∑ j, x j) (N : EReal) := by
  simp only [zero_add]
  exact variance_ereal x hx hN hN0

/-- The deviation form with the host's leading zeros is the moment form without them. -/
theorem variance_ereal_zero_add_left {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (∑ i, x i * x i) (N : EReal) - Ideal.div (∑ j, x j) (N : EReal) * Ideal.div (∑ j, x j) (N : EReal) := by
  simp only [zero_add]
  exact variance_ereal x hx hN hN0

/-- The deviation form of the variance of a real family is a real that is not negative (N positive). -/
theorem variance_dev_real_nonneg {ι : Type*} [Fintype ι] (x : ι → EReal) (hx : IsReal x) {N : ℝ} (hN0 : 0 < N) :
    ∃ v : ℝ, 0 ≤ v ∧
      Ideal.div (∑ i, (x i - Ideal.div (∑ j, x j) (N : EReal)) * (x i - Ideal.div (∑ j, x j) (N : EReal))) (N : EReal)
        = (v : EReal) := by
  obtain ⟨r, rfl⟩ := hx.exists_eq
  exact ⟨varR r N, varR_nonneg r hN0, variance_dev_coe r hN0.ne'⟩

/-- The moment form likewise, when N is the number of entries. -/
theorem variance_mom_real_nonneg {ι : Type*} [Fintype ι] (x : ι → EReal) (hx : IsReal x) {N : ℝ}
    (hN : N = Fintype.card ι) (hN0 : 0 < N) :
    ∃ v : ℝ, 0 ≤ v ∧
      Ideal.div (∑ i, x i * x i) (N : EReal) - Ideal.div (∑ j, x j) (N : EReal) * Ideal.div (∑ j, x j) (N : EReal)
        = (v : EReal) := by
  obtain ⟨r, rfl⟩ := hx.exists_eq
  exact ⟨varR r N, varR_nonneg r hN0, variance_mom_coe r hN hN0.ne'⟩

/-- A real that is not negative, as the two facts a later step uses. -/
theorem isRealS_and_nonneg_of_exists {y : EReal} (h : ∃ v : ℝ, 0 ≤ v ∧ y = (v : EReal)) : IsRealS y ∧ 0 ≤ y := by
  obtain ⟨v, hv, rfl⟩ := h
  exact ⟨⟨v, rfl⟩, EReal.coe_nonneg.mpr hv⟩

end Cert.Reals

end
-- ==== Proof.OnlineSoftmax.lean ====
/-
  The online arrangement of the softmax-weighted value agrees with the textbook arrangement wherever every score
  and every value is a real number.

  Over the reals, with M the maximum of the two tile maxima m0 and m1: exp (m0 − M) · exp (x − m0) = exp (x − M), so
  rescaling the first tile's sums by exp (m0 − M) and adding the second tile's sums gives the sums over all keys
  taken at M; and a sum of quotients by one common divisor is the quotient of the sum. Over the extended reals the
  first tile starts from the maximum −∞ and the sums 0: its rescale factor exp (−∞ − m0) multiplies 0, and the
  maximum of −∞ and m0 is m0. The maximum of finitely many reals (at least one) is a real, and the maximum over all
  keys is the maximum of the two tile maxima.
-/
import Mathlib.Analysis.SpecialFunctions.Exp
import Mathlib.Algebra.BigOperators.Field
import Mathlib.Data.Finset.Fold
import Mathlib.Data.Fintype.Sum
import Idealize.ShloMosaic.PureOps.Ideal
import proofs.«128623_j51281909514577_2_alg».proof.Proof.Spec
import proofs.«128623_j51281909514577_2_alg».proof.Proof.LibReals

noncomputable section

namespace Cert.Spec

open Idealize.ShloMosaic Idealize.ShloMosaic.ValueIdx
open scoped BigOperators

/-! ## The identity over the reals -/

section RealSide

variable {ι₀ ι₁ ι : Type} [Fintype ι₀] [Fintype ι₁] [Fintype ι]

/-- A sum over all keys is the sum over the first tile plus the sum over the second. -/
theorem sum_tiles (e : ι₀ ⊕ ι₁ ≃ ι) (g : ι → ℝ) :
    ∑ s, g s = ∑ t, g (e (.inl t)) + ∑ t, g (e (.inr t)) := by
  rw [← Equiv.sum_comp e g, Fintype.sum_sum_type]

/-- THE ONLINE-SOFTMAX IDENTITY over the reals, for any two reference points m0 and m1 with M their maximum: the
    first tile's sums taken at m0 and rescaled by exp (m0 − M), plus the second tile's sums taken at M, divided once,
    is the sum over all keys of each exponential at M over the sum of those exponentials, times its value. -/
theorem online_real (e : ι₀ ⊕ ι₁ ≃ ι) (x u : ι → ℝ) (m0 m1 : ℝ) :
    (Real.exp (m0 - max m0 m1) * (∑ t, Real.exp (x (e (.inl t)) - m0) * u (e (.inl t)))
        + ∑ t, Real.exp (x (e (.inr t)) - max m0 m1) * u (e (.inr t)))
      / (Real.exp (m0 - max m0 m1) * (∑ t, Real.exp (x (e (.inl t)) - m0))
        + ∑ t, Real.exp (x (e (.inr t)) - max m0 m1))
      = ∑ s, Real.exp (x s - max m0 m1) / (∑ s', Real.exp (x s' - max m0 m1)) * u s := by
  have h0 : ∀ y : ℝ, Real.exp (m0 - max m0 m1) * Real.exp (y - m0) = Real.exp (y - max m0 m1) := fun y => by
    rw [← Real.exp_add]; congr 1; ring
  have hA : Real.exp (m0 - max m0 m1) * (∑ t, Real.exp (x (e (.inl t)) - m0) * u (e (.inl t)))
      = ∑ t, Real.exp (x (e (.inl t)) - max m0 m1) * u (e (.inl t)) := by
    rw [Finset.mul_sum]
    exact Finset.sum_congr rfl fun t _ => by rw [← mul_assoc, h0]
  have hL : Real.exp (m0 - max m0 m1) * (∑ t, Real.exp (x (e (.inl t)) - m0))
      = ∑ t, Real.exp (x (e (.inl t)) - max m0 m1) := by
    rw [Finset.mul_sum]
    exact Finset.sum_congr rfl fun t _ => h0 _
  rw [hA, hL, ← sum_tiles e (fun s => Real.exp (x s - max m0 m1) * u s),
    ← sum_tiles e (fun s => Real.exp (x s - max m0 m1)), Finset.sum_div]
  exact Finset.sum_congr rfl fun s _ => by rw [div_mul_eq_mul_div]

/-- The maximum over all keys is the maximum of the two tile maxima. -/
theorem sup'_tiles [Nonempty ι₀] [Nonempty ι₁] [Nonempty ι] (e : ι₀ ⊕ ι₁ ≃ ι) (x : ι → ℝ) :
    Finset.univ.sup' Finset.univ_nonempty x
      = max (Finset.univ.sup' Finset.univ_nonempty fun t => x (e (.inl t)))
          (Finset.univ.sup' Finset.univ_nonempty fun t => x (e (.inr t))) := by
  apply le_antisymm
  · refine Finset.sup'_le _ _ fun s _ => ?_
    obtain ⟨y, rfl⟩ := e.surjective s
    cases y with
    | inl t => exact le_max_of_le_left (Finset.le_sup' (fun t => x (e (.inl t))) (Finset.mem_univ t))
    | inr t => exact le_max_of_le_right (Finset.le_sup' (fun t => x (e (.inr t))) (Finset.mem_univ t))
  · exact max_le (Finset.sup'_le _ _ fun t _ => Finset.le_sup' x (Finset.mem_univ (e (.inl t))))
      (Finset.sup'_le _ _ fun t _ => Finset.le_sup' x (Finset.mem_univ (e (.inr t))))

end RealSide

/-! ## From the extended reals to the reals -/

section Coe

variable {ι : Type} [Fintype ι]

/-- The running maximum from −∞ of finitely many reals, at least one, is the coercion of their maximum. -/
theorem fold_max_coe [Nonempty ι] (f : ι → ℝ) :
    Finset.univ.fold max ⊥ (fun t => ((f t : ℝ) : EReal))
      = ((Finset.univ.sup' Finset.univ_nonempty f : ℝ) : EReal) := by
  apply le_antisymm
  · exact (Finset.fold_max_le _).mpr ⟨bot_le, fun t _ => EReal.coe_le_coe_iff.mpr (Finset.le_sup' f (Finset.mem_univ t))⟩
  · obtain ⟨i, _, hi⟩ := Finset.exists_mem_eq_sup' Finset.univ_nonempty f
    exact (Finset.le_fold_max _).mpr (Or.inr ⟨i, Finset.mem_univ i, by rw [hi]⟩)

/-- The maximum of two reals, taken in the extended reals, is the coercion of their maximum. -/
theorem max_coe_coe (a b : ℝ) : max (a : EReal) (b : EReal) = ((max a b : ℝ) : EReal) :=
  (EReal.coe_strictMono.monotone.map_max).symm

/-- The sum of the exponentials of finitely many reals, at least one, is positive. -/
theorem sum_exp_pos [Nonempty ι] (f : ι → ℝ) : 0 < ∑ t, Real.exp (f t) :=
  Finset.sum_pos (fun t _ => Real.exp_pos _) Finset.univ_nonempty

/-- The textbook arrangement at real scores and values is the coercion of its real form. -/
theorem soft_coe [Nonempty ι] (x u : ι → ℝ) :
    soft (fun s => ((x s : ℝ) : EReal)) (fun s => ((u s : ℝ) : EReal))
      = ((∑ s, Real.exp (x s - Finset.univ.sup' Finset.univ_nonempty x)
            / (∑ s', Real.exp (x s' - Finset.univ.sup' Finset.univ_nonempty x)) * u s : ℝ) : EReal) := by
  have hZ : (∑ s', Real.exp (x s' - Finset.univ.sup' Finset.univ_nonempty x)) ≠ 0 := (sum_exp_pos _).ne'
  unfold soft
  rw [fold_max_coe x]
  simp only [bot_sup_eq, max_bot_left, zero_add, ← EReal.coe_sub, Ideal.exp_coe]
  rw [← Cert.Reals.coe_fintype_sum]
  simp only [Cert.Reals.div_coe_coe _ hZ, ← EReal.coe_mul]
  rw [← Cert.Reals.coe_fintype_sum]

end Coe

section Flash

variable {ι₀ ι₁ : Type} [Fintype ι₀] [Fintype ι₁]

/-- The online arrangement at real scores and values is the coercion of its real form: the first tile's rescale
    factor exp (−∞ − m0) multiplies the sums' start 0, and the maximum of −∞ and m0 is m0. -/
theorem flash2_coe [Nonempty ι₀] [Nonempty ι₁] (x0 u0 : ι₀ → ℝ) (x1 u1 : ι₁ → ℝ) :
    flash2 (fun t => ((x0 t : ℝ) : EReal)) (fun t => ((u0 t : ℝ) : EReal))
        (fun t => ((x1 t : ℝ) : EReal)) (fun t => ((u1 t : ℝ) : EReal))
      = (((Real.exp (Finset.univ.sup' Finset.univ_nonempty x0
              - max (Finset.univ.sup' Finset.univ_nonempty x0) (Finset.univ.sup' Finset.univ_nonempty x1))
            * (∑ t, Real.exp (x0 t - Finset.univ.sup' Finset.univ_nonempty x0) * u0 t)
          + ∑ t, Real.exp (x1 t
              - max (Finset.univ.sup' Finset.univ_nonempty x0) (Finset.univ.sup' Finset.univ_nonempty x1)) * u1 t)
        / (Real.exp (Finset.univ.sup' Finset.univ_nonempty x0
              - max (Finset.univ.sup' Finset.univ_nonempty x0) (Finset.univ.sup' Finset.univ_nonempty x1))
            * (∑ t, Real.exp (x0 t - Finset.univ.sup' Finset.univ_nonempty x0))
          + ∑ t, Real.exp (x1 t
              - max (Finset.univ.sup' Finset.univ_nonempty x0) (Finset.univ.sup' Finset.univ_nonempty x1))) : ℝ)
          : EReal) := by
  have hZ : (Real.exp (Finset.univ.sup' Finset.univ_nonempty x0
              - max (Finset.univ.sup' Finset.univ_nonempty x0) (Finset.univ.sup' Finset.univ_nonempty x1))
            * (∑ t, Real.exp (x0 t - Finset.univ.sup' Finset.univ_nonempty x0))
          + ∑ t, Real.exp (x1 t
              - max (Finset.univ.sup' Finset.univ_nonempty x0) (Finset.univ.sup' Finset.univ_nonempty x1))) ≠ 0 :=
    (add_pos_of_nonneg_of_pos (mul_nonneg (Real.exp_pos _).le (sum_exp_pos _).le) (sum_exp_pos _)).ne'
  unfold flash2 stepA stepL stepM
  rw [fold_max_coe x0, fold_max_coe x1]
  simp only [bot_sup_eq, max_bot_left, mul_zero, zero_add, max_coe_coe, ← EReal.coe_sub, Ideal.exp_coe,
    ← EReal.coe_mul]
  rw [← Cert.Reals.coe_fintype_sum, ← Cert.Reals.coe_fintype_sum, ← Cert.Reals.coe_fintype_sum,
    ← Cert.Reals.coe_fintype_sum]
  simp only [← EReal.coe_mul, ← EReal.coe_add]
  exact Cert.Reals.div_coe_coe _ hZ

end Flash

/-! ## The two arrangements agree on real rows -/

/-- THE ONLINE ARRANGEMENT IS THE TEXTBOOK ONE on a row of real scores with real values: the keys split into two
    tiles by the equivalence e. -/
theorem flash2_eq_soft {ι₀ ι₁ ι : Type} [Fintype ι₀] [Fintype ι₁] [Fintype ι] [Nonempty ι₀] [Nonempty ι₁]
    (e : ι₀ ⊕ ι₁ ≃ ι) (x u : ι → EReal) (hx : AllReal x) (hu : AllReal u) :
    flash2 (fun t => x (e (.inl t))) (fun t => u (e (.inl t))) (fun t => x (e (.inr t))) (fun t => u (e (.inr t)))
      = soft x u := by
  haveI : Nonempty ι := ⟨e (.inl (Classical.arbitrary ι₀))⟩
  choose xr hxr using hx
  choose ur hur using hu
  obtain rfl : x = fun s => ((xr s : ℝ) : EReal) := funext hxr
  obtain rfl : u = fun s => ((ur s : ℝ) : EReal) := funext hur
  rw [soft_coe xr ur, sup'_tiles e xr]
  rw [flash2_coe (fun t => xr (e (.inl t))) (fun t => ur (e (.inl t))) (fun t => xr (e (.inr t)))
    (fun t => ur (e (.inr t)))]
  exact congrArg _ (online_real e xr ur _ _)

/-! ## The 4096 keys as two tiles of 2048 -/

/-- The tile and the place within it of a key. -/
def untile (s : Fin 4096) : Fin 2048 ⊕ Fin 2048 :=
  if h : s.val < 2048 then .inl ⟨s.val, h⟩ else .inr ⟨s.val - 2048, by have := s.isLt; omega⟩

theorem untile_lo (t : Fin 2048) : untile (lo t) = .inl t := by
  have h : (lo t).val < 2048 := t.isLt
  unfold untile
  rw [dif_pos h]
  rfl

theorem untile_hi (t : Fin 2048) : untile (hi t) = .inr t := by
  have h : ¬ (hi t).val < 2048 := by
    show ¬ (2048 + t.val < 2048)
    omega
  unfold untile
  rw [dif_neg h]
  congr 1
  apply Fin.ext
  show 2048 + t.val - 2048 = t.val
  omega

theorem tile_untile (s : Fin 4096) : Sum.elim lo hi (untile s) = s := by
  unfold untile
  split
  · rfl
  · apply Fin.ext
    show 2048 + (s.val - 2048) = s.val
    omega

/-- The 4096 keys are the first tile's 2048 keys followed by the second tile's 2048 keys. -/
def tiles : Fin 2048 ⊕ Fin 2048 ≃ Fin 4096 where
  toFun := Sum.elim lo hi
  invFun := untile
  left_inv := by
    rintro (t | t)
    · exact untile_lo t
    · exact untile_hi t
  right_inv := tile_untile

@[simp] theorem tiles_inl (t : Fin 2048) : tiles (.inl t) = lo t := rfl
@[simp] theorem tiles_inr (t : Fin 2048) : tiles (.inr t) = hi t := rfl

/-- ATTENTION IN THE ONLINE ARRANGEMENT IS ATTENTION IN THE TEXTBOOK ARRANGEMENT at every query row whose scores are
    reals, the values being reals. -/
theorem flashAt_eq_attnAt (σ : EReal) (q k : (⟨3, ![4, 4096, 256]⟩ : Shape).Idx → EReal)
    (v : (⟨3, ![4, 4096, 2]⟩ : Shape).Idx → EReal) (b : Fin 4) (l : Fin 4096) (c : Fin 2)
    (hs : AllReal (fun s : Fin 4096 => scoreAt σ q k b l s)) (hv : AllReal v) :
    flashAt σ q k v b l c = attnAt σ q k v b l c :=
  flash2_eq_soft tiles (fun s : Fin 4096 => scoreAt σ q k b l s) (fun s : Fin 4096 => v (ix3 b s c)) hs
    (fun s => hv (ix3 b s c))

end Cert.Spec

end
-- ==== Proof.Reals.lean ====
/-
  Real numbers stay real: the linear layer of real features, weights and biases is real, and so is a scaled score of
  real queries and keys at a real scale. The programs' constants as extended reals: the pattern of −∞, the pattern of
  zero, and the score scale 1 / √256 = 1 / 16, which is a real.
-/
import Mathlib.Analysis.SpecialFunctions.Pow.Real
import Idealize.ShloMosaic.PureOps.Ideal
import Idealize.ShloMosaic.PureOps.Ideal.Laws
import proofs.«128623_j51281909514577_2_alg».proof.Proof.Spec
import proofs.«128623_j51281909514577_2_alg».proof.Proof.LibReals

noncomputable section

namespace Cert.Spec

open Idealize.ShloMosaic Idealize.ShloMosaic.ValueIdx
open scoped BigOperators

/-! ## Closure -/

/-- The linear layer of real features, weights and biases is a real at every token and channel. -/
theorem projAt_real {feat : (⟨3, ![4, 256, 4096]⟩ : Shape).Idx → EReal} {w : (⟨2, ![256, 256]⟩ : Shape).Idx → EReal}
    {bias : (⟨1, ![256]⟩ : Shape).Idx → EReal} (hf : AllReal feat) (hw : AllReal w) (hb : AllReal bias)
    (b : Fin 4) (n : Fin 4096) (d : Fin 256) : ∃ r : ℝ, projAt feat w bias b n d = (r : EReal) :=
  Cert.Reals.IsRealS.add
    (Cert.Reals.isRealS_sum _ _ fun c _ => Cert.Reals.IsRealS.mul (hf (ix3 b c n)) (hw (ix2 d c))) (hb (ix1 d))

/-- The projected tokens of real features, weights and biases are all reals. -/
theorem proj_real {feat : (⟨3, ![4, 256, 4096]⟩ : Shape).Idx → EReal} {w : (⟨2, ![256, 256]⟩ : Shape).Idx → EReal}
    {bias : (⟨1, ![256]⟩ : Shape).Idx → EReal} (hf : AllReal feat) (hw : AllReal w) (hb : AllReal bias) :
    AllReal (proj feat w bias) :=
  fun i => projAt_real hf hw hb (i 0) (i 1) (i 2)

/-- The scaled score of real queries and keys at a real scale is a real. -/
theorem scoreAt_real {σ : EReal} {q k : (⟨3, ![4, 4096, 256]⟩ : Shape).Idx → EReal} (hσ : ∃ r : ℝ, σ = (r : EReal))
    (hq : AllReal q) (hk : AllReal k) (b : Fin 4) (l s : Fin 4096) : ∃ r : ℝ, scoreAt σ q k b l s = (r : EReal) :=
  Cert.Reals.IsRealS.mul
    (Cert.Reals.isRealS_sum _ _ fun d _ => Cert.Reals.IsRealS.mul (hq (ix3 b l d)) (hk (ix3 b s d))) hσ

/-! ## The constants -/

/-- The single-precision pattern of −∞ is −∞. -/
theorem ofBits_negInf : Ideal.ofBits .f32 0xFF800000#32 = ⊥ := by simp [Ideal.ofBits, Ideal.ieee]

/-- The single-precision pattern of zero is zero. -/
theorem ofBits_zero : Ideal.ofBits .f32 0x00000000#32 = 0 := Ideal.ofBits_zero_f32

/-- The single-precision pattern 0x3F800000 is the real one. -/
theorem ofBits_one : Ideal.ofBits .f32 0x3F800000#32 = ((1 : ℝ) : EReal) := by
  simp [Ideal.ofBits, Ideal.ieee, -EReal.coe_mul]; norm_num

/-- The single-precision pattern 0x43800000 is the real 256. -/
theorem ofBits_256 : Ideal.ofBits .f32 0x43800000#32 = ((256 : ℝ) : EReal) := by
  simp [Ideal.ofBits, Ideal.ieee, -EReal.coe_mul]; norm_num

/-- The single-precision pattern 0x3D800000 is the real one sixteenth. -/
theorem ofBits_sixteenth : Ideal.ofBits .f32 0x3D800000#32 = (((1 : ℝ) / 16 : ℝ) : EReal) := by
  simp [Ideal.ofBits, Ideal.ieee, -EReal.coe_mul]; norm_num

/-- The square root of 256 is 16. -/
theorem sqrt_256 : Real.sqrt 256 = 16 := by
  rw [show (256 : ℝ) = 16 ^ 2 by norm_num]
  exact Real.sqrt_sq (by norm_num)

/-- The score scale as the programs spell it, one over the square root of 256, is the pattern of one sixteenth. -/
theorem sigma_eq :
    Ideal.div (Ideal.ofBits .f32 0x3F800000#32) (Ideal.sqrt (Ideal.ofBits .f32 0x43800000#32))
      = Ideal.ofBits .f32 0x3D800000#32 := by
  rw [ofBits_one, ofBits_256, ofBits_sixteenth, Ideal.sqrt_coe, if_neg (by norm_num), sqrt_256]
  exact Cert.Reals.div_coe_coe 1 (by norm_num)

/-- The score scale is a real. -/
theorem sigma_real : ∃ r : ℝ, Ideal.ofBits .f32 0x3D800000#32 = (r : EReal) := ⟨_, ofBits_sixteenth⟩

end Cert.Spec

end
-- ==== Proof.RefFlash.lean ====
/-
  The reference's result in the online arrangement's form. The reference computes, at every query row, the
  softmax-weighted value in the textbook arrangement, at the scale 1 / sqrt 256, over the projected tokens and the
  re-laid values. When every argument entry is a real number, the projected tokens, the scale and the scores are
  reals, and the re-laid arrays' entries are entries of the arguments; so the textbook arrangement is the online one
  over two tiles of 2048 keys, and the scale is the word of one sixteenth.
-/
import proofs.«128623_j51281909514577_2_alg».proof.Proof.Gen.ReferenceIdeal.Read
import proofs.«128623_j51281909514577_2_alg».proof.Proof.RefSide
import proofs.«128623_j51281909514577_2_alg».proof.Proof.OnlineSoftmax
import proofs.«128623_j51281909514577_2_alg».proof.Proof.Reals

noncomputable section

namespace Cert.ReferenceIdeal.RefSide

open Cert.ReferenceIdeal Cert.ReferenceIdeal.Gen Cert.ReferenceIdeal.Read Idealize.ShloMosaic Idealize.ShloMosaic.ValueIdx

/-- The feature map re-laid as [4, 256, 4096] has real entries when the feature map has: each entry is one of its. -/
theorem allReal_v0 (a0 : (⟨S4x256x64x64, .f32⟩ : BufTy).Contents (Elt Ideal)) (h0 : Cert.Spec.AllReal a0) :
    Cert.Spec.AllReal (Read.val_main_v0 (F := Ideal) a0) := by
  intro i
  show ∃ r : ℝ, Read.val_main_v0 (F := Ideal) a0 i = (r : EReal)
  rw [val_main_v0_apply]
  exact h0 _

/-- The values re-laid as [4, 4096, 2] have real entries when the value map has: each entry is one of its. -/
theorem allReal_v3 (a1 : (⟨S4x2x64x64, .f32⟩ : BufTy).Contents (Elt Ideal)) (h1 : Cert.Spec.AllReal a1) :
    Cert.Spec.AllReal (Read.val_main_v3 (F := Ideal) a1) := by
  intro i
  show ∃ r : ℝ, Read.val_main_v3 (F := Ideal) a1 i = (r : EReal)
  rw [val_main_v3_apply, val_main_v2_apply]
  exact h1 _

/-- THE REFERENCE'S RESULT IN THE ONLINE ARRANGEMENT: on real arguments the reference's result is its two final layout
    operations applied to the online arrangement's attention at the scale one sixteenth. -/
theorem ref_eq_flash (a0 : (⟨S4x256x64x64, .f32⟩ : BufTy).Contents (Elt Ideal))
    (a1 : (⟨S4x2x64x64, .f32⟩ : BufTy).Contents (Elt Ideal)) (a2 : (⟨S256x256, .f32⟩ : BufTy).Contents (Elt Ideal))
    (a3 : (⟨S256, .f32⟩ : BufTy).Contents (Elt Ideal)) (a4 : (⟨S256x256, .f32⟩ : BufTy).Contents (Elt Ideal))
    (a5 : (⟨S256, .f32⟩ : BufTy).Contents (Elt Ideal))
    (h0 : Cert.Spec.AllReal a0) (h1 : Cert.Spec.AllReal a1) (h2 : Cert.Spec.AllReal a2) (h3 : Cert.Spec.AllReal a3)
    (h4 : Cert.Spec.AllReal a4) (h5 : Cert.Spec.AllReal a5) :
    Read.val_main_v30 (F := Ideal) a0 a1 a2 a3 a4 a5
      = refTail (fun i => Cert.Spec.flashAt (Ideal.ofBits .f32 0x3D800000#32)
          (Cert.Spec.proj (Read.val_main_v0 (F := Ideal) a0) a2 a3)
          (Cert.Spec.proj (Read.val_main_v0 (F := Ideal) a0) a4 a5)
          (Read.val_main_v3 (F := Ideal) a1) (i 0) (i 1) (i 2)) := by
  rw [ref_result]
  refine congrArg refTail (funext fun i => ?_)
  obtain ⟨b, l, c, rfl⟩ : ∃ (b : Fin 4) (l : Fin 4096) (c : Fin 2), i = ix3 b l c := ⟨i 0, i 1, i 2, eq_ix3 i⟩
  show Read.val_main_v28 (F := Ideal) a0 a1 a2 a3 a4 a5 (ix3 b l c)
    = Cert.Spec.flashAt (Ideal.ofBits .f32 0x3D800000#32) (Cert.Spec.proj (Read.val_main_v0 (F := Ideal) a0) a2 a3)
        (Cert.Spec.proj (Read.val_main_v0 (F := Ideal) a0) a4 a5) (Read.val_main_v3 (F := Ideal) a1) b l c
  rw [ref_v28_apply, Cert.Spec.sigma_eq]
  exact (Cert.Spec.flashAt_eq_attnAt _ _ _ _ b l c
    (fun s => Cert.Spec.scoreAt_real Cert.Spec.sigma_real (Cert.Spec.proj_real (allReal_v0 a0 h0) h2 h3)
      (Cert.Spec.proj_real (allReal_v0 a0 h0) h4 h5) b l s)
    (allReal_v3 a1 h1)).symm

end Cert.ReferenceIdeal.RefSide

end
-- ==== Proof.FiniteInputs.lean ====
/-
  From the precondition to real inputs. The precondition says, of each of the six argument arrays, that every
  entry's absolute value is below +∞ — printed as a comparison of max x (−x) against the pattern of +∞, every
  comparison's result reduced by "and" from 1, and the six reductions joined by "and" — and that the whole is 1.
  An extended real whose absolute value is below +∞ is neither infinity, so it is a real number.
-/
import proofs.«128623_j51281909514577_2_alg».proof.Defs
import proofs.«128623_j51281909514577_2_alg».proof.Proof.Gen.Pre_finite_inputs
import proofs.«128623_j51281909514577_2_alg».proof.Proof.Spec
import Idealize.ShloMosaic.Lib.ReduceAll
import Idealize.ShloMosaic.Lib.ValueIdx

noncomputable section

namespace Cert.Spec

open Idealize.ShloMosaic Idealize.SL.Sem Idealize.ShloMosaic.ValueIdx

/-- The single-precision pattern 0x7F800000 is +∞. -/
theorem ofBits_posInf : Ideal.ofBits .f32 0x7F800000#32 = ⊤ := by simp [Ideal.ofBits, Ideal.ieee]

/-- An extended real whose absolute value compares below the pattern of +∞ is a real number. -/
theorem real_of_abs_lt (x : EReal)
    (h : Ideal.cmp .olt (max x (-x)) (Ideal.ofBits .f32 0x7F800000#32) = 1#1) : ∃ r : ℝ, x = (r : EReal) := by
  rw [ofBits_posInf] at h
  have hlt : max x (-x) < ⊤ := by
    by_contra hn
    simp [Ideal.cmp, hn] at h
  induction x using EReal.rec with
  | bot => exact absurd hlt (by simp)
  | top => exact absurd hlt (by simp)
  | coe r => exact ⟨r, rfl⟩

instance : Subsingleton Cert.Pre_finite_inputs.S_.Idx := ⟨fun a b => funext fun d => d.elim0⟩

/-- One argument's part of the precondition: the reduction by "and" of the comparisons being 1 makes every entry a
    real. -/
theorem allReal_of_reduce {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a)
          (broadcastInDim s ![] hb (constant (F := Ideal) Cert.Pre_finite_inputs.S_ .f32 0x7F800000#32)))
        (constantI Cert.Pre_finite_inputs.S_ 1 1#1) hr hu ix0 = 1#1) : AllReal a :=
  fun i => real_of_abs_lt (a i) (Host.reduce_andi_all _ _ hr hu ix0 e i)

/-- THE INPUTS ARE REAL: under the precondition every entry of each of the six argument arrays is a real number. -/
theorem real_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0)
        : FVec Ideal Cert.Pre_finite_inputs.S4x256x64x64 .f32)
      ∧ AllReal (m ((c.tc : Thread Cert.KernelIdeal.nD Cert.KernelIdeal.τ).loc Cert.KernelIdeal.main_arg1)
        : FVec Ideal Cert.Pre_finite_inputs.S4x2x64x64 .f32)
      ∧ AllReal (m ((c.tc : Thread Cert.KernelIdeal.nD Cert.KernelIdeal.τ).loc Cert.KernelIdeal.main_arg2)
        : FVec Ideal Cert.Pre_finite_inputs.S256x256 .f32)
      ∧ AllReal (m ((c.tc : Thread Cert.KernelIdeal.nD Cert.KernelIdeal.τ).loc Cert.KernelIdeal.main_arg3)
        : FVec Ideal Cert.Pre_finite_inputs.S256 .f32)
      ∧ AllReal (m ((c.tc : Thread Cert.KernelIdeal.nD Cert.KernelIdeal.τ).loc Cert.KernelIdeal.main_arg4)
        : FVec Ideal Cert.Pre_finite_inputs.S256x256 .f32)
      ∧ AllReal (m ((c.tc : Thread Cert.KernelIdeal.nD Cert.KernelIdeal.τ).loc Cert.KernelIdeal.main_arg5)
        : FVec Ideal Cert.Pre_finite_inputs.S256 .f32) := by
  have e := congrFun (h c) ix0
  dsimp only [Cert.Pre_finite_inputs.fn, Cert.Pre_finite_inputs.fn_part1, andi] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨allReal_of_reduce _ _ _ _ e0, allReal_of_reduce _ _ _ _ e1, allReal_of_reduce _ _ _ _ e2,
    allReal_of_reduce _ _ _ _ e3, allReal_of_reduce _ _ _ _ e4, allReal_of_reduce _ _ _ _ e5⟩

end Cert.Spec

end
-- ==== Proof.lean ====
/-
  The proof of this certificate's claim: a two-kernel attention program against its textbook reference.

  The program projects every token of a [4, 256, 64, 64] feature map to queries and keys by two linear layers (first
  kernel region), then computes, per batch and query row, the softmax-weighted sum of a two-channel flow over all 4096
  keys by the ONLINE recurrence — keys visited in two tiles of 2048, a running maximum, a running sum of exponentials and
  a running weighted sum kept in scratch between the tiles and rescaled by exp (m − m') when the maximum moves, one
  division at the end (second kernel region) — and re-lays the result as [4, 2, 64, 64]. The reference computes the
  same projections and the textbook softmax (scores scaled by 1/√256, maximum over all keys, exponentials, their sum,
  the quotients against the flow).

  * The three frames. Each kernel program is run as host stretch, projection region, attention region, host stretch;
    every region's body is run symbolically once per control case on whole staging buffers, the attention region's
    scratch carried from a query tile's first key tile to its last through the region's invariant. The final memory
    holds every unscoped buffer at the last boundary's contents, and no item writes an argument. The reference's frame
    is its run with the result dropped.
  * The idealization rewrote nothing, so its statement is trivial.
  * Equality of results on the extended reals. The kernel's result, read off the boundary contents, is the online
    arrangement of the projected tokens; the reference's result, read one operation at a time, is the textbook
    arrangement of the same projected tokens with the scale 1/√256 = 1/16 = the kernel's literal. The two arrangements
    agree where every score and every value is a real number — rescaling by an exponential and moving the normalising
    sum across the weighted sum are laws of ℝ that fail at infinities — and finite inputs make every projected token,
    every score and every flow entry real.
-/
import proofs.«128623_j51281909514577_2_alg».proof.Defs
import proofs.«128623_j51281909514577_2_alg».proof.Proof.Gen.Kernel
import proofs.«128623_j51281909514577_2_alg».proof.Proof.Gen.KernelIdeal
import proofs.«128623_j51281909514577_2_alg».proof.Proof.Gen.ReferenceIdeal
import proofs.«128623_j51281909514577_2_alg».proof.Proof.Gen.Pre_finite_inputs
import proofs.«128623_j51281909514577_2_alg».proof.Proof.Gen.ReferenceIdeal.Run
import proofs.«128623_j51281909514577_2_alg».proof.Proof.KRun
import proofs.«128623_j51281909514577_2_alg».proof.Proof.KIRun
import proofs.«128623_j51281909514577_2_alg».proof.Proof.KIValue
import proofs.«128623_j51281909514577_2_alg».proof.Proof.RefFlash
import proofs.«128623_j51281909514577_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Hand.frame_all (F := Bits) m ρ

theorem frame_ki [Cert.KernelIdeal.Facts] [Cert.Pre_finite_inputs.Facts] : Cert.frame_KernelIdeal :=
  fun m ρ _ => Cert.KernelIdeal.Hand.frame_all (F := Ideal) m ρ

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- On finite inputs the two idealized programs end with equal results: the kernel's online arrangement and the
    reference's textbook arrangement of the same projected tokens. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.W4 (F := Ideal) m c (Proc.devRef .tc Cert.KernelIdeal.main_v6), ?_, ?_⟩
  · exact (θ_run Cert.KernelIdeal.defs _ _).mono (fun r h c =>
      ⟨h c _ (Cert.KernelIdeal.Hand.mem_uc Cert.KernelIdeal.main_v6 (by decide)),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c),
       (h c _ (Cert.KernelIdeal.Hand.mem_uc Cert.KernelIdeal.main_arg2 (by decide))).trans (Cert.KernelIdeal.Hand.W4_main_arg2 m c),
       (h c _ (Cert.KernelIdeal.Hand.mem_uc Cert.KernelIdeal.main_arg3 (by decide))).trans (Cert.KernelIdeal.Hand.W4_main_arg3 m c),
       (h c _ (Cert.KernelIdeal.Hand.mem_uc Cert.KernelIdeal.main_arg4 (by decide))).trans (Cert.KernelIdeal.Hand.W4_main_arg4 m c),
       (h c _ (Cert.KernelIdeal.Hand.mem_uc Cert.KernelIdeal.main_arg5 (by decide))).trans (Cert.KernelIdeal.Hand.W4_main_arg5 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨r0, r1, r2, r3, r4, r5⟩ := Cert.Spec.real_of_pre m hpre c
    refine ((Cert.ReferenceIdeal.Read.val_main_v30_eq m' c).trans ?_).trans
      (Cert.KernelIdeal.Hand.kernel_result_of m Cert.KernelIdeal.Hand.region1_closed c).symm
    rw [(hagree c).1, (hagree c).2.1, (hagree c).2.2.1, (hagree c).2.2.2.1, (hagree c).2.2.2.2.1, (hagree c).2.2.2.2.2,
      Cert.ReferenceIdeal.RefSide.ref_eq_flash _ _ _ _ _ _ r0 r1 r2 r3 r4 r5]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
